-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x29 : Shape := ⟨2, ![16384, 29]⟩
abbrev S91x16 : Shape := ⟨2, ![91, 16]⟩
abbrev S90x16 : Shape := ⟨2, ![90, 16]⟩
abbrev S128x89 : Shape := ⟨2, ![128, 89]⟩
abbrev S128 : Shape := ⟨1, ![128]⟩
abbrev S128x128 : Shape := ⟨2, ![128, 128]⟩
abbrev S_ : Shape := ⟨0, ![]⟩
abbrev S16384x1 : Shape := ⟨2, ![16384, 1]⟩
abbrev S16384x3 : Shape := ⟨2, ![16384, 3]⟩

class Facts : Prop where
  bcast_S_S16384x29 : S_.BroadcastsInDim S16384x29 (![] : Fin 0 → Fin S16384x29.rank)
  reducesTo_S16384x29_S_d0_1 : S16384x29.ReducesTo [0, 1] S_
  h_S_ : 0 < S_.numel
  bcast_S_S91x16 : S_.BroadcastsInDim S91x16 (![] : Fin 0 → Fin S91x16.rank)
  reducesTo_S91x16_S_d0_1 : S91x16.ReducesTo [0, 1] S_
  bcast_S_S90x16 : S_.BroadcastsInDim S90x16 (![] : Fin 0 → Fin S90x16.rank)
  reducesTo_S90x16_S_d0_1 : S90x16.ReducesTo [0, 1] S_
  bcast_S_S128x89 : S_.BroadcastsInDim S128x89 (![] : Fin 0 → Fin S128x89.rank)
  reducesTo_S128x89_S_d0_1 : S128x89.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S16384x29_S16384x1_0_0 : S16384x29.Slices ![0, 0] S16384x1
  bcast_S_S16384x1 : S_.BroadcastsInDim S16384x1 (![] : Fin 0 → Fin S16384x1.rank)
  reducesTo_S16384x1_S_d0_1 : S16384x1.ReducesTo [0, 1] S_
  slices_S16384x29_S16384x3_0_7 : S16384x29.Slices ![0, 7] S16384x3
  bcast_S_S16384x3 : S_.BroadcastsInDim S16384x3 (![] : Fin 0 → Fin S16384x3.rank)
  reducesTo_S16384x3_S_d0_1 : S16384x3.ReducesTo [0, 1] S_

variable [Facts]

def fn_part3 {F : FTy → Type} [FloatOps F] (main_v45 : IVec S_ 1) (main_v46 : FVec F S16384x3 .f32) (main_v47 : IVec S16384x3 32) (main_v52 : IVec S16384x3 1) : IVec S_ 1 :=
  let main_v53 : FVec F S16384x3 .f32 := sitofp .f32 main_v47
  let main_v54 : IVec S16384x3 1 := cmpf .oeq main_v53 main_v46
  let main_v55 : IVec S16384x3 1 := andi main_v52 main_v54
  let main_c_17 : IVec S_ 1 := constantI S_ 1 1#1
  let main_v56 : IVec S_ 1 := (fun x v => Host.reduce IntOp.andi x v reducesTo_S16384x3_S_d0_1 h_S_) main_v55 main_c_17
  let main_v57 : IVec S_ 1 := andi main_v45 main_v56
  main_v57

def fn_part2 {F : FTy → Type} [FloatOps F] (main_arg0 : FVec F S16384x29 .f32) (main_v33 : IVec S_ 1) : IVec S_ 1 :=
  let main_v34 : FVec F S16384x1 .f32 := (extractStridedSlice S16384x1 ![0, 0] · slices_S16384x29_S16384x1_0_0) main_arg0
  let main_v35 : IVec S16384x1 32 := fptosi 32 main_v34
  let main_c_12 : IVec S_ 32 := constantI S_ 32 0#32
  let main_v36 : IVec S16384x1 32 := broadcastInDim S16384x1 ![] bcast_S_S16384x1 main_c_12
  let main_v37 : IVec S16384x1 1 := cmpi .sge main_v35 main_v36
  let main_c_13 : IVec S_ 32 := constantI S_ 32 91#32
  let main_v38 : IVec S16384x1 32 := broadcastInDim S16384x1 ![] bcast_S_S16384x1 main_c_13
  let main_v39 : IVec S16384x1 1 := cmpi .slt main_v35 main_v38
  let main_v40 : IVec S16384x1 1 := andi main_v37 main_v39
  let main_v41 : FVec F S16384x1 .f32 := sitofp .f32 main_v35
  let main_v42 : IVec S16384x1 1 := cmpf .oeq main_v41 main_v34
  let main_v43 : IVec S16384x1 1 := andi main_v40 main_v42
  let main_c_14 : IVec S_ 1 := constantI S_ 1 1#1
  let main_v44 : IVec S_ 1 := (fun x v => Host.reduce IntOp.andi x v reducesTo_S16384x1_S_d0_1 h_S_) main_v43 main_c_14
  let main_v45 : IVec S_ 1 := andi main_v33 main_v44
  let main_v46 : FVec F S16384x3 .f32 := (extractStridedSlice S16384x3 ![0, 7] · slices_S16384x29_S16384x3_0_7) main_arg0
  let main_v47 : IVec S16384x3 32 := fptosi 32 main_v46
  let main_c_15 : IVec S_ 32 := constantI S_ 32 0#32
  let main_v48 : IVec S16384x3 32 := broadcastInDim S16384x3 ![] bcast_S_S16384x3 main_c_15
  let main_v49 : IVec S16384x3 1 := cmpi .sge main_v47 main_v48
  let main_c_16 : IVec S_ 32 := constantI S_ 32 90#32
  let main_v50 : IVec S16384x3 32 := broadcastInDim S16384x3 ![] bcast_S_S16384x3 main_c_16
  let main_v51 : IVec S16384x3 1 := cmpi .slt main_v47 main_v50
  let main_v52 : IVec S16384x3 1 := andi main_v49 main_v51
  fn_part3 (F := F) main_v45 main_v46 main_v47 main_v52

def fn_part1 {F : FTy → Type} [FloatOps F] (main_arg0 : FVec F S16384x29 .f32) (main_arg4 : FVec F S128 .f32) (main_arg5 : FVec F S128x128 .f32) (main_arg6 : FVec F S128 .f32) (main_v13 : IVec S_ 1) (main_v16 : IVec S128x89 1) : IVec S_ 1 :=
  let main_c_5 : IVec S_ 1 := constantI S_ 1 1#1
  let main_v17 : IVec S_ 1 := (fun x v => Host.reduce IntOp.andi x v reducesTo_S128x89_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_v33

def fn {F : FTy → Type} [FloatOps F] (main_arg0 : FVec F S16384x29 .f32) (main_arg1 : FVec F S91x16 .f32) (main_arg2 : FVec F S90x16 .f32) (main_arg3 : FVec F S128x89 .f32) (main_arg4 : FVec F S128 .f32) (main_arg5 : FVec F S128x128 .f32) (main_arg6 : FVec F S128 .f32) : IVec S_ 1 :=
  let main_v0 : FVec F S16384x29 .f32 := Host.absf main_arg0
  let main_cst : FVec F S_ .f32 := constant S_ .f32 0x7F800000#32
  let main_v1 : FVec F S16384x29 .f32 := broadcastInDim S16384x29 ![] bcast_S_S16384x29 main_cst
  let main_v2 : IVec S16384x29 1 := cmpf .olt main_v0 main_v1
  let main_c : IVec S_ 1 := constantI S_ 1 1#1
  let main_v3 : IVec S_ 1 := (fun x v => Host.reduce IntOp.andi x v reducesTo_S16384x29_S_d0_1 h_S_) main_v2 main_c
  let main_v4 : FVec F S91x16 .f32 := Host.absf main_arg1
  let main_cst_0 : FVec F S_ .f32 := constant S_ .f32 0x7F800000#32
  let main_v5 : FVec F S91x16 .f32 := broadcastInDim S91x16 ![] bcast_S_S91x16 main_cst_0
  let main_v6 : IVec S91x16 1 := cmpf .olt main_v4 main_v5
  let main_c_1 : IVec S_ 1 := constantI S_ 1 1#1
  let main_v7 : IVec S_ 1 := (fun x v => Host.reduce IntOp.andi x v reducesTo_S91x16_S_d0_1 h_S_) main_v6 main_c_1
  let main_v8 : IVec S_ 1 := andi main_v3 main_v7
  let main_v9 : FVec F S90x16 .f32 := Host.absf main_arg2
  let main_cst_2 : FVec F S_ .f32 := constant S_ .f32 0x7F800000#32
  let main_v10 : FVec F S90x16 .f32 := broadcastInDim S90x16 ![] bcast_S_S90x16 main_cst_2
  let main_v11 : IVec S90x16 1 := cmpf .olt main_v9 main_v10
  let main_c_3 : IVec S_ 1 := constantI S_ 1 1#1
  let main_v12 : IVec S_ 1 := (fun x v => Host.reduce IntOp.andi x v reducesTo_S90x16_S_d0_1 h_S_) main_v11 main_c_3
  let main_v13 : IVec S_ 1 := andi main_v8 main_v12
  let main_v14 : FVec F S128x89 .f32 := Host.absf main_arg3
  let main_cst_4 : FVec F S_ .f32 := constant S_ .f32 0x7F800000#32
  let main_v15 : FVec F S128x89 .f32 := broadcastInDim S128x89 ![] bcast_S_S128x89 main_cst_4
  let main_v16 : IVec S128x89 1 := cmpf .olt main_v14 main_v15
  fn_part1 (F := F) main_arg0 main_arg4 main_arg5 main_arg6 main_v13 main_v16
-- ==== Kernel.lean ====
abbrev S16384x29 : Shape := ⟨2, ![16384, 29]⟩
abbrev S91x16 : Shape := ⟨2, ![91, 16]⟩
abbrev S90x16 : Shape := ⟨2, ![90, 16]⟩
abbrev S128x89 : Shape := ⟨2, ![128, 89]⟩
abbrev S128 : Shape := ⟨1, ![128]⟩
abbrev S128x128 : Shape := ⟨2, ![128, 128]⟩
abbrev S89x128 : Shape := ⟨2, ![89, 128]⟩
abbrev S16x128 : Shape := ⟨2, ![16, 128]⟩
abbrev S_ : Shape := ⟨0, ![]⟩
abbrev S29x128 : Shape := ⟨2, ![29, 128]⟩
abbrev S6x128 : Shape := ⟨2, ![6, 128]⟩
abbrev S1 : Shape := ⟨1, ![1]⟩
abbrev S19x128 : Shape := ⟨2, ![19, 128]⟩
abbrev S128x16 : Shape := ⟨2, ![128, 16]⟩
abbrev S1x128 : Shape := ⟨2, ![1, 128]⟩
abbrev S16384x128 : Shape := ⟨2, ![16384, 128]⟩
abbrev S4096x29 : Shape := ⟨2, ![4096, 29]⟩
abbrev S4096x128 : Shape := ⟨2, ![4096, 128]⟩
abbrev S4096x1 : Shape := ⟨2, ![4096, 1]⟩

abbrev nBuf : Space → Nat
  | .hbm => 38
  | .vmem => 18
  | .smem => 0
  | _ => 0

abbrev bufTy : (tb : Table) → Fin (tcTables nBuf tb) → BufTy
  | .hbm, ⟨0, _⟩ => ⟨S16384x29, .f32⟩
  | .hbm, ⟨1, _⟩ => ⟨S91x16, .f32⟩
  | .hbm, ⟨2, _⟩ => ⟨S90x16, .f32⟩
  | .hbm, ⟨3, _⟩ => ⟨S128x89, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S89x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S29x128, .f32⟩
  | .hbm, ⟨14, _⟩ => ⟨S6x128, .f32⟩
  | .hbm, ⟨15, _⟩ => ⟨S_, .i32⟩
  | .hbm, ⟨16, _⟩ => ⟨S1, .i32⟩
  | .hbm, ⟨17, _⟩ => ⟨S29x128, .f32⟩
  | .hbm, ⟨18, _⟩ => ⟨S19x128, .f32⟩
  | .hbm, ⟨19, _⟩ => ⟨S_, .i32⟩
  | .hbm, ⟨20, _⟩ => ⟨S1, .i32⟩
  | .hbm, ⟨21, _⟩ => ⟨S29x128, .f32⟩
  | .hbm, ⟨22, _⟩ => ⟨S_, .f32⟩
  | .hbm, ⟨23, _⟩ => ⟨S128x16, .f32⟩
  | .hbm, ⟨24, _⟩ => ⟨S_, .i32⟩
  | .hbm, ⟨25, _⟩ => ⟨S1, .i32⟩
  | .hbm, ⟨26, _⟩ => ⟨S128x16, .f32⟩
  | .hbm, ⟨27, _⟩ => ⟨S_, .f32⟩
  | .hbm, ⟨28, _⟩ => ⟨S128x16, .f32⟩
  | .hbm, ⟨29, _⟩ => ⟨S_, .i32⟩
  | .hbm, ⟨30, _⟩ => ⟨S1, .i32⟩
  | .hbm, ⟨31, _⟩ => ⟨S128x16, .f32⟩
  | .hbm, ⟨32, _⟩ => ⟨S29x128, .bf16⟩
  | .hbm, ⟨33, _⟩ => ⟨S1x128, .f32⟩
  | .hbm, ⟨34, _⟩ => ⟨S128x128, .f32⟩
  | .hbm, ⟨35, _⟩ => ⟨S128x128, .bf16⟩
  | .hbm, ⟨36, _⟩ => ⟨S1x128, .f32⟩
  | .hbm, ⟨37, _⟩ => ⟨S16384x128, .f32⟩
  | .local _ .vmem, ⟨0, _⟩ => ⟨S4096x29, .f32⟩
  | .local _ .vmem, ⟨1, _⟩ => ⟨S4096x29, .f32⟩
  | .local _ .vmem, ⟨2, _⟩ => ⟨S128x16, .f32⟩
  | .local _ .vmem, ⟨3, _⟩ => ⟨S128x16, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S29x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S128x128, .bf16⟩
  | _, _ => ⟨S16384x29, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x29 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S29x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S128x89_S89x128_1_0 : S128x89.Transposes [1, 0] S89x128
  slices_S89x128_S16x128_0_0 : S89x128.Slices ![0, 0] S16x128
  slices_S89x128_S16x128_22_0 : S89x128.Slices ![22, 0] S16x128
  slices_S89x128_S16x128_38_0 : S89x128.Slices ![38, 0] S16x128
  slices_S89x128_S16x128_54_0 : S89x128.Slices ![54, 0] S16x128
  bcast_S_S29x128 : S_.BroadcastsInDim S29x128 (![] : Fin 0 → Fin S29x128.rank)
  slices_S89x128_S6x128_16_0 : S89x128.Slices ![16, 0] S6x128
  bcast_S_S1 : S_.BroadcastsInDim S1 (![] : Fin 0 → Fin S1.rank)
  slices_S89x128_S19x128_70_0 : S89x128.Slices ![70, 0] S19x128
  bcast_S_S128x16 : S_.BroadcastsInDim S128x16 (![] : Fin 0 → Fin S128x16.rank)
  bitsLt_bf16_f32 : FTy.bits .bf16 < FTy.bits .f32
  shapeCasts_S128_S1x128 : S128.ShapeCasts S1x128
  transposes_S128x128_S128x128_1_0 : S128x128.Transposes [1, 0] S128x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S128x128_S128x128_0_0 : (Rect.unit (s := S128x128) ![0, 0] S128x128.size inb_S128x128_S128x128_0_0).PackedRows (EltTy.packing .bf16)
  inb_S4096x29_S4096x29_0_0 : ∀ a, (![0, 0] : Fin 2 → Nat) a + S4096x29.size a ≤ S4096x29.size a
  h_S4096x29 : 0 < S4096x29.numel
  iota_S1x128_d1_w32 : S1x128.Iotas .tc 32 [1]
  slices_S4096x29_o0_0_S4096x1 : S4096x29.Slices ![0, 0] S4096x1
  broadcasts_S1x128_S4096x128 : S1x128.Broadcasts S4096x128
  broadcasts_S4096x1_S4096x128 : S4096x1.Broadcasts S4096x128
  slices_S4096x29_o0_7_S4096x1 : S4096x29.Slices ![0, 7] S4096x1
  slices_S4096x29_o0_8_S4096x1 : S4096x29.Slices ![0, 8] S4096x1
  slices_S4096x29_o0_9_S4096x1 : S4096x29.Slices ![0, 9] S4096x1
  inb_S29x128_S29x128_0_0 : ∀ a, (![0, 0] : Fin 2 → Nat) a + S29x128.size a ≤ S29x128.size a
  h_S29x128 : 0 < S29x128.numel
  shapeCasts_S29x128_S29x128 : S29x128.ShapeCasts S29x128
  inb_S4096x128_S4096x128_0_0 : ∀ a, (![0, 0] : Fin 2 → Nat) a + S4096x128.size a ≤ S4096x128.size a
  h_S4096x128 : 0 < S4096x128.numel
  scatter_S29x128_S1_S6x128_01_n_0_0_wf : ScatterDims.WF S29x128 S1 S6x128 [0, 1] [] [0] 0
  scatter_S29x128_S1_S19x128_01_n_0_0_wf : ScatterDims.WF S29x128 S1 S19x128 [0, 1] [] [0] 0
  scatter_S128x16_S1_S91x16_01_n_0_0_wf : ScatterDims.WF S128x16 S1 S91x16 [0, 1] [] [0] 0
  scatter_S128x16_S1_S90x16_01_n_0_0_wf : ScatterDims.WF S128x16 S1 S90x16 [0, 1] [] [0] 0
  dot_S128x16_S16x128_S128x128_1_0_0_1_n_n_wf : DotDims.WF S128x16 S16x128 S128x128 [1] [0] [0] [1] [] []
  dot_S4096x128_S128x128_S4096x128_1_0_0_1_n_n_wf : DotDims.WF S4096x128 S128x128 S4096x128 [1] [0] [0] [1] [] []
  dot_S4096x29_S29x128_S4096x128_1_0_0_1_n_n_wf : DotDims.WF S4096x29 S29x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x29.size a ≤ S16384x29.size a
  hwx0_0 : ∀ i : grid0.Coords, EltTy.bits .f32 = 32 ∨ (Rect.block (s := S16384x29) S4096x29.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .f32 = 32 ∨ (Rect.block (s := S16x128) S16x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S29x128.size a ≤ S29x128.size a
  hwx0_7 : ∀ i : grid0.Coords, EltTy.bits .bf16 = 32 ∨ (Rect.block (s := S29x128) S29x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S16384x128.size a
  hwx0_11 : ∀ i : grid0.Coords, EltTy.bits .f32 = 32 ∨ (Rect.block (s := S16384x128) S4096x128.size (cc0_transform_11 i) (hinb0_11 i)).WholeWords (EltTy.packing .f32)

variable [Facts₀]

def scatter_S29x128_S1_S6x128_01_n_0_0 : ScatterDims S29x128 S1 S6x128 where
  updateWindowDims := [0, 1]
  insertedWindowDims := []
  scatterDimsToOperandDims := [0]
  indexVectorDim := 0
  wf := scatter_S29x128_S1_S6x128_01_n_0_0_wf
def scatter_S29x128_S1_S19x128_01_n_0_0 : ScatterDims S29x128 S1 S19x128 where
  updateWindowDims := [0, 1]
  insertedWindowDims := []
  scatterDimsToOperandDims := [0]
  indexVectorDim := 0
  wf := scatter_S29x128_S1_S19x128_01_n_0_0_wf
def scatter_S128x16_S1_S91x16_01_n_0_0 : ScatterDims S128x16 S1 S91x16 where
  updateWindowDims := [0, 1]
  insertedWindowDims := []
  scatterDimsToOperandDims := [0]
  indexVectorDim := 0
  wf := scatter_S128x16_S1_S91x16_01_n_0_0_wf
def scatter_S128x16_S1_S90x16_01_n_0_0 : ScatterDims S128x16 S1 S90x16 where
  updateWindowDims := [0, 1]
  insertedWindowDims := []
  scatterDimsToOperandDims := [0]
  indexVectorDim := 0
  wf := scatter_S128x16_S1_S90x16_01_n_0_0_wf
def dot_S128x16_S16x128_S128x128_1_0_0_1_n_n : DotDims S128x16 S16x128 S128x128 where
  lhsContracting := [1]
  rhsContracting := [0]
  lhsNonContracting := [0]
  rhsNonContracting := [1]
  lhsBatch := []
  rhsBatch := []
  wf := dot_S128x16_S16x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x29_S29x128_S4096x128_1_0_0_1_n_n : DotDims S4096x29 S29x128 S4096x128 where
  lhsContracting := [1]
  rhsContracting := [0]
  lhsNonContracting := [0]
  rhsNonContracting := [1]
  lhsBatch := []
  rhsBatch := []
  wf := dot_S4096x29_S29x128_S4096x128_1_0_0_1_n_n_wf

abbrev win0_0 : Pipeline.Window sig grid0 :=
  Pipeline.Window.ofSpec (Memref.whole main_arg0) S4096x29.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S29x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x29 : Shape := ⟨2, ![16384, 29]⟩
abbrev S91x16 : Shape := ⟨2, ![91, 16]⟩
abbrev S90x16 : Shape := ⟨2, ![90, 16]⟩
abbrev S128x89 : Shape := ⟨2, ![128, 89]⟩
abbrev S128 : Shape := ⟨1, ![128]⟩
abbrev S128x128 : Shape := ⟨2, ![128, 128]⟩
abbrev S16384x1 : Shape := ⟨2, ![16384, 1]⟩
abbrev S16384 : Shape := ⟨1, ![16384]⟩
abbrev S16384x6 : Shape := ⟨2, ![16384, 6]⟩
abbrev S16384x19 : Shape := ⟨2, ![16384, 19]⟩
abbrev S_ : Shape := ⟨0, ![]⟩
abbrev S1 : Shape := ⟨1, ![1]⟩
abbrev S1x1 : Shape := ⟨2, ![1, 1]⟩
abbrev S16384x16 : Shape := ⟨2, ![16384, 16]⟩
abbrev S16384x89 : Shape := ⟨2, ![16384, 89]⟩
abbrev S89x128 : Shape := ⟨2, ![89, 128]⟩
abbrev S16384x128 : Shape := ⟨2, ![16384, 128]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S16384x29, .f32⟩
  | .hbm, ⟨1, _⟩ => ⟨S91x16, .f32⟩
  | .hbm, ⟨2, _⟩ => ⟨S90x16, .f32⟩
  | .hbm, ⟨3, _⟩ => ⟨S128x89, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16384x1, .f32⟩
  | .hbm, ⟨8, _⟩ => ⟨S16384, .f32⟩
  | .hbm, ⟨9, _⟩ => ⟨S16384, .i32⟩
  | .hbm, ⟨10, _⟩ => ⟨S16384x6, .f32⟩
  | .hbm, ⟨11, _⟩ => ⟨S16384x1, .f32⟩
  | .hbm, ⟨12, _⟩ => ⟨S16384, .f32⟩
  | .hbm, ⟨13, _⟩ => ⟨S16384, .i32⟩
  | .hbm, ⟨14, _⟩ => ⟨S16384x1, .f32⟩
  | .hbm, ⟨15, _⟩ => ⟨S16384, .f32⟩
  | .hbm, ⟨16, _⟩ => ⟨S16384, .i32⟩
  | .hbm, ⟨17, _⟩ => ⟨S16384x1, .f32⟩
  | .hbm, ⟨18, _⟩ => ⟨S16384, .f32⟩
  | .hbm, ⟨19, _⟩ => ⟨S16384, .i32⟩
  | .hbm, ⟨20, _⟩ => ⟨S16384x19, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S1, .i32⟩
  | .hbm, ⟨30, _⟩ => ⟨S_, .i32⟩
  | .hbm, ⟨31, _⟩ => ⟨S16384x1, .i32⟩
  | .hbm, ⟨32, _⟩ => ⟨S16384x1, .i1⟩
  | .hbm, ⟨33, _⟩ => ⟨S1x1, .i32⟩
  | .hbm, ⟨34, _⟩ => ⟨S16384x1, .i32⟩
  | .hbm, ⟨35, _⟩ => ⟨S16384x1, .i1⟩
  | .hbm, ⟨36, _⟩ => ⟨S16384x1, .i1⟩
  | .hbm, ⟨37, _⟩ => ⟨S_, .i1⟩
  | .hbm, ⟨38, _⟩ => ⟨S16384, .i1⟩
  | .hbm, ⟨39, _⟩ => ⟨S16384x16, .f32⟩
  | .hbm, ⟨40, _⟩ => ⟨S16384x16, .i1⟩
  | .hbm, ⟨41, _⟩ => ⟨S_, .f32⟩
  | .hbm, ⟨42, _⟩ => ⟨S16384x16, .f32⟩
  | .hbm, ⟨43, _⟩ => ⟨S16384x16, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S1, .i32⟩
  | .hbm, ⟨53, _⟩ => ⟨S_, .i32⟩
  | .hbm, ⟨54, _⟩ => ⟨S16384x1, .i32⟩
  | .hbm, ⟨55, _⟩ => ⟨S16384x1, .i1⟩
  | .hbm, ⟨56, _⟩ => ⟨S1x1, .i32⟩
  | .hbm, ⟨57, _⟩ => ⟨S16384x1, .i32⟩
  | .hbm, ⟨58, _⟩ => ⟨S16384x1, .i1⟩
  | .hbm, ⟨59, _⟩ => ⟨S16384x1, .i1⟩
  | .hbm, ⟨60, _⟩ => ⟨S_, .i1⟩
  | .hbm, ⟨61, _⟩ => ⟨S16384, .i1⟩
  | .hbm, ⟨62, _⟩ => ⟨S16384x16, .f32⟩
  | .hbm, ⟨63, _⟩ => ⟨S16384x16, .i1⟩
  | .hbm, ⟨64, _⟩ => ⟨S_, .f32⟩
  | .hbm, ⟨65, _⟩ => ⟨S16384x16, .f32⟩
  | .hbm, ⟨66, _⟩ => ⟨S16384x16, .f32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S1, .i32⟩
  | .hbm, ⟨76, _⟩ => ⟨S_, .i32⟩
  | .hbm, ⟨77, _⟩ => ⟨S16384x1, .i32⟩
  | .hbm, ⟨78, _⟩ => ⟨S16384x1, .i1⟩
  | .hbm, ⟨79, _⟩ => ⟨S1x1, .i32⟩
  | .hbm, ⟨80, _⟩ => ⟨S16384x1, .i32⟩
  | .hbm, ⟨81, _⟩ => ⟨S16384x1, .i1⟩
  | .hbm, ⟨82, _⟩ => ⟨S16384x1, .i1⟩
  | .hbm, ⟨83, _⟩ => ⟨S_, .i1⟩
  | .hbm, ⟨84, _⟩ => ⟨S16384, .i1⟩
  | .hbm, ⟨85, _⟩ => ⟨S16384x16, .f32⟩
  | .hbm, ⟨86, _⟩ => ⟨S16384x16, .i1⟩
  | .hbm, ⟨87, _⟩ => ⟨S_, .f32⟩
  | .hbm, ⟨88, _⟩ => ⟨S16384x16, .f32⟩
  | .hbm, ⟨89, _⟩ => ⟨S16384x16, .f32⟩
  | .hbm, ⟨90, _⟩ => ⟨S_, .i32⟩
  | .hbm, ⟨91, _⟩ => ⟨S16384, .i32⟩
  | .hbm, ⟨92, _⟩ => ⟨S16384, .i1⟩
  | .hbm, ⟨93, _⟩ => ⟨S_, .i32⟩
  | .hbm, ⟨94, _⟩ => ⟨S16384, .i32⟩
  | .hbm, ⟨95, _⟩ => ⟨S16384, .i32⟩
  | .hbm, ⟨96, _⟩ => ⟨S16384, .i32⟩
  | .hbm, ⟨97, _⟩ => ⟨S16384x1, .i32⟩
  | .hbm, ⟨98, _⟩ => ⟨S1, .i32⟩
  | .hbm, ⟨99, _⟩ => ⟨S_, .i32⟩
  | .hbm, ⟨100, _⟩ => ⟨S16384x1, .i32⟩
  | .hbm, ⟨101, _⟩ => ⟨S16384x1, .i1⟩
  | .hbm, ⟨102, _⟩ => ⟨S1x1, .i32⟩
  | .hbm, ⟨103, _⟩ => ⟨S16384x1, .i32⟩
  | .hbm, ⟨104, _⟩ => ⟨S16384x1, .i1⟩
  | .hbm, ⟨105, _⟩ => ⟨S16384x1, .i1⟩
  | .hbm, ⟨106, _⟩ => ⟨S_, .i1⟩
  | .hbm, ⟨107, _⟩ => ⟨S16384, .i1⟩
  | .hbm, ⟨108, _⟩ => ⟨S16384x16, .f32⟩
  | .hbm, ⟨109, _⟩ => ⟨S16384x16, .i1⟩
  | .hbm, ⟨110, _⟩ => ⟨S_, .f32⟩
  | .hbm, ⟨111, _⟩ => ⟨S16384x16, .f32⟩
  | .hbm, ⟨112, _⟩ => ⟨S16384x16, .f32⟩
  | .hbm, ⟨113, _⟩ => ⟨S16384x89, .f32⟩
  | .hbm, ⟨114, _⟩ => ⟨S89x128, .f32⟩
  | .hbm, ⟨115, _⟩ => ⟨S16384x128, .f32⟩
  | .hbm, ⟨116, _⟩ => ⟨S1x128, .f32⟩
  | .hbm, ⟨117, _⟩ => ⟨S16384x128, .f32⟩
  | .hbm, ⟨118, _⟩ => ⟨S16384x128, .f32⟩
  | .hbm, ⟨119, _⟩ => ⟨S_, .f32⟩
  | .hbm, ⟨120, _⟩ => ⟨S16384x128, .f32⟩
  | .hbm, ⟨121, _⟩ => ⟨S16384x128, .f32⟩
  | .hbm, ⟨122, _⟩ => ⟨S128x128, .f32⟩
  | .hbm, ⟨123, _⟩ => ⟨S16384x128, .f32⟩
  | .hbm, ⟨124, _⟩ => ⟨S1x128, .f32⟩
  | .hbm, ⟨125, _⟩ => ⟨S16384x128, .f32⟩
  | .hbm, ⟨126, _⟩ => ⟨S16384x128, .f32⟩
  | _, _ => ⟨S16384x29, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v14 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v15 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v16 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_call4_cst : Ref sig .tc := ⟨.hbm, 119, rfl⟩
abbrev main_call4_v0 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩

abbrev nD : Nat := 1
abbrev τ : Topo := Topo.v7x

variable {F : FTy → Type} [FloatOps F]

class Facts₀ : Prop where
  slices_S16384x29_S16384x1_0_0 : S16384x29.Slices ![0, 0] S16384x1
  shapeCasts_S16384x1_S16384 : S16384x1.ShapeCasts S16384
  slices_S16384x29_S16384x6_0_1 : S16384x29.Slices ![0, 1] S16384x6
  slices_S16384x29_S16384x1_0_7 : S16384x29.Slices ![0, 7] S16384x1
  slices_S16384x29_S16384x1_0_8 : S16384x29.Slices ![0, 8] S16384x1
  slices_S16384x29_S16384x1_0_9 : S16384x29.Slices ![0, 9] S16384x1
  slices_S16384x29_S16384x19_0_10 : S16384x29.Slices ![0, 10] S16384x19
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x16_0 : S16384.BroadcastsInDim S16384x16 (![0] : Fin 1 → Fin S16384x16.rank)
  bcast_S_S16384x16 : S_.BroadcastsInDim S16384x16 (![] : Fin 0 → Fin S16384x16.rank)
  concatenates_S16384x16_S16384x6_S16384x16_S16384x16_S16384x16_S16384x19_S16384x89_d1 : Shape.Concatenates [S16384x16, S16384x6, S16384x16, S16384x16, S16384x16, S16384x19] S16384x89 1
  transposes_S128x89_S89x128_1_0 : S128x89.Transposes [1, 0] S89x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S128x128_S128x128_1_0 : S128x128.Transposes [1, 0] S128x128
  gather_S91x16_S16384x1_S16384x16_1_0_n_n_0_1_116_wf : GatherDims.WF S91x16 S16384x1 S16384x16 [1] [0] [] [0] [] 1 ![1, 16]
  gather_S90x16_S16384x1_S16384x16_1_0_n_n_0_1_116_wf : GatherDims.WF S90x16 S16384x1 S16384x16 [1] [0] [] [0] [] 1 ![1, 16]
  dot_S16384x89_S89x128_S16384x128_1_0_0_1_n_n_wf : DotDims.WF S16384x89 S89x128 S16384x128 [1] [0] [0] [1] [] []
  dot_S16384x128_S128x128_S16384x128_1_0_0_1_n_n_wf : DotDims.WF S16384x128 S128x128 S16384x128 [1] [0] [0] [1] [] []

variable [Facts₀]

def gather_S91x16_S16384x1_S16384x16_1_0_n_n_0_1_116 : GatherDims S91x16 S16384x1 S16384x16 where
  offsetDims := [1]
  collapsedSliceDims := [0]
  operandBatchingDims := []
  startIndicesBatchingDims := []
  startIndexMap := [0]
  indexVectorDim := 1
  sliceSizes := ![1, 16]
  wf := gather_S91x16_S16384x1_S16384x16_1_0_n_n_0_1_116_wf
def gather_S90x16_S16384x1_S16384x16_1_0_n_n_0_1_116 : GatherDims S90x16 S16384x1 S16384x16 where
  offsetDims := [1]
  collapsedSliceDims := [0]
  operandBatchingDims := []
  startIndicesBatchingDims := []
  startIndexMap := [0]
  indexVectorDim := 1
  sliceSizes := ![1, 16]
  wf := gather_S90x16_S16384x1_S16384x16_1_0_n_n_0_1_116_wf
def dot_S16384x89_S89x128_S16384x128_1_0_0_1_n_n : DotDims S16384x89 S89x128 S16384x128 where
  lhsContracting := [1]
  rhsContracting := [0]
  lhsNonContracting := [0]
  rhsNonContracting := [1]
  lhsBatch := []
  rhsBatch := []
  wf := dot_S16384x89_S89x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Spec.lean ====
/-
  What both programs compute, as one function of the seven argument arrays.

  Row `r` of `content` carries four embedding indices (columns 0, 7, 8, 9) and twenty-five plain features (columns 1–6 and
  10–28). Column 0 names a row of `emb_avg` (91 rows of 16), columns 7, 8, 9 each a row of `emb_cate` (90 rows of 16). The
  first layer's pre-activation at hidden unit `k` is the inner product of `W_fc`'s row `k` (89 weights) with the 89 numbers
  "avg row, features 1–6, first row, second row, third row, features 10–28", plus `b_fc k`; written here already grouped
  by source: the four looked-up rows against their sixteen weights each, the bias once, the two feature bands against
  theirs. The output is `relu` of that, against `W_res`'s row `j`, plus `b_res j`.

  An index entry is read as the reference reads it: the 32-bit word `fptosi x`, as a row number (`rowOf`). `IsRow n x`
  says the word is a row number below `n`, written as that natural number's word, and that `x` is exactly that number —
  which is what lets the kernel's equality test of `x` against the lane numbers pick the same row.
-/
import Idealize.ShloMosaic.PureOps.Ideal
import Idealize.ShloMosaic.Lib.ValueIdx

noncomputable section

open scoped BigOperators

namespace Cert.Spec

open Idealize.ShloMosaic Idealize.ShloMosaic.ValueIdx

/-- The row number an index entry names: the reference's 32-bit word for it, read as a natural number. -/
def rowOf (x : EReal) : ℕ := (Ideal.fptosi 32 x).toNat

/-- `x` is a valid index into a table of `n` rows, and holds exactly its row number. -/
structure IsRow (n : ℕ) (x : EReal) : Prop where
  lt : rowOf x < n
  word : Ideal.fptosi 32 x = BitVec.ofNat 32 (rowOf x)
  val : x = ((rowOf x : ℝ) : EReal)

/-- The four index columns of `content` hold valid rows of their tables, in every row. -/
def IndexCols (C : (⟨2, ![16384, 29]⟩ : Shape).Idx → EReal) : Prop :=
  ∀ r : Fin 16384, IsRow 91 (C (ix2 r (0 : Fin 29))) ∧ IsRow 90 (C (ix2 r (7 : Fin 29)))
    ∧ IsRow 90 (C (ix2 r (8 : Fin 29))) ∧ IsRow 90 (C (ix2 r (9 : Fin 29)))

/-- Entry `q` of row `a` of a table of `n` rows of sixteen; zero past the table. -/
def rowAt {n : ℕ} (T : (⟨2, ![n, 16]⟩ : Shape).Idx → EReal) (a : ℕ) (q : Fin 16) : EReal :=
  if h : a < n then T (ix2 ⟨a, h⟩ q) else 0

/-- A looked-up row against the sixteen weights of hidden unit `k` that start at column `o` of `W_fc`. -/
def rowDot {n : ℕ} (T : (⟨2, ![n, 16]⟩ : Shape).Idx → EReal) (W : (⟨2, ![128, 89]⟩ : Shape).Idx → EReal)
    (a : ℕ) (o : ℕ) (ho : o + 16 ≤ 89) (k : Fin 128) : EReal :=
  ∑ q : Fin 16, rowAt T a q * W (ix2 k ⟨o + q.val, by have := q.isLt; omega⟩)

/-- A band of `len` plain features of row `r`, from column `c0` of `content`, against the weights of hidden unit `k` from
    column `o` of `W_fc`. -/
def bandDot (C : (⟨2, ![16384, 29]⟩ : Shape).Idx → EReal) (W : (⟨2, ![128, 89]⟩ : Shape).Idx → EReal)
    (len c0 o : ℕ) (hc : c0 + len ≤ 29) (ho : o + len ≤ 89) (r : Fin 16384) (k : Fin 128) : EReal :=
  ∑ i : Fin len, C (ix2 r ⟨c0 + i.val, by have := i.isLt; omega⟩) * W (ix2 k ⟨o + i.val, by have := i.isLt; omega⟩)

/-- The first layer before the relu, at row `r` and hidden unit `k`. -/
def hidden (C : (⟨2, ![16384, 29]⟩ : Shape).Idx → EReal) (EA : (⟨2, ![91, 16]⟩ : Shape).Idx → EReal)
    (EC : (⟨2, ![90, 16]⟩ : Shape).Idx → EReal) (W : (⟨2, ![128, 89]⟩ : Shape).Idx → EReal)
    (bf : (⟨1, ![128]⟩ : Shape).Idx → EReal) (r : Fin 16384) (k : Fin 128) : EReal :=
  ((((rowDot EA W (rowOf (C (ix2 r (0 : Fin 29)))) 0 (by omega) k + bf (ix1 k))
      + rowDot EC W (rowOf (C (ix2 r (7 : Fin 29)))) 22 (by omega) k)
      + rowDot EC W (rowOf (C (ix2 r (8 : Fin 29)))) 38 (by omega) k)
      + rowDot EC W (rowOf (C (ix2 r (9 : Fin 29)))) 54 (by omega) k)
    + (bandDot C W 6 1 16 (by omega) (by omega) r k + bandDot C W 19 10 70 (by omega) (by omega) r k)

/-- The result at row `r`, output unit `j`. -/
def outAt (C : (⟨2, ![16384, 29]⟩ : Shape).Idx → EReal) (EA : (⟨2, ![91, 16]⟩ : Shape).Idx → EReal)
    (EC : (⟨2, ![90, 16]⟩ : Shape).Idx → EReal) (W : (⟨2, ![128, 89]⟩ : Shape).Idx → EReal)
    (bf : (⟨1, ![128]⟩ : Shape).Idx → EReal) (WR : (⟨2, ![128, 128]⟩ : Shape).Idx → EReal)
    (br : (⟨1, ![128]⟩ : Shape).Idx → EReal) (r : Fin 16384) (j : Fin 128) : EReal :=
  (∑ k : Fin 128, max (hidden C EA EC W bf r k) 0 * WR (ix2 j k)) + br (ix1 j)

/-- The whole result array. -/
def G (C : (⟨2, ![16384, 29]⟩ : Shape).Idx → EReal) (EA : (⟨2, ![91, 16]⟩ : Shape).Idx → EReal)
    (EC : (⟨2, ![90, 16]⟩ : Shape).Idx → EReal) (W : (⟨2, ![128, 89]⟩ : Shape).Idx → EReal)
    (bf : (⟨1, ![128]⟩ : Shape).Idx → EReal) (WR : (⟨2, ![128, 128]⟩ : Shape).Idx → EReal)
    (br : (⟨1, ![128]⟩ : Shape).Idx → EReal) : (⟨2, ![16384, 128]⟩ : Shape).Idx → EReal :=
  fun i => outAt C EA EC W bf WR br (i 0) (i 1)

theorem G_ix2 (C EA EC W bf WR br) (r : Fin 16384) (j : Fin 128) :
    G C EA EC W bf WR br (ix2 r j) = outAt C EA EC W bf WR br r j := rfl

end Cert.Spec

end
-- ==== Proof.IndexWord.lean ====
/-
  An embedding index carried in a float column.

  The reference reads an index column entry `x` as the 32-bit word `w = fptosi x` and gathers row `w` of a table; the
  kernel compares `x` itself with the lane numbers `0, 1, …, 127`. The precondition says, of each such entry, that the
  word is a valid row number (`0 ≤ w < n` as a signed integer) and that the entry holds exactly that integer
  (`sitofp w = x`). From these two facts the word is `BitVec.ofNat 32 k` for the row `k = w.toNat < n`, and `x` is the
  real number `k`: one row number serves both readings.
-/
import Idealize.ShloMosaic.PureOps.Ideal

namespace Cert.IndexWord

/-- A signed 32-bit word known to lie in `[0, n)` is the word of the natural number `w.toNat`, and that number is below `n`;
    its signed reading is that same natural number. -/
theorem word_of_range (w : BitVec 32) (n : Nat) (h0 : 0 ≤ w.toInt) (hn : w.toInt < (n : Int)) :
    w.toNat < n ∧ w = BitVec.ofNat 32 w.toNat ∧ w.toInt = (w.toNat : Int) := by
  have hmsb : w.toInt = (w.toNat : Int) := by
    rw [BitVec.toInt_eq_toNat_cond] at h0 ⊢
    split_ifs at h0 ⊢ with h
    · rfl
    · exfalso
      have := w.isLt
      omega
  refine ⟨?_, ?_, hmsb⟩
  · rw [hmsb] at hn; exact_mod_cast hn
  · exact (BitVec.ofNat_toNat 32 w).symm ▸ (by simp)

end Cert.IndexWord
-- ==== Proof.PreIndex.lean ====
/-
  The precondition read back: what it says of the four index columns of `content`.

  The printed precondition is one conjunction of `jnp.all` tests. Its last two conjuncts are over the index columns: for
  every row, the entry `x` of column 0 (respectively of columns 7, 8, 9), read as the signed 32-bit word `w = fptosi x`,
  satisfies `0 ≤ w`, `w < 91` (respectively `w < 90`), and `sitofp w = x`. Each `jnp.all` is a reduction by `and` from
  the constant 1, so its being 1 gives the test at every index; the slice that cuts the columns out of `content` is read
  at an index as `content` at the shifted index; and the three word tests at one entry say exactly that the entry is a
  valid row number held exactly. The finiteness conjuncts that come before these two are not used.
-/
import Idealize.ShloMosaic.Lib.ReduceAll
import Idealize.ShloMosaic.Lib.ValueLayout
import proofs.«129327_g79053168050384_cont_9to1_m_779_34_alg».proof.Pre_finite_inputs
import proofs.«129327_g79053168050384_cont_9to1_m_779_34_alg».proof.Proof.Spec
import proofs.«129327_g79053168050384_cont_9to1_m_779_34_alg».proof.Proof.IndexWord

noncomputable section

namespace Cert.PreIndex

open Idealize.ShloMosaic Idealize.ShloMosaic.ValueIdx

/-- The three tests of one index entry, as the precondition makes them, say the entry is a valid row held exactly. -/
theorem isRow_of_tests (n : ℕ) (b : BitVec 32) (hb : b.toInt = (n : Int)) (x : EReal)
    (h0 : IntOp.cmpi .sge (Ideal.fptosi 32 x) 0#32 = 1#1)
    (h1 : IntOp.cmpi .slt (Ideal.fptosi 32 x) b = 1#1)
    (h2 : Ideal.cmp .oeq (((Ideal.fptosi 32 x).toInt : ℝ) : EReal) x = 1#1) :
    Cert.Spec.IsRow n x := by
  have h0' : 0 ≤ (Ideal.fptosi 32 x).toInt := by
    have := IntOp.cmpi_sge.1 h0
    rwa [show (0#32 : BitVec 32).toInt = 0 from by decide] at this
  have h1' : (Ideal.fptosi 32 x).toInt < (n : Int) := by
    have := IntOp.cmpi_slt.1 h1
    rwa [hb] at this
  have h2' : (((Ideal.fptosi 32 x).toInt : ℝ) : EReal) = x := by
    by_contra hne
    simp [Ideal.cmp, hne] at h2
  obtain ⟨hlt, hword, hint⟩ := Cert.IndexWord.word_of_range (Ideal.fptosi 32 x) n h0' h1'
  have hcast : ((Ideal.fptosi 32 x).toInt : ℝ) = ((Ideal.fptosi 32 x).toNat : ℝ) := by
    rw [hint, Int.cast_natCast]
  exact ⟨hlt, hword, h2'.symm.trans (congrArg (fun t : ℝ => (t : EReal)) hcast)⟩

/-- The three tests of the precondition at one index of an array of index entries, the two bounds being the constants the
    program spreads over the array: the entry there is a valid row held exactly. -/
theorem isRow_at {s u : Shape} (dims : Fin u.rank → Fin s.rank) (hb : u.BroadcastsInDim s dims) (x : FVec Ideal s .f32)
    (n : ℕ) (b : BitVec 32) (hbn : b.toInt = (n : Int)) (i : s.Idx)
    (e : andi (andi (cmpi .sge (fptosi 32 x) (broadcastInDim s dims hb (constantI u 32 0#32)))
        (cmpi .slt (fptosi 32 x) (broadcastInDim s dims hb (constantI u 32 b))))
      (cmpf .oeq (sitofp .f32 (fptosi 32 x)) x) i = 1#1) :
    Cert.Spec.IsRow n (x i) := by
  obtain ⟨eab, ec⟩ := IntOp.andi_eq_one.1 e
  obtain ⟨ea, eb⟩ := IntOp.andi_eq_one.1 eab
  exact isRow_of_tests n b hbn (x i) ea eb ec

/-- The result of a reduction over every axis has one index. -/
instance : Subsingleton Cert.Pre_finite_inputs.S_.Idx := ⟨fun _ _ => funext fun d => d.elim0⟩

open Cert.Pre_finite_inputs in
theorem indexCols_of_pre [Cert.Pre_finite_inputs.Facts]
    (a0 : FVec Ideal Cert.Pre_finite_inputs.S16384x29 .f32) (a1 : FVec Ideal Cert.Pre_finite_inputs.S91x16 .f32)
    (a2 : FVec Ideal Cert.Pre_finite_inputs.S90x16 .f32) (a3 : FVec Ideal Cert.Pre_finite_inputs.S128x89 .f32)
    (a4 : FVec Ideal Cert.Pre_finite_inputs.S128 .f32) (a5 : FVec Ideal Cert.Pre_finite_inputs.S128x128 .f32)
    (a6 : FVec Ideal Cert.Pre_finite_inputs.S128 .f32)
    (h : Cert.Pre_finite_inputs.fn (F := Ideal) a0 a1 a2 a3 a4 a5 a6 = (fun _ => 1#1)) :
    Cert.Spec.IndexCols a0 := by
  have h' := congrFun h ValueIdx.ix0
  dsimp only [Cert.Pre_finite_inputs.fn, Cert.Pre_finite_inputs.fn_part1, Cert.Pre_finite_inputs.fn_part2,
    Cert.Pre_finite_inputs.fn_part3] at h'
  obtain ⟨hA, h56⟩ := IntOp.andi_eq_one.1 h'
  obtain ⟨-, h44⟩ := IntOp.andi_eq_one.1 hA
  clear h' hA h
  intro r
  have r0 := isRow_at _ _ _ 91 91#32 (by decide) _ (Host.reduce_andi_all _ _ _ _ _ h44 (ix2 r (0 : Fin 1)))
  rw [slice2_axis1_apply 0 a0 Facts.slices_S16384x29_S16384x1_0_0 r (0 : Fin 1) (0 : Fin 29) rfl] at r0
  have e1 : ∀ (c : Fin 3) (k : Fin 29), k.val = 7 + c.val → Cert.Spec.IsRow 90 (a0 (ix2 r k)) := by
    intro c k hk
    have rr := isRow_at _ _ _ 90 90#32 (by decide) _ (Host.reduce_andi_all _ _ _ _ _ h56 (ix2 r c))
    rwa [slice2_axis1_apply 7 a0 Facts.slices_S16384x29_S16384x3_0_7 r c k hk] at rr
  exact ⟨r0, e1 0 7 rfl, e1 1 8 rfl, e1 2 9 rfl⟩

end Cert.PreIndex

end
-- ==== Proof.KPieces.lean ====
/-
  What one run of the kernel body leaves behind, read as values.

  The body runs in two ways. At the first grid point it first computes the four lookup tables — each a 128×16 padded
  embedding block times a 16×128 slice of the first layer's weights, the first with the bias row added — and stores each
  whole into its scratch buffer; at every point it then loads the four tables back, forms the hidden layer of its
  4096-row block and stores the block's 4096×128 result whole. Every buffer involved is written by ONE store covering it,
  so what it holds afterwards is that store's value; and a table loaded back after its store is the stored value. The
  values are the body's arithmetic as single terms (the skeleton's payload functions): the output block is
  `k0_pay1` of the converted content block, the four one-hot selections (two folded into the partial sum `k0_pay10`), the
  tables and the remaining operand blocks; the tables are `k0_pay2` … `k0_pay5`.
-/
import proofs.«129327_g79053168050384_cont_9to1_m_779_34_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The body's result block from the content block `x0`, the four tables and the other operand blocks. -/
abbrev blockOut (x0 : Vec F S4096x29 .f32) (ta t1 t2 t3 : Vec F S128x128 .bf16) (x7 : Vec F S29x128 .bf16)
    (x9 : Vec F S128x128 .bf16) (x10 : Vec F S1x128 .f32) : FVec F S4096x128 .f32 :=
  k0_pay1 (k0_pay6 x0) (k0_pay8 x0) (k0_pay9 x0) (k0_pay10 x0 ta t1) t2 t3 x7 x9 x10

/-- At the first grid point the body stores table 0 whole: the scratch then holds that one store's value. -/
theorem table0_first (c : Dev nD) (i : grid0.Coords) (arg1 : Memref sig .tc .vmem S4096x29 .f32) (harg1 : arg1.IsWhole) (arg2 : Memref sig .tc .vmem S128x16 .f32) (harg2 : arg2.IsWhole) (arg3 : Memref sig .tc .vmem S128x16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S29x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S128x128 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S128x128 .bf16) (harg16 : arg16.IsWhole) (hc0 : cond0_0 i) (x0 : Vec F S4096x29 .f32) (x1 : Vec F S128x16 .f32) (x2 : Vec F S128x16 .f32) (x3 : Vec F S16x128 .f32) (x4 : Vec F S16x128 .f32) (x5 : Vec F S16x128 .f32) (x6 : Vec F S16x128 .f32) (x7 : Vec F S29x128 .bf16) (x8 : Vec F S1x128 .f32) (x9 : Vec F S128x128 .bf16) (x10 : Vec F S1x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay2 x1 x3 x8 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x29) hz, View.ld_unit_zero (S := S128x16) hz, View.ld_unit_zero (S := S16x128) hz,
    View.ld_unit_zero (S := S29x128) hz, View.ld_unit_zero (S := S1x128) hz, View.ld_unit_zero (S := S128x128) hz]

/-- At the first grid point the body stores table 1 whole: the scratch then holds that one store's value. -/
theorem table1_first (c : Dev nD) (i : grid0.Coords) (arg1 : Memref sig .tc .vmem S4096x29 .f32) (harg1 : arg1.IsWhole) (arg2 : Memref sig .tc .vmem S128x16 .f32) (harg2 : arg2.IsWhole) (arg3 : Memref sig .tc .vmem S128x16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S29x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S128x128 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S128x128 .bf16) (harg16 : arg16.IsWhole) (hc0 : cond0_0 i) (x0 : Vec F S4096x29 .f32) (x1 : Vec F S128x16 .f32) (x2 : Vec F S128x16 .f32) (x3 : Vec F S16x128 .f32) (x4 : Vec F S16x128 .f32) (x5 : Vec F S16x128 .f32) (x6 : Vec F S16x128 .f32) (x7 : Vec F S29x128 .bf16) (x8 : Vec F S1x128 .f32) (x9 : Vec F S128x128 .bf16) (x10 : Vec F S1x128 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay3 x2 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x29) hz, View.ld_unit_zero (S := S128x16) hz, View.ld_unit_zero (S := S16x128) hz,
    View.ld_unit_zero (S := S29x128) hz, View.ld_unit_zero (S := S1x128) hz, View.ld_unit_zero (S := S128x128) hz]

/-- At the first grid point the body stores table 2 whole: the scratch then holds that one store's value. -/
theorem table2_first (c : Dev nD) (i : grid0.Coords) (arg1 : Memref sig .tc .vmem S4096x29 .f32) (harg1 : arg1.IsWhole) (arg2 : Memref sig .tc .vmem S128x16 .f32) (harg2 : arg2.IsWhole) (arg3 : Memref sig .tc .vmem S128x16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S29x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S128x128 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S128x128 .bf16) (harg16 : arg16.IsWhole) (hc0 : cond0_0 i) (x0 : Vec F S4096x29 .f32) (x1 : Vec F S128x16 .f32) (x2 : Vec F S128x16 .f32) (x3 : Vec F S16x128 .f32) (x4 : Vec F S16x128 .f32) (x5 : Vec F S16x128 .f32) (x6 : Vec F S16x128 .f32) (x7 : Vec F S29x128 .bf16) (x8 : Vec F S1x128 .f32) (x9 : Vec F S128x128 .bf16) (x10 : Vec F S1x128 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay4 x2 x5 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x29) hz, View.ld_unit_zero (S := S128x16) hz, View.ld_unit_zero (S := S16x128) hz,
    View.ld_unit_zero (S := S29x128) hz, View.ld_unit_zero (S := S1x128) hz, View.ld_unit_zero (S := S128x128) hz]

/-- At the first grid point the body stores table 3 whole: the scratch then holds that one store's value. -/
theorem table3_first (c : Dev nD) (i : grid0.Coords) (arg1 : Memref sig .tc .vmem S4096x29 .f32) (harg1 : arg1.IsWhole) (arg2 : Memref sig .tc .vmem S128x16 .f32) (harg2 : arg2.IsWhole) (arg3 : Memref sig .tc .vmem S128x16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S29x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S128x128 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S128x128 .bf16) (harg16 : arg16.IsWhole) (hc0 : cond0_0 i) (x0 : Vec F S4096x29 .f32) (x1 : Vec F S128x16 .f32) (x2 : Vec F S128x16 .f32) (x3 : Vec F S16x128 .f32) (x4 : Vec F S16x128 .f32) (x5 : Vec F S16x128 .f32) (x6 : Vec F S16x128 .f32) (x7 : Vec F S29x128 .bf16) (x8 : Vec F S1x128 .f32) (x9 : Vec F S128x128 .bf16) (x10 : Vec F S1x128 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = k0_pay5 x2 x6 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x29) hz, View.ld_unit_zero (S := S128x16) hz, View.ld_unit_zero (S := S16x128) hz,
    View.ld_unit_zero (S := S29x128) hz, View.ld_unit_zero (S := S1x128) hz, View.ld_unit_zero (S := S128x128) hz]

/-- At the first grid point the result block is computed from the tables just stored. -/
theorem out_first (c : Dev nD) (i : grid0.Coords) (arg1 : Memref sig .tc .vmem S4096x29 .f32) (harg1 : arg1.IsWhole) (arg2 : Memref sig .tc .vmem S128x16 .f32) (harg2 : arg2.IsWhole) (arg3 : Memref sig .tc .vmem S128x16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S29x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S128x128 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S128x128 .bf16) (harg16 : arg16.IsWhole) (hc0 : cond0_0 i) (x0 : Vec F S4096x29 .f32) (x1 : Vec F S128x16 .f32) (x2 : Vec F S128x16 .f32) (x3 : Vec F S16x128 .f32) (x4 : Vec F S16x128 .f32) (x5 : Vec F S16x128 .f32) (x6 : Vec F S16x128 .f32) (x7 : Vec F S29x128 .bf16) (x8 : Vec F S1x128 .f32) (x9 : Vec F S128x128 .bf16) (x10 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
      = blockOut x0 (k0_pay2 x1 x3 x8) (k0_pay3 x2 x4) (k0_pay4 x2 x5) (k0_pay5 x2 x6) x7 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x29) hz, View.ld_unit_zero (S := S128x16) hz, View.ld_unit_zero (S := S16x128) hz,
    View.ld_unit_zero (S := S29x128) hz, View.ld_unit_zero (S := S1x128) hz, View.ld_unit_zero (S := S128x128) hz]
  rw [View.readCov_unit_zero (S := S128x128) _ hz, View.readCov_unit_zero (S := S128x128) _ hz,
    View.readCov_unit_zero (S := S128x128) _ hz, View.readCov_unit_zero (S := S128x128) _ hz]

/-- At a later grid point the result block is computed from the tables the scratch buffers carry (`xs0` … `xs3`). -/
theorem out_later (c : Dev nD) (i : grid0.Coords) (arg1 : Memref sig .tc .vmem S4096x29 .f32) (harg1 : arg1.IsWhole) (arg2 : Memref sig .tc .vmem S128x16 .f32) (harg2 : arg2.IsWhole) (arg3 : Memref sig .tc .vmem S128x16 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S29x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4096x128 .f32) (harg12 : arg12.IsWhole) (arg13 : Memref sig .tc .vmem S128x128 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S128x128 .bf16) (harg16 : arg16.IsWhole) (hc0 : ¬cond0_0 i) (x0 : Vec F S4096x29 .f32) (x1 : Vec F S128x16 .f32) (x2 : Vec F S128x16 .f32) (x3 : Vec F S16x128 .f32) (x4 : Vec F S16x128 .f32) (x5 : Vec F S16x128 .f32) (x6 : Vec F S16x128 .f32) (x7 : Vec F S29x128 .bf16) (x8 : Vec F S1x128 .f32) (x9 : Vec F S128x128 .bf16) (x10 : Vec F S1x128 .f32) (xs0 : Vec F S128x128 .bf16) (xs1 : Vec F S128x128 .bf16) (xs2 : Vec F S128x128 .bf16) (xs3 : Vec F S128x128 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3 = blockOut x0 xs0 xs1 xs2 xs3 x7 x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 xs2 xs3)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x29) hz, View.ld_unit_zero (S := S128x16) hz, View.ld_unit_zero (S := S16x128) hz,
    View.ld_unit_zero (S := S29x128) hz, View.ld_unit_zero (S := S1x128) hz, View.ld_unit_zero (S := S128x128) hz]
  simp only [harg13.read_unread, harg14.read_unread, harg15.read_unread, harg16.read_unread]

end Cert.KernelIdeal.Pieces

end
-- ==== Proof.KTables.lean ====
/-
  The tables are computed once and then only read.

  Ten of the kernel's eleven input windows show the body a whole array at every grid point (their block index is (0, 0)
  throughout): the two padded embedding tables, the four 16-row slices of the first layer's weights, the feature weights,
  the two bias rows and the second layer's weights. So the four lookup tables the body computes at the first point are
  fixed functions of those arrays; the later points store nothing into the scratch buffers, which therefore hold the same
  four tables after EVERY point (induction on the point). Hence the block of output rows each point writes is the body's
  result for that point's 4096 rows of `content` and these fixed tables.
-/
import proofs.«129327_g79053168050384_cont_9to1_m_779_34_alg».proof.Proof.KPieces

noncomputable section

open Idealize.ShloMosaic Idealize.ShloMosaic.TcCoe Idealize.SL.Sem

namespace Cert.KernelIdeal.Tables

open Cert.KernelIdeal Cert.KernelIdeal.Gen Cert.KernelIdeal.Pieces

variable {F : FTy → Type} [FloatOps F]
variable (m : (ℓ : Loc nD τ sig) → Buf (Elt F) ℓ)

/-- The ten whole-array windows sit at block (0, 0) at every grid point (decided over the four points). -/
theorem whole_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem block1 (c : Dev nD) (t : Fin cfg0.N) : (iblk m c 1 t : Vec F S128x16 .f32) = (V m c main_v14 : S128x16.Idx → Elt F .f32) := by
  obtain ⟨e0, e1⟩ := (whole_index t).1
  funext j
  unfold iblk
  rw [View.read_apply]
  show V m c main_v14 _ = V m c main_v14 j
  refine congrArg _ (funext fun a => Fin.ext ?_)
  match a with
  | ⟨0, _⟩ => show win0_1.index t (0 : Fin 2) * 128 + 1 * (j 0).val = (j 0).val; rw [e0]; omega
  | ⟨1, _⟩ => show win0_1.index t (1 : Fin 2) * 16 + 1 * (j 1).val = (j 1).val; rw [e1]; omega

theorem block2 (c : Dev nD) (t : Fin cfg0.N) : (iblk m c 2 t : Vec F S128x16 .f32) = (V m c main_v17 : S128x16.Idx → Elt F .f32) := by
  obtain ⟨e0, e1⟩ := (whole_index t).2.1
  funext j
  unfold iblk
  rw [View.read_apply]
  show V m c main_v17 _ = V m c main_v17 j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 16 + 1 * (j 1).val = (j 1).val; rw [e1]; omega

theorem block3 (c : Dev nD) (t : Fin cfg0.N) : (iblk m c 3 t : Vec F S16x128 .f32) = (V m c main_v1 : S16x128.Idx → Elt F .f32) := by
  obtain ⟨e0, e1⟩ := (whole_index t).2.2.1
  funext j
  unfold iblk
  rw [View.read_apply]
  show V m c main_v1 _ = V m c main_v1 j
  refine congrArg _ (funext fun a => Fin.ext ?_)
  match a with
  | ⟨0, _⟩ => show win0_3.index t (0 : Fin 2) * 16 + 1 * (j 0).val = (j 0).val; rw [e0]; omega
  | ⟨1, _⟩ => show win0_3.index t (1 : Fin 2) * 128 + 1 * (j 1).val = (j 1).val; rw [e1]; omega

theorem block4 (c : Dev nD) (t : Fin cfg0.N) : (iblk m c 4 t : Vec F S16x128 .f32) = (V m c main_v2 : S16x128.Idx → Elt F .f32) := by
  obtain ⟨e0, e1⟩ := (whole_index t).2.2.2.1
  funext j
  unfold iblk
  rw [View.read_apply]
  show V m c main_v2 _ = V m c main_v2 j
  refine congrArg _ (funext fun a => Fin.ext ?_)
  match a with
  | ⟨0, _⟩ => show win0_4.index t (0 : Fin 2) * 16 + 1 * (j 0).val = (j 0).val; rw [e0]; omega
  | ⟨1, _⟩ => show win0_4.index t (1 : Fin 2) * 128 + 1 * (j 1).val = (j 1).val; rw [e1]; omega

theorem block5 (c : Dev nD) (t : Fin cfg0.N) : (iblk m c 5 t : Vec F S16x128 .f32) = (V m c main_v3 : S16x128.Idx → Elt F .f32) := by
  obtain ⟨e0, e1⟩ := (whole_index t).2.2.2.2.1
  funext j
  unfold iblk
  rw [View.read_apply]
  show V m c main_v3 _ = V m c main_v3 j
  refine congrArg _ (funext fun a => Fin.ext ?_)
  match a with
  | ⟨0, _⟩ => show win0_5.index t (0 : Fin 2) * 16 + 1 * (j 0).val = (j 0).val; rw [e0]; omega
  | ⟨1, _⟩ => show win0_5.index t (1 : Fin 2) * 128 + 1 * (j 1).val = (j 1).val; rw [e1]; omega

theorem block6 (c : Dev nD) (t : Fin cfg0.N) : (iblk m c 6 t : Vec F S16x128 .f32) = (V m c main_v4 : S16x128.Idx → Elt F .f32) := by
  obtain ⟨e0, e1⟩ := (whole_index t).2.2.2.2.2.1
  funext j
  unfold iblk
  rw [View.read_apply]
  show V m c main_v4 _ = V m c main_v4 j
  refine congrArg _ (funext fun a => Fin.ext ?_)
  match a with
  | ⟨0, _⟩ => show win0_6.index t (0 : Fin 2) * 16 + 1 * (j 0).val = (j 0).val; rw [e0]; omega
  | ⟨1, _⟩ => show win0_6.index t (1 : Fin 2) * 128 + 1 * (j 1).val = (j 1).val; rw [e1]; omega

theorem block7 (c : Dev nD) (t : Fin cfg0.N) : (iblk m c 7 t : Vec F S29x128 .bf16) = (V m c main_v18 : S29x128.Idx → Elt F .bf16) := by
  obtain ⟨e0, e1⟩ := (whole_index t).2.2.2.2.2.2.1
  funext j
  unfold iblk
  rw [View.read_apply]
  show V m c main_v18 _ = V m c main_v18 j
  refine congrArg _ (funext fun a => Fin.ext ?_)
  match a with
  | ⟨0, _⟩ => show win0_7.index t (0 : Fin 2) * 29 + 1 * (j 0).val = (j 0).val; rw [e0]; omega
  | ⟨1, _⟩ => show win0_7.index t (1 : Fin 2) * 128 + 1 * (j 1).val = (j 1).val; rw [e1]; omega

theorem block8 (c : Dev nD) (t : Fin cfg0.N) : (iblk m c 8 t : Vec F S1x128 .f32) = (V m c main_v19 : S1x128.Idx → Elt F .f32) := by
  obtain ⟨e0, e1⟩ := (whole_index t).2.2.2.2.2.2.2.1
  funext j
  unfold iblk
  rw [View.read_apply]
  show V m c main_v19 _ = V m c main_v19 j
  refine congrArg _ (funext fun a => Fin.ext ?_)
  match a with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

theorem block9 (c : Dev nD) (t : Fin cfg0.N) : (iblk m c 9 t : Vec F S128x128 .bf16) = (V m c main_v21 : S128x128.Idx → Elt F .bf16) := by
  obtain ⟨e0, e1⟩ := (whole_index t).2.2.2.2.2.2.2.2.1
  funext j
  unfold iblk
  rw [View.read_apply]
  show V m c main_v21 _ = V m c main_v21 j
  refine congrArg _ (funext fun a => Fin.ext ?_)
  match a with
  | ⟨0, _⟩ => show win0_9.index t (0 : Fin 2) * 128 + 1 * (j 0).val = (j 0).val; rw [e0]; omega
  | ⟨1, _⟩ => show win0_9.index t (1 : Fin 2) * 128 + 1 * (j 1).val = (j 1).val; rw [e1]; omega

theorem block10 (c : Dev nD) (t : Fin cfg0.N) : (iblk m c 10 t : Vec F S1x128 .f32) = (V m c main_v22 : S1x128.Idx → Elt F .f32) := by
  obtain ⟨e0, e1⟩ := (whole_index t).2.2.2.2.2.2.2.2.2
  funext j
  unfold iblk
  rw [View.read_apply]
  show V m c main_v22 _ = V m c main_v22 j
  refine congrArg _ (funext fun a => Fin.ext ?_)
  match a with
  | ⟨0, _⟩ => show win0_10.index t (0 : Fin 2) * 1 + 1 * (j 0).val = (j 0).val; rw [e0]; omega
  | ⟨1, _⟩ => show win0_10.index t (1 : Fin 2) * 128 + 1 * (j 1).val = (j 1).val; rw [e1]; omega

/-- The four tables, from the arrays as the kernel finds them: padded embeddings times weight slices, the first plus the bias row. -/
abbrev tableA (c : Dev nD) : FVec F S128x128 .bf16 := k0_pay2 (V m c main_v14) (V m c main_v1) (V m c main_v19)
abbrev table1 (c : Dev nD) : FVec F S128x128 .bf16 := k0_pay3 (V m c main_v17) (V m c main_v2)
abbrev table2 (c : Dev nD) : FVec F S128x128 .bf16 := k0_pay4 (V m c main_v17) (V m c main_v3)
abbrev table3 (c : Dev nD) : FVec F S128x128 .bf16 := k0_pay5 (V m c main_v17) (V m c main_v4)

/-- After every grid point the four scratch buffers hold the four tables. -/
theorem tables_at (c : Dev nD) : ∀ (n : ℕ) (h : n < cfg0.N),
    (outsAt0 m c n h).2.1 = tableA m c ∧ (outsAt0 m c n h).2.2.1 = table1 m c
      ∧ (outsAt0 m c n h).2.2.2.1 = table2 m c ∧ (outsAt0 m c n h).2.2.2.2 = table3 m c
  | 0, h => by
    rw [outsAt0_A m c ⟨0, h⟩ rfl]
    dsimp only
    refine ⟨(table0_first ..).trans ?_, (table1_first ..).trans ?_, (table2_first ..).trans ?_, (table3_first ..).trans ?_⟩
    · rw [block1, block3, block8]
    · rw [block2, block4]
    · rw [block2, block5]
    · rw [block2, block6]
  | n + 1, h => by
    have hN : cfg0.N = 4 := N_0
    have hB : ¬(⟨n + 1, h⟩ : Fin cfg0.N).val % 4 = 0 := by dsimp only; omega
    rw [outsAt0_B m c ⟨n + 1, h⟩ hB]
    dsimp only
    unfold sout0_B_0 sout0_B_1 sout0_B_2 sout0_B_3
    exact tables_at c n (Nat.lt_of_succ_lt h)

/-- What every grid point leaves in the output's staging buffer: the body's result for its block of `content` rows. -/
theorem out_at (c : Dev nD) (t : Fin cfg0.N) :
    (outsAt0 m c t.val t.isLt).1
      = blockOut (iblk m c 0 t) (tableA m c) (table1 m c) (table2 m c) (table3 m c) (V m c main_v18) (V m c main_v21) (V m c main_v22) := by
  by_cases h0 : t.val % 4 = 0
  · rw [outsAt0_A m c t h0]
    dsimp only
    refine (out_first ..).trans ?_
    rw [block1, block2, block3, block4, block5, block6, block7, block8, block9, block10]
  · rw [outsAt0_B m c t h0]
    dsimp only
    refine (out_later ..).trans ?_
    obtain ⟨ea, e1, e2, e3⟩ := tables_at m c (t.val - 1) (Nat.lt_of_le_of_lt (Nat.sub_le _ _) t.isLt)
    rw [ea, e1, e2, e3, block7, block9, block10]

end Cert.KernelIdeal.Tables

end
-- ==== Proof.KHost.lean ====
/-
  The kernel program's host prologue, read at an index.

  Before the kernel region the program rearranges its arguments: the first layer's weights `W_fc` (128 × 89) are
  transposed and cut into the four sixteen-row bands that meet the four looked-up embedding rows, and into the two feature
  bands, which are placed at rows 1–6 and 10–28 of a zero 29 × 128 matrix; the two embedding tables are placed at the top
  of zero 128 × 16 matrices; the second layer's weights are transposed; the two bias vectors become single rows. Each
  lemma here says which argument entry one entry of such an array is. The narrowing to the sixteen-bit format is the
  identity on extended reals.
-/
import proofs.«129327_g79053168050384_cont_9to1_m_779_34_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Host

open Cert.KernelIdeal Cert.KernelIdeal.Gen Idealize.ShloMosaic Idealize.ShloMosaic.ValueIdx Idealize.ShloMosaic.TcCoe
open Idealize.SL.Sem Idealize.ShloMosaic.Tactic

variable (m : (ℓ : Loc nD τ sig) → Buf (Elt Ideal) ℓ) (c : Dev nD)

/-! ## The four sixteen-row bands of the transposed first-layer weights -/

theorem v1_term : (V m c main_v1 : S16x128.Idx → EReal)
    = extractStridedSlice S16x128 ![0, 0] (transpose S89x128 [1, 0] (m ((c : Thread nD τ).loc main_arg3))
        transposes_S128x89_S89x128_1_0) slices_S89x128_S16x128_0_0 := by
  dsimp only [V, hostOps0]
  after_results

/-- Row `q` of the band of the transposed weights that starts at row 0 is column `0 + q` of `W_fc`. -/
theorem wSlice0_apply (q : Fin 16) (k : Fin 128) :
    (V m c main_v1 : S16x128.Idx → EReal) (ix2 q k)
      = m ((c : Thread nD τ).loc main_arg3) (ix2 k (⟨q.val, by omega⟩ : Fin 89)) := by
  rw [v1_term]
  refine (slice2_axis0_apply 0 _ _ q k (⟨q.val, by omega⟩ : Fin 89) (Nat.zero_add _).symm).trans ?_
  exact transpose_ix2_apply _ _ _ _

theorem v2_term : (V m c main_v2 : S16x128.Idx → EReal)
    = extractStridedSlice S16x128 ![22, 0] (transpose S89x128 [1, 0] (m ((c : Thread nD τ).loc main_arg3))
        transposes_S128x89_S89x128_1_0) slices_S89x128_S16x128_22_0 := by
  dsimp only [V, hostOps0]
  after_results

/-- Row `q` of the band of the transposed weights that starts at row 22 is column `22 + q` of `W_fc`. -/
theorem wSlice22_apply (q : Fin 16) (k : Fin 128) :
    (V m c main_v2 : S16x128.Idx → EReal) (ix2 q k)
      = m ((c : Thread nD τ).loc main_arg3) (ix2 k (⟨22 + q.val, by omega⟩ : Fin 89)) := by
  rw [v2_term]
  refine (slice2_axis0_apply 22 _ _ q k (⟨22 + q.val, by omega⟩ : Fin 89) rfl).trans ?_
  exact transpose_ix2_apply _ _ _ _

theorem v3_term : (V m c main_v3 : S16x128.Idx → EReal)
    = extractStridedSlice S16x128 ![38, 0] (transpose S89x128 [1, 0] (m ((c : Thread nD τ).loc main_arg3))
        transposes_S128x89_S89x128_1_0) slices_S89x128_S16x128_38_0 := by
  dsimp only [V, hostOps0]
  after_results

/-- Row `q` of the band of the transposed weights that starts at row 38 is column `38 + q` of `W_fc`. -/
theorem wSlice38_apply (q : Fin 16) (k : Fin 128) :
    (V m c main_v3 : S16x128.Idx → EReal) (ix2 q k)
      = m ((c : Thread nD τ).loc main_arg3) (ix2 k (⟨38 + q.val, by omega⟩ : Fin 89)) := by
  rw [v3_term]
  refine (slice2_axis0_apply 38 _ _ q k (⟨38 + q.val, by omega⟩ : Fin 89) rfl).trans ?_
  exact transpose_ix2_apply _ _ _ _

theorem v4_term : (V m c main_v4 : S16x128.Idx → EReal)
    = extractStridedSlice S16x128 ![54, 0] (transpose S89x128 [1, 0] (m ((c : Thread nD τ).loc main_arg3))
        transposes_S128x89_S89x128_1_0) slices_S89x128_S16x128_54_0 := by
  dsimp only [V, hostOps0]
  after_results

/-- Row `q` of the band of the transposed weights that starts at row 54 is column `54 + q` of `W_fc`. -/
theorem wSlice54_apply (q : Fin 16) (k : Fin 128) :
    (V m c main_v4 : S16x128.Idx → EReal) (ix2 q k)
      = m ((c : Thread nD τ).loc main_arg3) (ix2 k (⟨54 + q.val, by omega⟩ : Fin 89)) := by
  rw [v4_term]
  refine (slice2_axis0_apply 54 _ _ q k (⟨54 + q.val, by omega⟩ : Fin 89) rfl).trans ?_
  exact transpose_ix2_apply _ _ _ _

/-! ## The bias rows and the transposed second-layer weights -/

theorem v19_term : (V m c main_v19 : S1x128.Idx → EReal)
    = shapeCast S1x128 (m ((c : Thread nD τ).loc main_arg4)) shapeCasts_S128_S1x128 := by
  dsimp only [V, hostOps0]
  after_results
  rfl

/-- The first layer's bias as a single row. -/
theorem bfRow_apply (k : Fin 128) :
    (V m c main_v19 : S1x128.Idx → EReal) (ix2 (0 : Fin 1) k) = m ((c : Thread nD τ).loc main_arg4) (ix1 k) := by
  rw [v19_term]
  exact shapeCast_a_1a_apply _ _ _ _

theorem v22_term : (V m c main_v22 : S1x128.Idx → EReal)
    = shapeCast S1x128 (m ((c : Thread nD τ).loc main_arg6)) shapeCasts_S128_S1x128 := by
  dsimp only [V, hostOps0]
  after_results
  rfl

/-- The second layer's bias as a single row. -/
theorem brRow_apply (j : Fin 128) :
    (V m c main_v22 : S1x128.Idx → EReal) (ix2 (0 : Fin 1) j) = m ((c : Thread nD τ).loc main_arg6) (ix1 j) := by
  rw [v22_term]
  exact shapeCast_a_1a_apply _ _ _ _

theorem v21_term : (V m c main_v21 : S128x128.Idx → EReal)
    = (truncf .bf16 (transpose S128x128 [1, 0] (m ((c : Thread nD τ).loc main_arg5)) transposes_S128x128_S128x128_1_0
        : FVec Ideal S128x128 .f32) bitsLt_bf16_f32 : FVec Ideal S128x128 .bf16) := by
  dsimp only [V, hostOps0]
  after_results

/-- The second layer's weights transposed (and narrowed, which changes nothing here). -/
theorem wrT_apply (k j : Fin 128) :
    (V m c main_v21 : S128x128.Idx → EReal) (ix2 k j) = m ((c : Thread nD τ).loc main_arg5) (ix2 j k) := by
  rw [v21_term]
  exact (truncf_apply (φ := .f32) (ψ := .bf16) _ bitsLt_bf16_f32 (ix2 k j)).trans (transpose_ix2_apply _ _ k j)

/-! ## The block of `content` the kernel sees at a grid point -/

/-- At grid point `t` the kernel's first window holds rows `4096 t` to `4096 t + 4095` of `content`. -/
theorem content_block (t : Fin cfg0.N) (y : Fin 4096) (cc : Fin 29) :
    (iblk m c 0 t : S4096x29.Idx → EReal) (ix2 y cc)
      = m ((c : Thread nD τ).loc main_arg0)
          (ix2 (⟨4096 * t.val + y.val, by have := t.isLt; have hN : cfg0.N = 4 := N_0; omega⟩ : Fin 16384) cc) := by
  have hi : ∀ t : Fin grid0.N, win0_0.index t (0 : Fin 2) = t.val ∧ win0_0.index t (1 : Fin 2) = 0 := by decide +kernel
  unfold iblk
  rw [View.read_apply]
  show V m c main_arg0 _ = _
  rw [V_main_arg0]
  congr 1
  funext a
  apply Fin.ext
  match a with
  | ⟨0, _⟩ =>
    show win0_0.index t 0 * 4096 + 1 * y.val = 4096 * t.val + y.val
    rw [(hi t).1]; omega
  | ⟨1, _⟩ =>
    show win0_0.index t 1 * 29 + 1 * cc.val = cc.val
    rw [(hi t).2]; omega

end Cert.KernelIdeal.Host

end
-- ==== Proof.LibScatterSet.lean ====
/-
  An overwriting scatter, read at one index.

  `Host.scatter d (fun _ b => b) x idx upd` visits the update positions one after another and lets each one that lands
  inside the operand overwrite the element at its target. When no two positions share a target, the order of the visits
  does not matter: the result holds, at a target, the update that lands there, and everywhere else the operand's element.
-/
import Idealize.ShloMosaic.PureOps.ShapeOps
import Idealize.ShloMosaic.Lib.ValueIdx
import Mathlib.Data.List.Induction

namespace Cert.LibScatterSet

open Idealize.ShloMosaic

variable {s si u : Shape} {α : Type} {w : Nat}

/-- One visit of the overwriting scatter: update position `j` replaces the element at its target, when it has one. -/
def step (d : ScatterDims s si u) (idx : IVec si w) (upd : u.Idx → α) (r : s.Idx → α) (j : u.Idx) : s.Idx → α :=
  match d.resultIdx? j idx with
  | some i => fun i' => if i' = i then upd j else r i'
  | none => r

theorem step_none (d : ScatterDims s si u) (idx : IVec si w) (upd : u.Idx → α) (r : s.Idx → α) (j : u.Idx)
    (h : d.resultIdx? j idx = none) : step d idx upd r j = r := by
  unfold step; rw [h]

theorem step_some (d : ScatterDims s si u) (idx : IVec si w) (upd : u.Idx → α) (r : s.Idx → α) (j : u.Idx) (i : s.Idx)
    (h : d.resultIdx? j idx = some i) : step d idx upd r j = fun i' => if i' = i then upd j else r i' := by
  unfold step; rw [h]

/-- The overwriting scatter is the fold of `step` over the update positions in row-major order. -/
theorem scatter_eq_foldl (d : ScatterDims s si u) (x : s.Idx → α) (idx : IVec si w) (upd : u.Idx → α) :
    Host.scatter d (fun _ b => b) x idx upd
      = ((List.finRange u.numel).map u.rowMajor.symm).foldl (step d idx upd) x := by
  rw [List.foldl_map]; rfl

/-- Visiting any list `l` of update positions whose targets are pairwise distinct: at the target of a visited position
    the result is that position's update (a later visit cannot overwrite it, having another target), and at an index that
    no visited position targets it is the starting array's element. By induction on `l` from its end. -/
theorem foldl_step_apply (d : ScatterDims s si u) (idx : IVec si w) (upd : u.Idx → α)
    (hinj : ∀ j j' : u.Idx, ∀ i : s.Idx, d.resultIdx? j idx = some i → d.resultIdx? j' idx = some i → j = j')
    (x : s.Idx → α) (i : s.Idx) (l : List u.Idx) :
    (∀ j ∈ l, d.resultIdx? j idx = some i → l.foldl (step d idx upd) x i = upd j)
    ∧ ((∀ j ∈ l, d.resultIdx? j idx ≠ some i) → l.foldl (step d idx upd) x i = x i) := by
  induction l using List.reverseRecOn with
  | nil => exact ⟨fun j hj => absurd hj List.not_mem_nil, fun _ => rfl⟩
  | append_singleton l a ih =>
    obtain ⟨ih1, ih2⟩ := ih
    rw [List.foldl_append, List.foldl_cons, List.foldl_nil]
    cases hres : d.resultIdx? a idx with
    | none =>
      rw [step_none d idx upd _ a hres]
      refine ⟨fun j hj hji => ?_, fun h => ih2 fun j hj => h j (List.mem_append_left _ hj)⟩
      rcases List.mem_append.1 hj with hj | hj
      · exact ih1 j hj hji
      · have hja : j = a := List.mem_singleton.1 hj
        subst hja; rw [hres] at hji; cases hji
    | some i0 =>
      rw [step_some d idx upd _ a i0 hres]
      by_cases hi : i = i0
      · subst hi
        simp only [if_pos rfl]
        exact ⟨fun j _ hji => congrArg upd (hinj a j i hres hji),
          fun h => absurd hres (h a (List.mem_append_right _ (List.mem_singleton.2 rfl)))⟩
      · simp only [if_neg hi]
        refine ⟨fun j hj hji => ?_, fun h => ih2 fun j hj => h j (List.mem_append_left _ hj)⟩
        rcases List.mem_append.1 hj with hj | hj
        · exact ih1 j hj hji
        · have hja : j = a := List.mem_singleton.1 hj
          subst hja; rw [hres] at hji
          exact absurd (Option.some.inj hji).symm hi

/-- **An overwriting scatter with pairwise distinct targets, read at an index.** If no two update positions land on the
    same operand index, then `Host.scatter d (fun _ b => b) x idx upd` holds at `i` the update `upd j` of the position
    `j` that lands on `i`, and the operand's `x i` when no position lands on `i`. -/
theorem scatter_set_apply (d : ScatterDims s si u) (x : s.Idx → α) (idx : IVec si w) (upd : u.Idx → α)
    (hinj : ∀ j j' : u.Idx, ∀ i : s.Idx, d.resultIdx? j idx = some i → d.resultIdx? j' idx = some i → j = j')
    (i : s.Idx) :
    (∀ j, d.resultIdx? j idx = some i → Host.scatter d (fun _ b => b) x idx upd i = upd j)
    ∧ ((∀ j, d.resultIdx? j idx ≠ some i) → Host.scatter d (fun _ b => b) x idx upd i = x i) := by
  have hmem : ∀ j : u.Idx, j ∈ (List.finRange u.numel).map u.rowMajor.symm := fun j =>
    List.mem_map.2 ⟨u.rowMajor j, List.mem_finRange _, u.rowMajor.symm_apply_apply j⟩
  obtain ⟨h1, h2⟩ := foldl_step_apply d idx upd hinj x i ((List.finRange u.numel).map u.rowMajor.symm)
  rw [scatter_eq_foldl]
  exact ⟨fun j hj => h1 j (hmem j) hj, fun h => h2 fun j _ => h j⟩

/-! ## Whole rows written at a fixed row offset

The scatter that `zeros.at[lo : lo + M].set(u)` of an `N × C` array lowers to: one start index, holding the row offset
`lo`, and a window of `M` whole rows. Update position `(r, c)` lands on `(lo + r, c)`; these targets are pairwise
distinct, so the result is `u` on rows `lo … lo + M - 1` and the operand elsewhere. -/

section Rows

open Idealize.ShloMosaic.ValueIdx

variable {N M C : Nat}

/-- The dimension numbers of a write of `M` whole rows into an `N × C` array at one start index naming the first row:
    both update axes are window axes, no operand axis is inserted, the start index's one component goes to axis 0. -/
def rowsDims (h : ScatterDims.WF ⟨2, ![N, C]⟩ ⟨1, ![1]⟩ ⟨2, ![M, C]⟩ [0, 1] [] [0] 0) :
    ScatterDims ⟨2, ![N, C]⟩ ⟨1, ![1]⟩ ⟨2, ![M, C]⟩ :=
  { updateWindowDims := [0, 1], insertedWindowDims := [], scatterDimsToOperandDims := [0], indexVectorDim := 0, wf := h }

variable (h : ScatterDims.WF ⟨2, ![N, C]⟩ ⟨1, ![1]⟩ ⟨2, ![M, C]⟩ [0, 1] [] [0] 0)

/-- On the row axis the window starts at the start index's value, read signed. -/
theorem rowsDims_start0 (idx : IVec ⟨1, ![1]⟩ w) (lo : Int) (hidx : ∀ k, (idx k).toInt = lo)
    (j : (⟨2, ![M, C]⟩ : Shape).Idx) : (rowsDims h).start j idx (0 : Fin 2) = lo := by
  unfold ScatterDims.start
  simp [rowsDims, hidx]

/-- On the column axis the window starts at 0. -/
theorem rowsDims_start1 (idx : IVec ⟨1, ![1]⟩ w) (j : (⟨2, ![M, C]⟩ : Shape).Idx) :
    (rowsDims h).start j idx (1 : Fin 2) = 0 := by
  unfold ScatterDims.start
  simp [rowsDims]

/-- The window coordinate on the row axis is the update position's row. -/
theorem rowsDims_window0 (j : (⟨2, ![M, C]⟩ : Shape).Idx) : (rowsDims h).window j (0 : Fin 2) = (j 0).val := by
  rfl

/-- The window coordinate on the column axis is the update position's column. -/
theorem rowsDims_window1 (j : (⟨2, ![M, C]⟩ : Shape).Idx) : (rowsDims h).window j (1 : Fin 2) = (j 1).val := by
  rfl

/-- Update position `(r, c)` lands on `(lo + r, c)`, inside the operand because `lo + M ≤ N`. -/
theorem rowsDims_resultIdx? (idx : IVec ⟨1, ![1]⟩ w) (lo : Nat) (hidx : ∀ k, (idx k).toInt = (lo : Int)) (hlo : lo + M ≤ N)
    (j : (⟨2, ![M, C]⟩ : Shape).Idx) :
    (rowsDims h).resultIdx? j idx
      = some (ix2 ⟨lo + (j 0).val, by have := idx2_lt0 j; omega⟩ ⟨(j 1).val, idx2_lt1 j⟩) := by
  have s0 := rowsDims_start0 h idx lo hidx j
  have s1 := rowsDims_start1 h idx j
  have w0 := rowsDims_window0 h j
  have w1 := rowsDims_window1 h j
  have l0 := idx2_lt0 j
  have l1 := idx2_lt1 j
  unfold ScatterDims.resultIdx?
  have hcond : ∀ a, 0 ≤ (rowsDims h).start j idx a + (rowsDims h).window j a
      ∧ (rowsDims h).start j idx a + (rowsDims h).window j a < (⟨2, ![N, C]⟩ : Shape).size a := by
    intro a
    match a with
    | ⟨0, _⟩ =>
      show 0 ≤ (rowsDims h).start j idx (0 : Fin 2) + ((rowsDims h).window j (0 : Fin 2) : Int)
        ∧ (rowsDims h).start j idx (0 : Fin 2) + ((rowsDims h).window j (0 : Fin 2) : Int) < (N : Int)
      rw [s0, w0]; omega
    | ⟨1, _⟩ =>
      show 0 ≤ (rowsDims h).start j idx (1 : Fin 2) + ((rowsDims h).window j (1 : Fin 2) : Int)
        ∧ (rowsDims h).start j idx (1 : Fin 2) + ((rowsDims h).window j (1 : Fin 2) : Int) < (C : Int)
      rw [s1, w1]; omega
  rw [dif_pos hcond]
  refine congrArg some (funext fun a => ?_)
  match a with
  | ⟨0, _⟩ =>
    refine Fin.ext ?_
    show ((rowsDims h).start j idx (0 : Fin 2) + ((rowsDims h).window j (0 : Fin 2) : Int)).toNat = lo + (j 0).val
    rw [s0, w0]; omega
  | ⟨1, _⟩ =>
    refine Fin.ext ?_
    show ((rowsDims h).start j idx (1 : Fin 2) + ((rowsDims h).window j (1 : Fin 2) : Int)).toNat = (j 1).val
    rw [s1, w1]; omega

/-- **Whole rows written at row offset `lo`, read at an index.** The result holds, on rows `lo ≤ p < lo + M`, the
    update's row `p - lo`, and on every other row the operand. -/
theorem rows_set_apply {α : Type} (x : (⟨2, ![N, C]⟩ : Shape).Idx → α) (idx : IVec ⟨1, ![1]⟩ w) (lo : Nat)
    (hidx : ∀ k, (idx k).toInt = (lo : Int)) (hlo : lo + M ≤ N) (u : (⟨2, ![M, C]⟩ : Shape).Idx → α) (p : Fin N) (q : Fin C) :
    Host.scatter (rowsDims h) (fun _ b => b) x idx u (ix2 p q)
      = if hp : lo ≤ p.val ∧ p.val < lo + M then u (ix2 ⟨p.val - lo, by omega⟩ q) else x (ix2 p q) := by
  have hinj : ∀ j j' : (⟨2, ![M, C]⟩ : Shape).Idx, ∀ i : (⟨2, ![N, C]⟩ : Shape).Idx,
      (rowsDims h).resultIdx? j idx = some i → (rowsDims h).resultIdx? j' idx = some i → j = j' := by
    intro j j' i hj hj'
    rw [rowsDims_resultIdx? h idx lo hidx hlo] at hj hj'
    have e := (Option.some.inj hj).trans (Option.some.inj hj').symm
    have e0 : lo + (j 0).val = lo + (j' 0).val := congrArg Fin.val (congrFun e (0 : Fin 2))
    have e1 : (j 1).val = (j' 1).val := congrArg Fin.val (congrFun e (1 : Fin 2))
    rw [eq_ix2 j, eq_ix2 j']
    have a0 : j 0 = j' 0 := Fin.ext (by omega)
    have a1 : j 1 = j' 1 := Fin.ext e1
    rw [a0, a1]
  obtain ⟨h1, h2⟩ := scatter_set_apply (rowsDims h) x idx u hinj (ix2 p q)
  by_cases hp : lo ≤ p.val ∧ p.val < lo + M
  · rw [dif_pos hp]
    refine h1 _ ?_
    rw [rowsDims_resultIdx? h idx lo hidx hlo]
    refine congrArg some (funext fun a => ?_)
    match a with
    | ⟨0, _⟩ => exact Fin.ext (show lo + (p.val - lo) = p.val by omega)
    | ⟨1, _⟩ => rfl
  · rw [dif_neg hp]
    refine h2 fun j hj => ?_
    rw [rowsDims_resultIdx? h idx lo hidx hlo] at hj
    have e0 : lo + (j 0).val = p.val := congrArg Fin.val (congrFun (Option.some.inj hj) (0 : Fin 2))
    have l0 := idx2_lt0 j
    omega

end Rows

end Cert.LibScatterSet
-- ==== Proof.KScatter.lean ====
/-
  The four padded arrays of the kernel's host program, read at an index.

  Each is built by writing a block of whole rows into a larger array at a fixed first row (a scatter with one start index):
  the two embedding tables, of 91 and of 90 rows, go to rows 0 … of a 128-row array; the two bands of plain feature
  columns, of 6 and of 19 rows, go to rows 1 … 6 and rows 10 … 28 of a 29-row array. Read at row `p`, the result is the
  written block's row `p - lo` where `p` is in the block's range and the array underneath everywhere else.
-/
import proofs.«129327_g79053168050384_cont_9to1_m_779_34_alg».proof.KernelIdeal
import proofs.«129327_g79053168050384_cont_9to1_m_779_34_alg».proof.Proof.LibScatterSet
import Idealize.ShloMosaic.Lib.ValueIdx

namespace Cert.KernelIdeal.Scatter

open Idealize.ShloMosaic Idealize.ShloMosaic.ValueIdx Cert.KernelIdeal Cert.LibScatterSet

variable [Facts₀] {α : Type}

/-- The 91-row table written at row 0 of a 128-row array. -/
theorem pad91_apply (x : S128x16.Idx → α) (idx : IVec S1 32) (hidx : ∀ k, idx k = 0#32) (u : S91x16.Idx → α)
    (p : Fin 128) (q : Fin 16) :
    Host.scatter scatter_S128x16_S1_S91x16_01_n_0_0 (fun _ b => b) x idx u (ix2 p q)
      = if h : p.val < 91 then u (ix2 ⟨p.val, h⟩ q) else x (ix2 p q) := by
  have key := rows_set_apply (N := 128) (M := 91) (C := 16) Facts₀.scatter_S128x16_S1_S91x16_01_n_0_0_wf x idx 0
    (fun k => by rw [hidx k]; rfl) (by omega) u p q
  refine key.trans ?_
  by_cases h : p.val < 91
  · rw [dif_pos h, dif_pos (show 0 ≤ p.val ∧ p.val < 0 + 91 from ⟨Nat.zero_le _, by omega⟩)]
    rfl
  · rw [dif_neg h, dif_neg (show ¬ (0 ≤ p.val ∧ p.val < 0 + 91) by omega)]

/-- The 90-row table written at row 0 of a 128-row array. -/
theorem pad90_apply (x : S128x16.Idx → α) (idx : IVec S1 32) (hidx : ∀ k, idx k = 0#32) (u : S90x16.Idx → α)
    (p : Fin 128) (q : Fin 16) :
    Host.scatter scatter_S128x16_S1_S90x16_01_n_0_0 (fun _ b => b) x idx u (ix2 p q)
      = if h : p.val < 90 then u (ix2 ⟨p.val, h⟩ q) else x (ix2 p q) := by
  have key := rows_set_apply (N := 128) (M := 90) (C := 16) Facts₀.scatter_S128x16_S1_S90x16_01_n_0_0_wf x idx 0
    (fun k => by rw [hidx k]; rfl) (by omega) u p q
  refine key.trans ?_
  by_cases h : p.val < 90
  · rw [dif_pos h, dif_pos (show 0 ≤ p.val ∧ p.val < 0 + 90 from ⟨Nat.zero_le _, by omega⟩)]
    rfl
  · rw [dif_neg h, dif_neg (show ¬ (0 ≤ p.val ∧ p.val < 0 + 90) by omega)]

/-- The band of 6 feature rows written at row 1 of a 29-row array. -/
theorem band6_apply (x : S29x128.Idx → α) (idx : IVec S1 32) (hidx : ∀ k, idx k = 1#32) (u : S6x128.Idx → α)
    (p : Fin 29) (q : Fin 128) :
    Host.scatter scatter_S29x128_S1_S6x128_01_n_0_0 (fun _ b => b) x idx u (ix2 p q)
      = if h : 1 ≤ p.val ∧ p.val < 7 then u (ix2 ⟨p.val - 1, by omega⟩ q) else x (ix2 p q) := by
  have key := rows_set_apply (N := 29) (M := 6) (C := 128) Facts₀.scatter_S29x128_S1_S6x128_01_n_0_0_wf x idx 1
    (fun k => by rw [hidx k]; rfl) (by omega) u p q
  refine key.trans ?_
  by_cases h : 1 ≤ p.val ∧ p.val < 7
  · rw [dif_pos h]
  · rw [dif_neg h]

/-- The band of 19 feature rows written at row 10 of a 29-row array. -/
theorem band19_apply (x : S29x128.Idx → α) (idx : IVec S1 32) (hidx : ∀ k, idx k = 10#32) (u : S19x128.Idx → α)
    (p : Fin 29) (q : Fin 128) :
    Host.scatter scatter_S29x128_S1_S19x128_01_n_0_0 (fun _ b => b) x idx u (ix2 p q)
      = if h : 10 ≤ p.val ∧ p.val < 29 then u (ix2 ⟨p.val - 10, by omega⟩ q) else x (ix2 p q) := by
  have key := rows_set_apply (N := 29) (M := 19) (C := 128) Facts₀.scatter_S29x128_S1_S19x128_01_n_0_0_wf x idx 10
    (fun k => by rw [hidx k]; rfl) (by omega) u p q
  refine key.trans ?_
  by_cases h : 10 ≤ p.val ∧ p.val < 29
  · rw [dif_pos h]
  · rw [dif_neg h]

end Cert.KernelIdeal.Scatter
-- ==== Proof.KHostPads.lean ====
/-
  The kernel program's padded arrays, read at an index.

  The two embedding tables are written at the top of zero 128 × 16 arrays, so row `p` of such an array is the table's row
  `p` below the table's height and zero from there on. The two bands of plain feature weights (rows 16–21 and 70–88 of the
  transposed `W_fc`) are written at rows 1–6 and 10–28 of a zero 29 × 128 array, one after the other, so that row `cc` of
  the result meets column `cc` of `content`: the index columns 0, 7, 8, 9 meet zero rows.
-/
import proofs.«129327_g79053168050384_cont_9to1_m_779_34_alg».proof.Proof.KHost
import proofs.«129327_g79053168050384_cont_9to1_m_779_34_alg».proof.Proof.KScatter

noncomputable section

namespace Cert.KernelIdeal.Host

open Cert.KernelIdeal Cert.KernelIdeal.Gen Idealize.ShloMosaic Idealize.ShloMosaic.ValueIdx Idealize.ShloMosaic.TcCoe
open Idealize.SL.Sem Idealize.ShloMosaic.Tactic Cert.KernelIdeal.Scatter

variable (m : (ℓ : Loc nD τ sig) → Buf (Elt Ideal) ℓ) (c : Dev nD)

/-! ## The two embedding tables, padded to 128 rows -/

theorem v14_term : (V m c main_v14 : S128x16.Idx → EReal)
    = Host.scatter scatter_S128x16_S1_S91x16_01_n_0_0 (fun _ b => b)
        (broadcastInDim S128x16 ![] bcast_S_S128x16 (constant (F := Ideal) S_ .f32 0x00000000#32))
        (broadcastInDim S1 ![] bcast_S_S1 (constantI S_ 32 0#32))
        (m ((c : Thread nD τ).loc main_arg1)) := by
  dsimp only [V, hostOps0]
  after_results

/-- The 91-row table padded with zero rows to 128. -/
theorem eaPad_apply (p : Fin 128) (q : Fin 16) :
    (V m c main_v14 : S128x16.Idx → EReal) (ix2 p q)
      = if h : p.val < 91 then (m ((c : Thread nD τ).loc main_arg1) (ix2 (⟨p.val, h⟩ : Fin 91) q) : EReal) else (0 : EReal) := by
  rw [v14_term]
  refine (pad91_apply _ _ (fun _ => rfl) _ p q).trans ?_
  by_cases h : p.val < 91
  · rw [dif_pos h, dif_pos h]
  · rw [dif_neg h, dif_neg h]
    exact Ideal.ofBits_zero_f32

theorem v17_term : (V m c main_v17 : S128x16.Idx → EReal)
    = Host.scatter scatter_S128x16_S1_S90x16_01_n_0_0 (fun _ b => b)
        (broadcastInDim S128x16 ![] bcast_S_S128x16 (constant (F := Ideal) S_ .f32 0x00000000#32))
        (broadcastInDim S1 ![] bcast_S_S1 (constantI S_ 32 0#32))
        (m ((c : Thread nD τ).loc main_arg2)) := by
  dsimp only [V, hostOps0]
  after_results

/-- The 90-row table padded with zero rows to 128. -/
theorem ecPad_apply (p : Fin 128) (q : Fin 16) :
    (V m c main_v17 : S128x16.Idx → EReal) (ix2 p q)
      = if h : p.val < 90 then (m ((c : Thread nD τ).loc main_arg2) (ix2 (⟨p.val, h⟩ : Fin 90) q) : EReal) else (0 : EReal) := by
  rw [v17_term]
  refine (pad90_apply _ _ (fun _ => rfl) _ p q).trans ?_
  by_cases h : p.val < 90
  · rw [dif_pos h, dif_pos h]
  · rw [dif_neg h, dif_neg h]
    exact Ideal.ofBits_zero_f32

/-! ## The plain feature weights, laid out against the columns of `content` -/

theorem v18_term : (V m c main_v18 : S29x128.Idx → EReal)
    = (truncf .bf16 (Host.scatter scatter_S29x128_S1_S19x128_01_n_0_0 (fun _ b => b)
        (Host.scatter scatter_S29x128_S1_S6x128_01_n_0_0 (fun _ b => b)
          (broadcastInDim S29x128 ![] bcast_S_S29x128 (constant (F := Ideal) S_ .f32 0x00000000#32))
          (broadcastInDim S1 ![] bcast_S_S1 (constantI S_ 32 1#32))
          (extractStridedSlice S6x128 ![16, 0] (transpose S89x128 [1, 0] (m ((c : Thread nD τ).loc main_arg3))
            transposes_S128x89_S89x128_1_0) slices_S89x128_S6x128_16_0))
        (broadcastInDim S1 ![] bcast_S_S1 (constantI S_ 32 10#32))
        (extractStridedSlice S19x128 ![70, 0] (transpose S89x128 [1, 0] (m ((c : Thread nD τ).loc main_arg3))
          transposes_S128x89_S89x128_1_0) slices_S89x128_S19x128_70_0)
        : FVec Ideal S29x128 .f32) bitsLt_bf16_f32 : FVec Ideal S29x128 .bf16) := by
  dsimp only [V, hostOps0]
  after_results

/-- Row `cc` of the laid-out feature weights: column `16 + (cc - 1)` of `W_fc` for the features 1–6, column
    `70 + (cc - 10)` for the features 10–28, and zero at the index columns 0, 7, 8, 9. -/
theorem wf_apply (cc : Fin 29) (k : Fin 128) :
    (V m c main_v18 : S29x128.Idx → EReal) (ix2 cc k)
      = if h : 1 ≤ cc.val ∧ cc.val < 7 then
          (m ((c : Thread nD τ).loc main_arg3) (ix2 k (⟨16 + (cc.val - 1), by omega⟩ : Fin 89)) : EReal)
        else if h' : 10 ≤ cc.val then
          (m ((c : Thread nD τ).loc main_arg3) (ix2 k (⟨70 + (cc.val - 10), by have := cc.isLt; omega⟩ : Fin 89)) : EReal)
        else (0 : EReal) := by
  have hcc := cc.isLt
  rw [v18_term]
  refine (truncf_apply (φ := .f32) (ψ := .bf16) _ bitsLt_bf16_f32 (ix2 cc k)).trans ?_
  refine (band19_apply _ _ (fun _ => rfl) _ cc k).trans ?_
  by_cases h10 : 10 ≤ cc.val ∧ cc.val < 29
  · rw [dif_pos h10, dif_neg (by omega : ¬ (1 ≤ cc.val ∧ cc.val < 7)), dif_pos h10.1]
    refine (slice2_axis0_apply 70 _ _ (⟨cc.val - 10, by omega⟩ : Fin 19) k
      (⟨70 + (cc.val - 10), by omega⟩ : Fin 89) rfl).trans ?_
    exact transpose_ix2_apply _ _ _ _
  · rw [dif_neg h10]
    refine (band6_apply _ _ (fun _ => rfl) _ cc k).trans ?_
    by_cases h1 : 1 ≤ cc.val ∧ cc.val < 7
    · rw [dif_pos h1, dif_pos h1]
      refine (slice2_axis0_apply 16 _ _ (⟨cc.val - 1, by omega⟩ : Fin 6) k
        (⟨16 + (cc.val - 1), by omega⟩ : Fin 89) rfl).trans ?_
      exact transpose_ix2_apply _ _ _ _
    · rw [dif_neg h1, dif_neg h1, dif_neg (by omega : ¬ 10 ≤ cc.val)]
      exact Ideal.ofBits_zero_f32

end Cert.KernelIdeal.Host

end
-- ==== Proof.KPayMat.lean ====
/-
  A matrix product with one contracted axis, read at an entry.

  Each product in the kernel body multiplies an [m, c] block by a [c, n] block, contracting the left block's second
  axis against the right block's first, and accumulates into the zero block. At the extended reals such a product has
  no rounding and no order of accumulation left in it: its entry (p, k) is the plain sum over the contracted
  coordinate q of left (p, q) times right (q, k). The contraction index of the dimension record is a one-axis index;
  the sum over it is re-indexed through the bijection with the axis' coordinate, and the operand indices at an output
  index and a contraction index are read off coordinate by coordinate: the non-contracted coordinate comes from the
  output index, the contracted one from the contraction index.
-/
import proofs.«129327_g79053168050384_cont_9to1_m_779_34_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The product of an [m, c] block and a [c, n] block into the zero block, at entry (p, k): the sum over the contracted
    coordinate. The hypotheses say which axes the dimension record contracts and that its non-contracted operand
    coordinates are the output index's; each is closed by unfolding at a literal record. -/
theorem matmul_zero_ix2 {m c n : Nat} {φ₁ φ₂ : FTy} (D : DotDims ⟨2, ![m, c]⟩ ⟨2, ![c, n]⟩ ⟨2, ![m, n]⟩)
    (hr : D.contr.rank = 1) (hs : D.contr.size ⟨0, by omega⟩ = c)
    (hlc : D.lhsContracting = [1]) (hrc : D.rhsContracting = [0])
    (hl0 : ∀ (j : (⟨2, ![m, n]⟩ : Shape).Idx) (κ : D.contr.Idx), (D.lhsIdx j κ 0).val = (j 0).val)
    (hr1 : ∀ (j : (⟨2, ![m, n]⟩ : Shape).Idx) (κ : D.contr.Idx), (D.rhsIdx j κ 1).val = (j 1).val)
    (A : FVec Ideal ⟨2, ![m, c]⟩ φ₁) (B : FVec Ideal ⟨2, ![c, n]⟩ φ₂) (p : Fin m) (k : Fin n) :
    matmul D none A B (constant (F := Ideal) ⟨2, ![m, n]⟩ .f32 0x00000000#32) (ix2 p k)
      = ∑ q : Fin c, A (ix2 p q) * B (ix2 q k) := by
  refine (Ideal.matmul_constant_zero_apply D none A B (ix2 p k)).trans ?_
  rw [← Equiv.sum_comp (contrEquiv1 D c hr hs).symm]
  refine Finset.sum_congr rfl fun q _ => ?_
  have eL : D.lhsIdx (ix2 p k) ((contrEquiv1 D c hr hs).symm q) = ix2 p q := by
    funext a
    match a with
    | ⟨0, _⟩ => exact Fin.ext (hl0 _ _)
    | ⟨1, _⟩ => exact Fin.ext ((D.lhsIdx_val_of_single hlc _ _).trans (contrEquiv1_symm_val D c hr hs q))
  have eR : D.rhsIdx (ix2 p k) ((contrEquiv1 D c hr hs).symm q) = ix2 q k := by
    funext a
    match a with
    | ⟨0, _⟩ => exact Fin.ext ((D.rhsIdx_val_of_single hrc _ _).trans (contrEquiv1_symm_val D c hr hs q))
    | ⟨1, _⟩ => exact Fin.ext (hr1 _ _)
  rw [eL, eR]

/-- The [128, 16] by [16, 128] product that builds a lookup table. -/
theorem matmul_table {φ₁ φ₂ : FTy} (A : FVec Ideal S128x16 φ₁) (B : FVec Ideal S16x128 φ₂) (p k : Fin 128) :
    matmul dot_S128x16_S16x128_S128x128_1_0_0_1_n_n none A B (constant (F := Ideal) S128x128 .f32 0x00000000#32) (ix2 p k)
      = ∑ q : Fin 16, A (ix2 p q) * B (ix2 q k) :=
  matmul_zero_ix2 dot_S128x16_S16x128_S128x128_1_0_0_1_n_n rfl rfl rfl rfl (fun _ _ => rfl) (fun _ _ => rfl) A B p k

/-- The [4096, 128] by [128, 128] product of a row block with a table or a weight block. -/
theorem matmul_rows128 {φ₁ φ₂ : FTy} (A : FVec Ideal S4096x128 φ₁) (B : FVec Ideal S128x128 φ₂) (y : Fin 4096) (k : Fin 128) :
    matmul dot_S4096x128_S128x128_S4096x128_1_0_0_1_n_n none A B (constant (F := Ideal) S4096x128 .f32 0x00000000#32) (ix2 y k)
      = ∑ q : Fin 128, A (ix2 y q) * B (ix2 q k) :=
  matmul_zero_ix2 dot_S4096x128_S128x128_S4096x128_1_0_0_1_n_n rfl rfl rfl rfl (fun _ _ => rfl) (fun _ _ => rfl) A B y k

/-- The [4096, 29] by [29, 128] product of the content block with the feature weights. -/
theorem matmul_rows29 {φ₁ φ₂ : FTy} (A : FVec Ideal S4096x29 φ₁) (B : FVec Ideal S29x128 φ₂) (y : Fin 4096) (k : Fin 128) :
    matmul dot_S4096x29_S29x128_S4096x128_1_0_0_1_n_n none A B (constant (F := Ideal) S4096x128 .f32 0x00000000#32) (ix2 y k)
      = ∑ q : Fin 29, A (ix2 y q) * B (ix2 q k) :=
  matmul_zero_ix2 dot_S4096x29_S29x128_S4096x128_1_0_0_1_n_n rfl rfl rfl rfl (fun _ _ => rfl) (fun _ _ => rfl) A B y k

end Cert.KernelIdeal.Payload
-- ==== Proof.KPayTables.lean ====
/-
  The four lookup tables, read at an entry.

  Each table is a [128, 16] padded embedding block times a [16, 128] slice of the first layer's weights; the first
  table also has the bias row added to every row. The casts to the same shape and the narrowing of the format are the
  identity at the extended reals, so entry (p, k) of a table is the sum over the sixteen embedding coordinates q of
  embedding (p, q) times weight (q, k), plus bias (0, k) for the first.
-/
import proofs.«129327_g79053168050384_cont_9to1_m_779_34_alg».proof.Proof.KPayMat

noncomputable section

open scoped BigOperators

namespace Cert.KernelIdeal.Payload

open Idealize.ShloMosaic Idealize.ShloMosaic.ValueIdx Cert.KernelIdeal Cert.KernelIdeal.Gen

/-- The first table: embedding times weights plus the bias row. -/
theorem tableBias_apply (x1 : FVec Ideal S128x16 .f32) (x3 : FVec Ideal S16x128 .f32) (x8 : FVec Ideal S1x128 .f32) (p k : Fin 128) :
    k0_pay2 (F := Ideal) x1 x3 x8 (ix2 p k) = (∑ q : Fin 16, x1 (ix2 p q) * x3 (ix2 q k)) + x8 (ix2 (0 : Fin 1) k) := by
  unfold k0_pay2
  simp only [shapeCast_self]
  refine (truncf_apply (φ := .f32) (ψ := .bf16) _ bitsLt_bf16_f32 (ix2 p k)).trans ?_
  refine (addf_apply (φ := .f32) _ _ (ix2 p k)).trans ?_
  rw [matmul_table, broadcastTo_1b_ab_apply]

/-- The second table: embedding times weights. -/
theorem table3_apply (x2 : FVec Ideal S128x16 .f32) (x4 : FVec Ideal S16x128 .f32) (p k : Fin 128) :
    k0_pay3 (F := Ideal) x2 x4 (ix2 p k) = ∑ q : Fin 16, x2 (ix2 p q) * x4 (ix2 q k) := by
  unfold k0_pay3
  simp only [shapeCast_self]
  refine (truncf_apply (φ := .f32) (ψ := .bf16) _ bitsLt_bf16_f32 (ix2 p k)).trans ?_
  exact matmul_table x2 x4 p k

/-- The third table. -/
theorem table4_apply (x2 : FVec Ideal S128x16 .f32) (x4 : FVec Ideal S16x128 .f32) (p k : Fin 128) :
    k0_pay4 (F := Ideal) x2 x4 (ix2 p k) = ∑ q : Fin 16, x2 (ix2 p q) * x4 (ix2 q k) := by
  unfold k0_pay4
  simp only [shapeCast_self]
  refine (truncf_apply (φ := .f32) (ψ := .bf16) _ bitsLt_bf16_f32 (ix2 p k)).trans ?_
  exact matmul_table x2 x4 p k

/-- The fourth table. -/
theorem table5_apply (x2 : FVec Ideal S128x16 .f32) (x4 : FVec Ideal S16x128 .f32) (p k : Fin 128) :
    k0_pay5 (F := Ideal) x2 x4 (ix2 p k) = ∑ q : Fin 16, x2 (ix2 p q) * x4 (ix2 q k) := by
  unfold k0_pay5
  simp only [shapeCast_self]
  refine (truncf_apply (φ := .f32) (ψ := .bf16) _ bitsLt_bf16_f32 (ix2 p k)).trans ?_
  exact matmul_table x2 x4 p k

end Cert.KernelIdeal.Payload
-- ==== Proof.LibOneHot.lean ====
/-
  One-hot selection on the extended reals.

  A graph-convolution layer gathers a row of a table by a source index and adds the scaled row into the row of its
  target index.  Written with dense products against indicator matrices, the gather is
      msg e = (∑ k, [s e = k] · h k) · w e
  and the scatter is
      out n = ∑ e, [d e = n] · msg e .
  On the extended reals `0 · x = 0` and `1 · x = x` for EVERY x (the infinities included), and a finite sum
  whose terms vanish away from one index is the term at that index; so both dense forms collapse to the indexed
  forms with no finiteness hypothesis.  Edges appended with weight 0 contribute `x · 0 = 0`.
-/
import Mathlib.Data.EReal.Operations
import Mathlib.Algebra.BigOperators.Fin

open Finset

namespace Cert.LibOneHot

/-- The indicator of a proposition as an extended real. -/
noncomputable def ind (p : Prop) [Decidable p] : EReal := if p then 1 else 0

theorem ind_mul (p : Prop) [Decidable p] (x : EReal) : ind p * x = if p then x else 0 := by
  unfold ind; split <;> simp

/-- A dense product of an indicator row with a column picks the column's entry at the indicated position:
    `∑ k, [k = s] · f k = f s`, whatever the entries (no finiteness). -/
theorem sum_ind_mul {K : Type} [Fintype K] [DecidableEq K] (s : K) (f : K → EReal) :
    ∑ k, ind (k = s) * f k = f s := by
  simp only [ind_mul]
  rw [Finset.sum_ite_eq' Finset.univ s f]
  simp

/-- The same with the test written the other way round. -/
theorem sum_ind_mul' {K : Type} [Fintype K] [DecidableEq K] (s : K) (f : K → EReal) :
    ∑ k, ind (s = k) * f k = f s := by
  simp only [ind_mul]
  rw [Finset.sum_ite_eq Finset.univ s f]
  simp

/-- When no position is indicated the dense product is zero. -/
theorem sum_ind_mul_none {K : Type} [Fintype K] (p : K → Prop) [DecidablePred p] (hp : ∀ k, ¬ p k) (f : K → EReal) :
    ∑ k, ind (p k) * f k = 0 := by
  refine Finset.sum_eq_zero fun k _ => ?_
  rw [ind_mul, if_neg (hp k)]

/-- A sum over `a + b` positions whose last `b` terms vanish is the sum over the first `a`. -/
theorem sum_castAdd_of_tail_zero {a b : ℕ} (f : Fin (a + b) → EReal) (h : ∀ j : Fin b, f (Fin.natAdd a j) = 0) :
    ∑ e, f e = ∑ e : Fin a, f (Fin.castAdd b e) := by
  rw [Fin.sum_univ_add]
  simp [h]

/-- The scatter side: a dense product of an indicator column against messages is the sum of the messages whose
    target is the row: `∑ e, [d e = n] · g e = ∑ e, if d e = n then g e else 0`. -/
theorem sum_ind_scatter {E : Type} [Fintype E] {T : Type} [DecidableEq T] (d : E → T) (n : T) (g : E → EReal) :
    ∑ e, ind (d e = n) * g e = ∑ e, if d e = n then g e else 0 := by
  simp only [ind_mul]

/-- One layer, padded and dense, against the indexed form.  `a` real edges are followed by `b` appended edges of
    weight zero; every real edge's source `s e` names a row `k` of the table `h` (rows of the padded table beyond the
    real ones are never named).  Then for every target row `n`
      ∑_{e < a+b} [d e = n] · ((∑_k [s e = k] · h k) · w e)  =  ∑_{e < a} if d e = n then h (s e) · w e else 0 . -/
theorem dense_layer_eq {a b : ℕ} {K T : Type} [Fintype K] [DecidableEq K] [DecidableEq T]
    (s : Fin (a + b) → K) (d : Fin (a + b) → T) (w : Fin (a + b) → EReal) (h : K → EReal) (n : T)
    (hw : ∀ j : Fin b, w (Fin.natAdd a j) = 0) :
    ∑ e, ind (d e = n) * ((∑ k, ind (s e = k) * h k) * w e)
      = ∑ e : Fin a, if d (Fin.castAdd b e) = n then h (s (Fin.castAdd b e)) * w (Fin.castAdd b e) else 0 := by
  simp only [sum_ind_mul']
  simp only [ind_mul]
  exact sum_castAdd_of_tail_zero _ (fun j => by rw [hw j, mul_zero]; split <;> rfl)

end Cert.LibOneHot
-- ==== Proof.KPayOneHot.lean ====
/-
  The one-hot selections of the kernel body, read at an entry, and their products against a table.

  The body looks an embedding up by a matrix product. For an index column c of the content block it builds the
  [4096, 128] block whose entry (y, p) is 1 when the lane number p equals the content entry (y, c) and 0 otherwise: the
  lane numbers are the integers 0 … 127 converted to the float format, spread down the rows; the column is cut out of
  the content block and spread along the lanes; the two are compared for equality and the comparison selects between
  the constants one and zero. When the content entry is the integer n below 128, the row y of that block is the
  indicator of p = n (two naturals are equal exactly when their real values are), and its product with a table T is
      ∑ p, [p = n] · T (p, k) = T (n, k)
  because 0 · x = 0 and 1 · x = x for every extended real x: no finiteness of the table is needed.
-/
import proofs.«129327_g79053168050384_cont_9to1_m_779_34_alg».proof.Proof.KPayMat
import proofs.«129327_g79053168050384_cont_9to1_m_779_34_alg».proof.Proof.LibOneHot
import Idealize.ShloMosaic.Lib.IdealHost

noncomputable section

open scoped BigOperators

namespace Cert.KernelIdeal.Payload

open Idealize.ShloMosaic Idealize.ShloMosaic.ValueIdx Cert.KernelIdeal Cert.KernelIdeal.Gen Cert.LibOneHot

/-- The indicator depends only on the truth of its proposition. -/
theorem ind_congr {p q : Prop} [Decidable p] [Decidable q] (h : p ↔ q) : ind p = ind q := by
  unfold ind
  exact if_congr h rfl rfl

/-- An [a, 1] column spread along b lanes reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane numbers: lane p holds the real number p. -/
theorem lane_apply (p : Fin 128) : k0_pay7 (F := Ideal) (ix2 (0 : Fin 1) p) = ((p.val : ℝ) : EReal) := by
  unfold k0_pay7
  refine (sitofp_apply (F := Ideal) (φ := .bf16) _ (ix2 (0 : Fin 1) p)).trans ?_
  rw [iota_single_apply]
  show (((BitVec.ofNat 32 p.val).toInt : ℝ) : EReal) = _
  have hp : p.val < 128 := p.isLt
  have hn : (BitVec.ofNat 32 p.val).toNat = p.val := by
    rw [BitVec.toNat_ofNat]
    exact Nat.mod_eq_of_lt (by have : (2 : ℕ) ^ 32 = 4294967296 := by norm_num
                               omega)
  have h : (BitVec.ofNat 32 p.val).toInt = (p.val : Int) := by
    rw [BitVec.toInt_eq_toNat_of_lt (by rw [hn]; have : (2 : ℕ) ^ 32 = 4294967296 := by norm_num
                                        omega), hn]
  rw [h, Int.cast_natCast]

/-- A comparison for equality selecting between the constants one and zero is the indicator of the equality. -/
theorem select_oeq_apply (lane col : FVec Ideal S4096x128 .bf16) (i : S4096x128.Idx) :
    select (cmpf .oeq lane col) (broadcast S4096x128 (Scalar.ofBits (F := Ideal) .bf16 0x3F80#16))
        (broadcast S4096x128 (Scalar.ofBits (F := Ideal) .bf16 0x0000#16)) i
      = ind ((lane i : EReal) = (col i : EReal)) := by
  show Scalar.select (Ideal.cmp .oeq (lane i) (col i)) (Ideal.ofBits .bf16 0x3F80#16) (Ideal.ofBits .bf16 0x0000#16) = _
  rw [Ideal.ofBits_one_bf16, Ideal.ofBits_zero_bf16]
  unfold ind
  by_cases h : (lane i : EReal) = (col i : EReal)
  · have hc : Ideal.cmp .oeq (lane i) (col i) = 1#1 := by simp [Ideal.cmp, h]
    rw [hc, select_one, if_pos h]
  · have hc : Ideal.cmp .oeq (lane i) (col i) = 0#1 := by simp [Ideal.cmp, h]
    rw [hc, select_zero, if_neg h]

/-- The one-hot block of the content block's column at offset o. -/
def oneHotCol (x0 : FVec Ideal S4096x29 .f32) (o : Nat) (h : S4096x29.Slices ![0, o] S4096x1) : FVec Ideal S4096x128 .bf16 :=
  select (cmpf .oeq (broadcastTo S4096x128 (k0_pay7 (F := Ideal)) broadcasts_S1x128_S4096x128)
      (broadcastTo S4096x128 (extractStridedSlice S4096x1 ![0, o] (k0_pay6 x0) h) broadcasts_S4096x1_S4096x128))
    (broadcast S4096x128 (Scalar.ofBits (F := Ideal) .bf16 0x3F80#16))
    (broadcast S4096x128 (Scalar.ofBits (F := Ideal) .bf16 0x0000#16))

/-- Its entry (y, p) is the indicator that the lane number p equals the content entry (y, c). -/
theorem oneHotCol_apply (x0 : FVec Ideal S4096x29 .f32) (o : Nat) (h : S4096x29.Slices ![0, o] S4096x1)
    (c : Fin 29) (hc : c.val = o) (y : Fin 4096) (p : Fin 128) :
    oneHotCol x0 o h (ix2 y p) = ind (((p.val : ℝ) : EReal) = x0 (ix2 y c)) := by
  unfold oneHotCol
  refine (select_oeq_apply _ _ (ix2 y p)).trans ?_
  have hl : (broadcastTo S4096x128 (k0_pay7 (F := Ideal)) broadcasts_S1x128_S4096x128 (ix2 y p) : EReal) = ((p.val : ℝ) : EReal) :=
    (broadcastTo_1b_ab_apply _ _ y p).trans (lane_apply p)
  have hcol : (broadcastTo S4096x128 (extractStridedSlice S4096x1 ![0, o] (k0_pay6 (F := Ideal) x0) h) broadcasts_S4096x1_S4096x128 (ix2 y p) : EReal)
      = (x0 (ix2 y c) : EReal) := by
    refine (broadcastTo_a1_ab_apply _ _ y p).trans ?_
    refine (slice2_axis1_apply o (k0_pay6 (F := Ideal) x0) h y (0 : Fin 1) c (by rw [hc]; rfl)).trans ?_
    unfold k0_pay6
    exact truncf_apply (φ := .f32) (ψ := .bf16) x0 bitsLt_bf16_f32 (ix2 y c)
  rw [hl, hcol]

/-- The three payloads that hold one-hot blocks are built from it. -/
theorem k0_pay8_eq (x0 : FVec Ideal S4096x29 .f32) : k0_pay8 (F := Ideal) x0 = oneHotCol x0 8 slices_S4096x29_o0_8_S4096x1 := rfl
theorem k0_pay9_eq (x0 : FVec Ideal S4096x29 .f32) : k0_pay9 (F := Ideal) x0 = oneHotCol x0 9 slices_S4096x29_o0_9_S4096x1 := rfl
theorem k0_pay10_eq (x0 : FVec Ideal S4096x29 .f32) (ta t1 : FVec Ideal S128x128 .bf16) :
    k0_pay10 (F := Ideal) x0 ta t1
      = addf (matmul dot_S4096x128_S128x128_S4096x128_1_0_0_1_n_n none (oneHotCol x0 0 slices_S4096x29_o0_0_S4096x1) ta
                (constant (F := Ideal) S4096x128 .f32 0x00000000#32))
             (matmul dot_S4096x128_S128x128_S4096x128_1_0_0_1_n_n none (oneHotCol x0 7 slices_S4096x29_o0_7_S4096x1) t1
                (constant (F := Ideal) S4096x128 .f32 0x00000000#32)) := rfl

/-- A one-hot block times a table is the table's row at the selected position: when the content entry (y, c) is the
    integer n, row y of the product is row n of the table. -/
theorem oneHot_matmul (x0 : FVec Ideal S4096x29 .f32) (o : Nat) (h : S4096x29.Slices ![0, o] S4096x1) (c : Fin 29) (hc : c.val = o)
    (T : FVec Ideal S128x128 .bf16) (y : Fin 4096) (k : Fin 128) (n : Fin 128) (hn : x0 (ix2 y c) = ((n.val : ℝ) : EReal)) :
    matmul dot_S4096x128_S128x128_S4096x128_1_0_0_1_n_n none (oneHotCol x0 o h) T (constant (F := Ideal) S4096x128 .f32 0x00000000#32) (ix2 y k)
      = T (ix2 n k) := by
  refine (matmul_rows128 (oneHotCol x0 o h) T y k).trans ?_
  refine Eq.trans ?_ (sum_ind_mul n fun q : Fin 128 => T (ix2 q k))
  refine Finset.sum_congr rfl fun q _ => ?_
  rw [oneHotCol_apply x0 o h c hc y q, hn]
  refine congrArg (· * T (ix2 q k)) (ind_congr ?_)
  rw [EReal.coe_eq_coe_iff, Nat.cast_inj, Fin.val_inj]

end Cert.KernelIdeal.Payload
-- ==== Proof.KPayload.lean ====
/-
  The kernel body's result block, read at an entry.

  From the content block x0, the four lookup tables and the remaining weights the body forms, for row y and hidden
  unit k, the pre-activation
      table0 (n0, k) + table1 (n7, k) + table2 (n8, k) + table3 (n9, k) + ∑ c, x0 (y, c) · x7 (c, k) ,
  where n0, n7, n8, n9 are the integers held by the four index columns 0, 7, 8, 9 of row y: each table row is picked by
  a one-hot block times the table, and that product is the table's row at the selected position. The pre-activation is
  clamped below at zero, multiplied into the second layer's weights x9, and the second bias row x10 is added. The format
  changes and the casts to the same shape in between are the identity at the extended reals, and every product is a
  plain sum over its contracted coordinate. Only the index columns' values are used; nothing is assumed finite.
-/
import proofs.«129327_g79053168050384_cont_9to1_m_779_34_alg».proof.Proof.KPayTables
import proofs.«129327_g79053168050384_cont_9to1_m_779_34_alg».proof.Proof.KPayOneHot

noncomputable section

open scoped BigOperators

namespace Cert.KernelIdeal.Payload

open Idealize.ShloMosaic Idealize.ShloMosaic.ValueIdx Cert.KernelIdeal Cert.KernelIdeal.Gen Cert.LibOneHot

/-- The partial sum of the first two lookups: the rows of the first two tables at the positions the index columns 0 and 7
    hold. -/
theorem pay10_apply (x0 : FVec Ideal S4096x29 .f32) (ta t1 : FVec Ideal S128x128 .bf16) (y : Fin 4096) (k : Fin 128) (n0 n7 : Fin 128)
    (h0 : x0 (ix2 y (0 : Fin 29)) = ((n0.val : ℝ) : EReal)) (h7 : x0 (ix2 y (7 : Fin 29)) = ((n7.val : ℝ) : EReal)) :
    k0_pay10 (F := Ideal) x0 ta t1 (ix2 y k) = ta (ix2 n0 k) + t1 (ix2 n7 k) := by
  rw [k0_pay10_eq]
  refine (addf_apply (φ := .f32) _ _ (ix2 y k)).trans ?_
  rw [oneHot_matmul x0 0 slices_S4096x29_o0_0_S4096x1 (0 : Fin 29) rfl ta y k n0 h0,
    oneHot_matmul x0 7 slices_S4096x29_o0_7_S4096x1 (7 : Fin 29) rfl t1 y k n7 h7]

/-- THE RESULT BLOCK AT (y, j). -/
theorem blockOut_apply (x0 : FVec Ideal S4096x29 .f32) (ta t1 t2 t3 : FVec Ideal S128x128 .bf16) (x7 : FVec Ideal S29x128 .bf16)
    (x9 : FVec Ideal S128x128 .bf16) (x10 : FVec Ideal S1x128 .f32)
    (y : Fin 4096) (j : Fin 128) (n0 n7 n8 n9 : Fin 128)
    (h0 : x0 (ix2 y (0 : Fin 29)) = ((n0.val : ℝ) : EReal)) (h7 : x0 (ix2 y (7 : Fin 29)) = ((n7.val : ℝ) : EReal))
    (h8 : x0 (ix2 y (8 : Fin 29)) = ((n8.val : ℝ) : EReal)) (h9 : x0 (ix2 y (9 : Fin 29)) = ((n9.val : ℝ) : EReal)) :
    k0_pay1 (F := Ideal) (k0_pay6 x0) (k0_pay8 x0) (k0_pay9 x0) (k0_pay10 x0 ta t1) t2 t3 x7 x9 x10 (ix2 y j)
      = (∑ k : Fin 128, max (((((ta (ix2 n0 k) + t1 (ix2 n7 k)) + t2 (ix2 n8 k)) + t3 (ix2 n9 k))
            + ∑ c : Fin 29, x0 (ix2 y c) * x7 (ix2 c k))) 0 * x9 (ix2 k j)) + x10 (ix2 (0 : Fin 1) j) := by
  unfold k0_pay1
  simp only [shapeCast_self]
  refine (addf_apply (φ := .f32) _ _ (ix2 y j)).trans ?_
  rw [matmul_rows128, broadcastTo_1b_ab_apply]
  refine congrArg (· + x10 (ix2 (0 : Fin 1) j)) (Finset.sum_congr rfl fun k _ => ?_)
  refine congrArg (· * x9 (ix2 k j)) ?_
  refine (truncf_apply (φ := .f32) (ψ := .bf16) _ bitsLt_bf16_f32 (ix2 y k)).trans ?_
  refine (maximumf_apply (φ := .f32) _ _ (ix2 y k)).trans ?_
  refine congrArg₂ max ?_ Ideal.ofBits_zero_f32
  refine (addf_apply (φ := .f32) _ _ (ix2 y k)).trans ?_
  refine congrArg₂ (· + ·) ?_ ?_
  · refine (addf_apply (φ := .f32) _ _ (ix2 y k)).trans ?_
    refine congrArg₂ (· + ·) ?_ ?_
    · refine (addf_apply (φ := .f32) _ _ (ix2 y k)).trans ?_
      refine congrArg₂ (· + ·) (pay10_apply x0 ta t1 y k n0 n7 h0 h7) ?_
      rw [k0_pay8_eq]
      exact oneHot_matmul x0 8 slices_S4096x29_o0_8_S4096x1 (8 : Fin 29) rfl t2 y k n8 h8
    · rw [k0_pay9_eq]
      exact oneHot_matmul x0 9 slices_S4096x29_o0_9_S4096x1 (9 : Fin 29) rfl t3 y k n9 h9
  · refine (matmul_rows29 (k0_pay6 (F := Ideal) x0) x7 y k).trans ?_
    refine Finset.sum_congr rfl fun c _ => ?_
    refine congrArg (· * x7 (ix2 c k)) ?_
    unfold k0_pay6
    exact truncf_apply (φ := .f32) (ψ := .bf16) x0 bitsLt_bf16_f32 (ix2 y c)

end Cert.KernelIdeal.Payload
-- ==== Proof.KAlgebra.lean ====
/-
  The feature columns against the zero-padded weight block.

  The kernel multiplies ALL 29 columns of a `content` row into a 29-row weight block whose rows at the four index columns
  (0, 7, 8, 9) are zero, whose rows 1–6 are the first layer's weight columns 16–21 and whose rows 10–28 are its columns
  70–88. A sum over the 29 columns therefore keeps exactly the two feature bands: the terms at the index columns are
  `x · 0 = 0` for every extended real `x` (no finiteness is needed), and the sum over `Fin 29` splits at 1, 7 and 10 into
  consecutive stretches.
-/
import Mathlib.Data.EReal.Basic
import Mathlib.Algebra.BigOperators.Fin

open scoped BigOperators

namespace Cert.KernelIdeal.Algebra

/-- A sum over `Fin 29`, cut at 1, 7 and 10 into four consecutive stretches. -/
theorem sum29_split {M : Type*} [AddCommMonoid M] (f : Fin 29 → M) :
    ∑ cc, f cc = (((∑ i : Fin 1, f ⟨i.val, by omega⟩) + ∑ i : Fin 6, f ⟨1 + i.val, by omega⟩)
      + ∑ i : Fin 3, f ⟨7 + i.val, by omega⟩) + ∑ i : Fin 19, f ⟨10 + i.val, by omega⟩ := by
  have h1 : ∑ cc : Fin 29, f cc = (∑ i : Fin 10, f (Fin.castAdd 19 i)) + ∑ i : Fin 19, f (Fin.natAdd 10 i) :=
    Fin.sum_univ_add (a := 10) (b := 19) f
  have h2 : ∑ i : Fin 10, f (Fin.castAdd 19 i)
      = (∑ i : Fin 7, f (Fin.castAdd 19 (Fin.castAdd 3 i))) + ∑ i : Fin 3, f (Fin.castAdd 19 (Fin.natAdd 7 i)) :=
    Fin.sum_univ_add (a := 7) (b := 3) (fun i : Fin 10 => f (Fin.castAdd 19 i))
  have h3 : ∑ i : Fin 7, f (Fin.castAdd 19 (Fin.castAdd 3 i))
      = (∑ i : Fin 1, f (Fin.castAdd 19 (Fin.castAdd 3 (Fin.castAdd 6 i))))
        + ∑ i : Fin 6, f (Fin.castAdd 19 (Fin.castAdd 3 (Fin.natAdd 1 i))) :=
    Fin.sum_univ_add (a := 1) (b := 6) (fun i : Fin 7 => f (Fin.castAdd 19 (Fin.castAdd 3 i)))
  rw [h1, h2, h3]
  rfl

/-- The 29-column product against the padded block is the two feature bands. -/
theorem band_split (a wf : Fin 29 → EReal) (w : Fin 89 → EReal)
    (hwf : ∀ cc : Fin 29, wf cc = if h : 1 ≤ cc.val ∧ cc.val < 7 then w ⟨16 + (cc.val - 1), by omega⟩
      else if h' : 10 ≤ cc.val then w ⟨70 + (cc.val - 10), by have := cc.isLt; omega⟩ else 0) :
    ∑ cc, a cc * wf cc
      = (∑ i : Fin 6, a ⟨1 + i.val, by omega⟩ * w ⟨16 + i.val, by omega⟩)
        + ∑ i : Fin 19, a ⟨10 + i.val, by omega⟩ * w ⟨70 + i.val, by omega⟩ := by
  rw [sum29_split]
  have z1 : ∑ i : Fin 1, a ⟨i.val, by omega⟩ * wf ⟨i.val, by omega⟩ = 0 :=
    Finset.sum_eq_zero fun i _ => by
      rw [hwf, dif_neg (by dsimp only; omega), dif_neg (by dsimp only; omega), mul_zero]
  have z3 : ∑ i : Fin 3, a ⟨7 + i.val, by omega⟩ * wf ⟨7 + i.val, by omega⟩ = 0 :=
    Finset.sum_eq_zero fun i _ => by
      rw [hwf, dif_neg (by dsimp only; omega), dif_neg (by dsimp only; omega), mul_zero]
  have b6 : ∑ i : Fin 6, a ⟨1 + i.val, by omega⟩ * wf ⟨1 + i.val, by omega⟩
      = ∑ i : Fin 6, a ⟨1 + i.val, by omega⟩ * w ⟨16 + i.val, by omega⟩ :=
    Finset.sum_congr rfl fun i _ => by
      rw [hwf, dif_pos (by dsimp only; omega)]
      congr 2
      exact Fin.ext (by dsimp only; omega)
  have b19 : ∑ i : Fin 19, a ⟨10 + i.val, by omega⟩ * wf ⟨10 + i.val, by omega⟩
      = ∑ i : Fin 19, a ⟨10 + i.val, by omega⟩ * w ⟨70 + i.val, by omega⟩ :=
    Finset.sum_congr rfl fun i _ => by
      rw [hwf, dif_neg (by dsimp only; omega), dif_pos (by dsimp only; omega)]
      congr 2
      exact Fin.ext (by dsimp only; omega)
  rw [z1, z3, b6, b19, zero_add, add_zero]

end Cert.KernelIdeal.Algebra
-- ==== Proof.KBlockMath.lean ====
/-
  One output entry of the kernel body is the specified entry — the arithmetic, over plain arrays.

  Here the kernel's operand blocks are arbitrary arrays `x1 … x10` related to the seven argument arrays by the equations the
  host-side preparation establishes: the padded tables agree with the embedding tables below their lengths and are zero
  past them; the four weight slices are sixteen columns of `W_fc` each, transposed; the feature block is `W_fc`'s columns
  16–21 at rows 1–6 and 70–88 at rows 10–28 and zero at the index rows; the bias rows and the transposed second layer are
  the arguments themselves. A table row is then a looked-up embedding row against its weights (`rowDot`), the first with the
  bias added; under the index facts the body's one-hot products pick those rows; the 29-column product is the two feature
  bands (`band_split`). Summand by summand this is `Spec.hidden`; relu, the second layer and its bias are spelled alike.
-/
import proofs.«129327_g79053168050384_cont_9to1_m_779_34_alg».proof.Proof.KPayload
import proofs.«129327_g79053168050384_cont_9to1_m_779_34_alg».proof.Proof.KAlgebra
import proofs.«129327_g79053168050384_cont_9to1_m_779_34_alg».proof.Proof.Spec

noncomputable section

open scoped BigOperators
open Idealize.ShloMosaic Idealize.ShloMosaic.ValueIdx

namespace Cert.KernelIdeal.BlockMath

open Cert.KernelIdeal Cert.KernelIdeal.Gen

/-- Row `n` of the first table: the avg row `n` against weight columns 0–15, plus the bias. -/
theorem tableA_row (x1 : FVec Ideal S128x16 .f32) (x3 : FVec Ideal S16x128 .f32) (x8 : FVec Ideal S1x128 .f32)
    (EA : (⟨2, ![91, 16]⟩ : Shape).Idx → EReal) (W : (⟨2, ![128, 89]⟩ : Shape).Idx → EReal) (bf : (⟨1, ![128]⟩ : Shape).Idx → EReal)
    (h1 : ∀ (p : Fin 128) (q : Fin 16), x1 (ix2 p q) = if h : p.val < 91 then EA (ix2 (⟨p.val, h⟩ : Fin 91) q) else (0 : EReal))
    (h3 : ∀ (q : Fin 16) (k : Fin 128), x3 (ix2 q k) = W (ix2 k (⟨q.val, by omega⟩ : Fin 89)))
    (h8 : ∀ k : Fin 128, x8 (ix2 (0 : Fin 1) k) = bf (ix1 k)) (n k : Fin 128) :
    k0_pay2 (F := Ideal) x1 x3 x8 (ix2 n k) = Cert.Spec.rowDot EA W n.val 0 (by omega) k + bf (ix1 k) := by
  rw [Cert.KernelIdeal.Payload.tableBias_apply, h8]
  unfold Cert.Spec.rowDot Cert.Spec.rowAt
  congr 1
  refine Finset.sum_congr rfl fun q _ => ?_
  rw [h1, h3]
  congr 2
  exact congrArg _ (Fin.ext (Nat.zero_add _).symm)

/-- Row `n` of a category table: the category row `n` against the sixteen weight columns from `o`. -/
theorem tableC_row (pay : FVec Ideal S128x16 .f32 → FVec Ideal S16x128 .f32 → FVec Ideal S128x128 .bf16)
    (hpay : ∀ (x2 : FVec Ideal S128x16 .f32) (x4 : FVec Ideal S16x128 .f32) (p k : Fin 128),
      pay x2 x4 (ix2 p k) = ∑ q : Fin 16, x2 (ix2 p q) * x4 (ix2 q k))
    (x2 : FVec Ideal S128x16 .f32) (x4 : FVec Ideal S16x128 .f32)
    (EC : (⟨2, ![90, 16]⟩ : Shape).Idx → EReal) (W : (⟨2, ![128, 89]⟩ : Shape).Idx → EReal) (o : ℕ) (ho : o + 16 ≤ 89)
    (h2 : ∀ (p : Fin 128) (q : Fin 16), x2 (ix2 p q) = if h : p.val < 90 then EC (ix2 (⟨p.val, h⟩ : Fin 90) q) else (0 : EReal))
    (h4 : ∀ (q : Fin 16) (k : Fin 128), x4 (ix2 q k) = W (ix2 k (⟨o + q.val, by omega⟩ : Fin 89))) (n k : Fin 128) :
    pay x2 x4 (ix2 n k) = Cert.Spec.rowDot EC W n.val o ho k := by
  rw [hpay]
  unfold Cert.Spec.rowDot Cert.Spec.rowAt
  refine Finset.sum_congr rfl fun q _ => ?_
  rw [h2, h4]

/-- The kernel body's result at `(y, j)` is the specified entry at the row `r` whose `content` row the block's row `y` is. -/
theorem value (x0 : FVec Ideal S4096x29 .f32) (x1 x2 : FVec Ideal S128x16 .f32) (x3 x4 x5 x6 : FVec Ideal S16x128 .f32)
    (x7 : FVec Ideal S29x128 .bf16) (x8 : FVec Ideal S1x128 .f32) (x9 : FVec Ideal S128x128 .bf16) (x10 : FVec Ideal S1x128 .f32)
    (C : (⟨2, ![16384, 29]⟩ : Shape).Idx → EReal) (EA : (⟨2, ![91, 16]⟩ : Shape).Idx → EReal)
    (EC : (⟨2, ![90, 16]⟩ : Shape).Idx → EReal) (W : (⟨2, ![128, 89]⟩ : Shape).Idx → EReal)
    (bf : (⟨1, ![128]⟩ : Shape).Idx → EReal) (WR : (⟨2, ![128, 128]⟩ : Shape).Idx → EReal)
    (br : (⟨1, ![128]⟩ : Shape).Idx → EReal) (y : Fin 4096) (j : Fin 128) (r : Fin 16384)
    (H0 : Cert.Spec.IsRow 91 (C (ix2 r (0 : Fin 29)))) (H7 : Cert.Spec.IsRow 90 (C (ix2 r (7 : Fin 29))))
    (H8 : Cert.Spec.IsRow 90 (C (ix2 r (8 : Fin 29)))) (H9 : Cert.Spec.IsRow 90 (C (ix2 r (9 : Fin 29))))
    (h0 : ∀ cc : Fin 29, x0 (ix2 y cc) = C (ix2 r cc))
    (h1 : ∀ (p : Fin 128) (q : Fin 16), x1 (ix2 p q) = if h : p.val < 91 then EA (ix2 (⟨p.val, h⟩ : Fin 91) q) else (0 : EReal))
    (h2 : ∀ (p : Fin 128) (q : Fin 16), x2 (ix2 p q) = if h : p.val < 90 then EC (ix2 (⟨p.val, h⟩ : Fin 90) q) else (0 : EReal))
    (h3 : ∀ (q : Fin 16) (k : Fin 128), x3 (ix2 q k) = W (ix2 k (⟨q.val, by omega⟩ : Fin 89)))
    (h4 : ∀ (q : Fin 16) (k : Fin 128), x4 (ix2 q k) = W (ix2 k (⟨22 + q.val, by omega⟩ : Fin 89)))
    (h5 : ∀ (q : Fin 16) (k : Fin 128), x5 (ix2 q k) = W (ix2 k (⟨38 + q.val, by omega⟩ : Fin 89)))
    (h6 : ∀ (q : Fin 16) (k : Fin 128), x6 (ix2 q k) = W (ix2 k (⟨54 + q.val, by omega⟩ : Fin 89)))
    (h7 : ∀ (cc : Fin 29) (k : Fin 128), x7 (ix2 cc k) = if h : 1 ≤ cc.val ∧ cc.val < 7
        then W (ix2 k (⟨16 + (cc.val - 1), by omega⟩ : Fin 89))
        else if h' : 10 ≤ cc.val then W (ix2 k (⟨70 + (cc.val - 10), by have := cc.isLt; omega⟩ : Fin 89)) else (0 : EReal))
    (h8 : ∀ k : Fin 128, x8 (ix2 (0 : Fin 1) k) = bf (ix1 k))
    (h9 : ∀ k j : Fin 128, x9 (ix2 k j) = WR (ix2 j k))
    (h10 : ∀ j : Fin 128, x10 (ix2 (0 : Fin 1) j) = br (ix1 j)) :
    k0_pay1 (F := Ideal) (k0_pay6 x0) (k0_pay8 x0) (k0_pay9 x0)
        (k0_pay10 x0 (k0_pay2 (F := Ideal) x1 x3 x8) (k0_pay3 (F := Ideal) x2 x4)) (k0_pay4 (F := Ideal) x2 x5) (k0_pay5 (F := Ideal) x2 x6) x7 x9 x10 (ix2 y j)
      = Cert.Spec.outAt C EA EC W bf WR br r j := by
  rw [Cert.KernelIdeal.Payload.blockOut_apply x0 (k0_pay2 (F := Ideal) x1 x3 x8) (k0_pay3 (F := Ideal) x2 x4) (k0_pay4 (F := Ideal) x2 x5) (k0_pay5 (F := Ideal) x2 x6) x7 x9 x10 y j
    ⟨Cert.Spec.rowOf (C (ix2 r (0 : Fin 29))), Nat.lt_of_lt_of_le H0.lt (by omega)⟩
    ⟨Cert.Spec.rowOf (C (ix2 r (7 : Fin 29))), Nat.lt_of_lt_of_le H7.lt (by omega)⟩
    ⟨Cert.Spec.rowOf (C (ix2 r (8 : Fin 29))), Nat.lt_of_lt_of_le H8.lt (by omega)⟩
    ⟨Cert.Spec.rowOf (C (ix2 r (9 : Fin 29))), Nat.lt_of_lt_of_le H9.lt (by omega)⟩
    ((h0 0).trans H0.val) ((h0 7).trans H7.val) ((h0 8).trans H8.val) ((h0 9).trans H9.val)]
  unfold Cert.Spec.outAt Cert.Spec.hidden
  rw [h10]
  congr 1
  refine Finset.sum_congr rfl fun k _ => ?_
  rw [h9, tableA_row x1 x3 x8 EA W bf h1 h3 h8,
    tableC_row (k0_pay3 (F := Ideal)) Cert.KernelIdeal.Payload.table3_apply x2 x4 EC W 22 (by omega) h2 h4,
    tableC_row (k0_pay4 (F := Ideal)) Cert.KernelIdeal.Payload.table4_apply x2 x5 EC W 38 (by omega) h2 h5,
    tableC_row (k0_pay5 (F := Ideal)) Cert.KernelIdeal.Payload.table5_apply x2 x6 EC W 54 (by omega) h2 h6]
  have hf : ∑ cc : Fin 29, x0 (ix2 y cc) * x7 (ix2 cc k)
      = Cert.Spec.bandDot C W 6 1 16 (by omega) (by omega) r k + Cert.Spec.bandDot C W 19 10 70 (by omega) (by omega) r k := by
    simp only [h0]
    exact Cert.KernelIdeal.Algebra.band_split (fun cc => C (ix2 r cc)) (fun cc => x7 (ix2 cc k)) (fun q => W (ix2 k q))
      (fun cc => h7 cc k)
  rw [hf]

end Cert.KernelIdeal.BlockMath

end
-- ==== Proof.KBlockValue.lean ====
/-
  One output entry of the kernel is the specified entry.

  Row `r = 4096 t + y` of the result is produced at grid point `t` from row `y` of that point's block of `content`, the fixed
  tables, and the prepared weight arrays. The arrays the kernel finds are related to the seven arguments exactly as the
  arithmetic lemma assumes (the host-side preparation read at an index), and the precondition gives the index facts at row
  `r`; so the entry is the specified one.
-/
import proofs.«129327_g79053168050384_cont_9to1_m_779_34_alg».proof.Proof.KTables
import proofs.«129327_g79053168050384_cont_9to1_m_779_34_alg».proof.Proof.KHost
import proofs.«129327_g79053168050384_cont_9to1_m_779_34_alg».proof.Proof.KHostPads
import proofs.«129327_g79053168050384_cont_9to1_m_779_34_alg».proof.Proof.KBlockMath
import proofs.«129327_g79053168050384_cont_9to1_m_779_34_alg».proof.Proof.Spec

noncomputable section

open Idealize.ShloMosaic Idealize.ShloMosaic.TcCoe Idealize.SL.Sem

namespace Cert.KernelIdeal.BlockValue

open Cert.KernelIdeal Cert.KernelIdeal.Gen Cert.KernelIdeal.Pieces Cert.KernelIdeal.Tables
open Idealize.ShloMosaic.ValueIdx

variable (m : (ℓ : Loc nD τ sig) → Buf (Elt Ideal) ℓ)

theorem block_value (c : Dev nD) (hidx : Cert.Spec.IndexCols (m ((c : Thread nD τ).loc main_arg0))) (t : Fin cfg0.N)
    (yy : Fin 4096) (j : Fin 128) :
    blockOut (iblk m c 0 t) (tableA m c) (table1 m c) (table2 m c) (table3 m c) (V m c main_v18) (V m c main_v21) (V m c main_v22) (ix2 yy j)
      = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (⟨4096 * t.val + yy.val, by have := t.isLt; have hN : cfg0.N = 4 := N_0; omega⟩ : Fin 16384) j := by
  have hN : cfg0.N = 4 := N_0
  obtain ⟨H0, H7, H8, H9⟩ := hidx ⟨4096 * t.val + yy.val, by have := t.isLt; omega⟩
  exact Cert.KernelIdeal.BlockMath.value (iblk m c 0 t) (V m c main_v14) (V m c main_v17) (V m c main_v1) (V m c main_v2)
    (V m c main_v3) (V m c main_v4) (V m c main_v18) (V m c main_v19) (V m c main_v21) (V m c main_v22)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    yy j ⟨4096 * t.val + yy.val, by have := t.isLt; omega⟩ H0 H7 H8 H9
    (fun cc => Cert.KernelIdeal.Host.content_block m c t yy cc) (Cert.KernelIdeal.Host.eaPad_apply m c) (Cert.KernelIdeal.Host.ecPad_apply m c)
    (Cert.KernelIdeal.Host.wSlice0_apply m c) (Cert.KernelIdeal.Host.wSlice22_apply m c) (Cert.KernelIdeal.Host.wSlice38_apply m c) (Cert.KernelIdeal.Host.wSlice54_apply m c)
    (Cert.KernelIdeal.Host.wf_apply m c) (Cert.KernelIdeal.Host.bfRow_apply m c) (Cert.KernelIdeal.Host.wrT_apply m c) (Cert.KernelIdeal.Host.brRow_apply m c)

end Cert.KernelIdeal.BlockValue

end
-- ==== Proof.KFinal.lean ====
/-
  From the four row blocks to the whole result array.

  The output window's block at grid point `t` is rows `4096 t … 4096 t + 4095`, all 128 columns; every point writes its
  block back. What point `t` writes is the body's result for its block of `content` rows over the fixed tables, which entry
  by entry is the specified array at the corresponding row. The four blocks are disjoint and cover the 16384 rows (row `r`
  lies in block `r / 4096`), so after the run the result array is the specified array; the arguments are unchanged.
-/
import proofs.«129327_g79053168050384_cont_9to1_m_779_34_alg».proof.Proof.KBlockValue
import proofs.«129327_g79053168050384_cont_9to1_m_779_34_alg».proof.Proof.Gen.KernelIdeal.Value
import Idealize.ShloMosaic.Lib.Pipeline.Value

noncomputable section

open Idealize.ShloMosaic Idealize.ShloMosaic.TcCoe Idealize.SL.Sem

namespace Cert.KernelIdeal.Final

open Cert.KernelIdeal Cert.KernelIdeal.Gen Cert.KernelIdeal.Pieces Cert.KernelIdeal.Tables
open Idealize.ShloMosaic.ValueIdx
open Idealize.ShloMosaic.Pipeline (Dat)

variable (m : (ℓ : Loc nD τ sig) → Buf (Elt Ideal) ℓ) (ρ : Dev nD → PrngReg)

/-- The specified result array on core `c`: `Spec.G` of the seven argument arrays as launched. -/
abbrev spec (c : Dev nD) : S16384x128.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

open Cert.KernelIdeal.BlockValue

/-- The output window's block at grid point `t` is row block `t`, all 128 columns (decided over the four points). -/
theorem out_index : ∀ t : Fin cfg0.N, win0_11.index t (0 : Fin 2) = t.val ∧ win0_11.index t (1 : Fin 2) = 0 :=
  (by decide +kernel : ∀ t : Fin grid0.N, _)

/-- What grid point `t` writes back is rows `4096 t … 4096 t + 4095` of the specified array. -/
theorem flushed_eq (c : Dev nD) (hidx : Cert.Spec.IndexCols (m ((c : Thread nD τ).loc main_arg0))) (t : Fin cfg0.N) :
    (dats m 0 c).flushed 11 t = ((cfg0.win 11).blk t).view.read (Elt Ideal) (spec m c) := by
  rw [Cert.KernelIdeal.Value.flushed11, out_at]
  obtain ⟨e0, e1⟩ := out_index t
  funext y
  show blockOut (iblk m c 0 t) (tableA m c) (table1 m c) (table2 m c) (table3 m c) (V m c main_v18) (V m c main_v21) (V m c main_v22) y
    = spec m c (((cfg0.win 11).blk t).view.emb y)
  obtain ⟨yy, j, rfl⟩ : ∃ (yy : Fin 4096) (j : Fin 128), y = ix2 yy j := ⟨y 0, y 1, eq_ix2 y⟩
  have hN : cfg0.N = 4 := N_0
  have he : ((cfg0.win 11).blk t).view.emb (ix2 yy j)
      = ix2 (⟨4096 * t.val + yy.val, by have := t.isLt; omega⟩ : Fin 16384) j := by
    funext a
    apply Fin.ext
    match a with
    | ⟨0, _⟩ => show win0_11.index t (0 : Fin 2) * 4096 + 1 * yy.val = 4096 * t.val + yy.val; rw [e0]; omega
    | ⟨1, _⟩ => show win0_11.index t (1 : Fin 2) * 128 + 1 * j.val = j.val; rw [e1]; omega
  rw [he]
  exact block_value m c hidx t yy j

/-- An index of the result array lies in grid point `t`'s block iff each coordinate lies in the block's range. -/
theorem mem_blk (t : Fin cfg0.N) (i : S16384x128.Idx) :
    i ∈ ((cfg0.win 11).blk t).view.set ↔ ∀ a : Fin 2, win0_11.index t a * S4096x128.size a ≤ (i a).val
      ∧ (i a).val < win0_11.index t a * S4096x128.size a + S4096x128.size a := by
  show i ∈ ((View.whole main_v23).slice (win0_11.rect t)).set ↔ _
  rw [View.set_slice_whole, Rect.mem_set_unit]
  exact Iff.rfl

/-- The four row blocks cover the array (row `r` is in block `r / 4096`), so after the run it IS the specified array. -/
theorem final (c : Dev nD) (hidx : Cert.Spec.IndexCols (m ((c : Thread nD τ).loc main_arg0))) :
    (dats m 0 c).arrAt 11 cfg0.N = spec m c :=
  (dats m 0 c).arrAt_eq_of_cover 11 (spec m c) (fun t _ => flushed_eq m c hidx t) fun i => by
    have hi0 : (i 0).val < 16384 := (i 0).isLt
    have hi1 : (i 1).val < 128 := (i 1).isLt
    have hN : cfg0.N = 4 := N_0
    obtain ⟨e0, e1⟩ := out_index (⟨(i 0).val / 4096, by omega⟩ : Fin cfg0.N)
    refine ⟨⟨(i 0).val / 4096, by omega⟩, flush0_11 _, ?_⟩
    rw [mem_blk]
    intro a
    match a with
    | ⟨0, _⟩ =>
      show win0_11.index ⟨(i 0).val / 4096, _⟩ (0 : Fin 2) * 4096 ≤ (i 0).val
        ∧ (i 0).val < win0_11.index ⟨(i 0).val / 4096, _⟩ (0 : Fin 2) * 4096 + 4096
      rw [e0]; dsimp only; omega
    | ⟨1, _⟩ =>
      show win0_11.index ⟨(i 0).val / 4096, _⟩ (1 : Fin 2) * 128 ≤ (i 1).val
        ∧ (i 1).val < win0_11.index ⟨(i 0).val / 4096, _⟩ (1 : Fin 2) * 128 + 128
      rw [e1]; omega

/-- The kernel's run, read: under the index facts its result array ends at the specified array, the arguments unchanged. -/
theorem run (hidx : ∀ c : Dev nD, Cert.Spec.IndexCols (m ((c : Thread nD τ).loc main_arg0))) :
    θ_run defs (onTc (τ := τ) (main (F := Ideal))) ⟨m, fun _ => 0, ρ⟩ fun r => ∀ c : Dev nD,
      r.2.mem ((c : Thread nD τ).loc main_v23) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c (hidx c)), (h c).2⟩)
    (Cert.KernelIdeal.Value.run_blocks m ρ)

end Cert.KernelIdeal.Final

end
-- ==== Proof.RefTerm.lean ====
/-
  The reference's result as a pure function of its seven argument arrays, read at the ideal instance (a float an
  extended real). Each definition below is one stretch of the printed reference program, every operation written
  as the program writes its pure function and under the side condition the program cites for it, so that the
  program's run ends with its result buffer at `res` of the argument buffers by unfolding alone.

  The stretches: the four index columns of `content` (a one-column slice, flattened, each entry converted to a
  32-bit word); a table lookup in "fill" mode (`take91` for the 91-row table, `take90` for the 90-row one — a
  negative word is wrapped by the table's height, the word is tested against the bounds, the row is gathered, and
  a row whose word failed the test is replaced by the not-a-number constant); the 89-column concatenation of the
  four looked-up rows with the two plain feature bands; the first layer (product with the transposed weights, the
  bias broadcast along the rows, the maximum with zero); the second layer (product with the transposed weights, the
  bias broadcast along the rows).
-/
import proofs.«129327_g79053168050384_cont_9to1_m_779_34_alg».proof.ReferenceIdeal
import Idealize.ShloMosaic.PureOps.Ideal

set_option synthInstance.maxSize 4096

noncomputable section

namespace Cert.RefTerm

open Idealize.ShloMosaic Idealize.SL.Sem
open Cert.ReferenceIdeal
open Cert.ReferenceIdeal.Facts₀ Cert.ReferenceIdeal.Facts

variable [Cert.ReferenceIdeal.Facts]

/-! ## The index columns -/

/-- Column 0 of `content` as 32-bit words: the one-column slice, flattened, each entry converted. -/
def idxCol0 (a0 : FVec Ideal S16384x29 .f32) : IVec S16384 32 :=
  fptosi 32 (shapeCast S16384 (extractStridedSlice S16384x1 ![0, 0] a0 slices_S16384x29_S16384x1_0_0)
    shapeCasts_S16384x1_S16384)

/-- Column 7 of `content` as 32-bit words. -/
def idxCol7 (a0 : FVec Ideal S16384x29 .f32) : IVec S16384 32 :=
  fptosi 32 (shapeCast S16384 (extractStridedSlice S16384x1 ![0, 7] a0 slices_S16384x29_S16384x1_0_7)
    shapeCasts_S16384x1_S16384)

/-- Column 8 of `content` as 32-bit words. -/
def idxCol8 (a0 : FVec Ideal S16384x29 .f32) : IVec S16384 32 :=
  fptosi 32 (shapeCast S16384 (extractStridedSlice S16384x1 ![0, 8] a0 slices_S16384x29_S16384x1_0_8)
    shapeCasts_S16384x1_S16384)

/-- Column 9 of `content` as 32-bit words. -/
def idxCol9 (a0 : FVec Ideal S16384x29 .f32) : IVec S16384 32 :=
  fptosi 32 (shapeCast S16384 (extractStridedSlice S16384x1 ![0, 9] a0 slices_S16384x29_S16384x1_0_9)
    shapeCasts_S16384x1_S16384)

/-! ## A lookup in "fill" mode -/

/-- The index words after the wrap of the negative ones, as a column: a word below zero (signed) has the table's
    height `n` added, the others are kept; the result is laid out as one column. -/
def wrapCol (n : BitVec 32) (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 n))) i)

/-- The bounds test of a column of wrapped words against the last row `hi`: per row, the conjunction (over the
    single column, from the constant true) of "at least zero" and "at most `hi`", both signed. -/
def inBounds (hi : BitVec 32) (v5 : IVec S16384x1 32) : IVec S16384 1 :=
  Host.reduce IntOp.andi
    (andi (cmpi .sge v5 (broadcastInDim S16384x1 ![] bcast_S_S16384x1 (constantI S_ 32 0#32)))
      (cmpi .sle v5 (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- The not-a-number constant at every entry of a 16384 × 16 array: what a failed lookup is filled with. -/
def fillNaN : FVec Ideal S16384x16 .f32 :=
  broadcastInDim S16384x16 ![] bcast_S_S16384x16 (constant S_ .f32 0x7FC00000#32)

/-- The lookup of the words `i` in the 91-row table `T`. -/
def take91 (T : FVec Ideal S91x16 .f32) (i : IVec S16384 32) : FVec Ideal S16384x16 .f32 :=
  select (broadcastInDim S16384x16 ![0] bcast_S16384_S16384x16_0 (inBounds 90#32 (wrapCol 91#32 i)))
    (Host.gather gather_S91x16_S16384x1_S16384x16_1_0_n_n_0_1_116 T (wrapCol 91#32 i))
    fillNaN

/-- The lookup of the words `i` in the 90-row table `T`. -/
def take90 (T : FVec Ideal S90x16 .f32) (i : IVec S16384 32) : FVec Ideal S16384x16 .f32 :=
  select (broadcastInDim S16384x16 ![0] bcast_S16384_S16384x16_0 (inBounds 89#32 (wrapCol 90#32 i)))
    (Host.gather gather_S90x16_S16384x1_S16384x16_1_0_n_n_0_1_116 T (wrapCol 90#32 i))
    fillNaN

/-! ## The concatenation and the two layers -/

/-- The 89 columns the first layer reads: the looked-up row of column 0, features 1–6, the looked-up rows of
    columns 7, 8, 9, features 10–28. -/
def combined (a0 : FVec Ideal S16384x29 .f32) (a1 : FVec Ideal S91x16 .f32) (a2 : FVec Ideal S90x16 .f32) :
    FVec Ideal S16384x89 .f32 :=
  concatenate S16384x89 1
    [⟨S16384x16, take91 a1 (idxCol0 a0)⟩,
     ⟨S16384x6, extractStridedSlice S16384x6 ![0, 1] a0 slices_S16384x29_S16384x6_0_1⟩,
     ⟨S16384x16, take90 a2 (idxCol7 a0)⟩,
     ⟨S16384x16, take90 a2 (idxCol8 a0)⟩,
     ⟨S16384x16, take90 a2 (idxCol9 a0)⟩,
     ⟨S16384x19, extractStridedSlice S16384x19 ![0, 10] a0 slices_S16384x29_S16384x19_0_10⟩]
    concatenates_S16384x16_S16384x6_S16384x16_S16384x16_S16384x16_S16384x19_S16384x89_d1

/-- The first layer: the 89 columns against the transposed first weights, plus the first bias along the rows,
    then the maximum with zero. -/
def layer1 (a0 : FVec Ideal S16384x29 .f32) (a1 : FVec Ideal S91x16 .f32) (a2 : FVec Ideal S90x16 .f32)
    (a3 : FVec Ideal S128x89 .f32) (a4 : FVec Ideal S128 .f32) : FVec Ideal S16384x128 .f32 :=
  maximumf
    (addf
      (Host.dotGeneral dot_S16384x89_S89x128_S16384x128_1_0_0_1_n_n none (combined a0 a1 a2)
        (transpose S89x128 [1, 0] a3 transposes_S128x89_S89x128_1_0))
      (broadcastInDim S16384x128 ![0, 1] bcast_S1x128_S16384x128_0_1
        (broadcastInDim S1x128 ![1] bcast_S128_S1x128_1 a4)))
    (broadcastInDim S16384x128 ![] bcast_S_S16384x128 (constant S_ .f32 0x00000000#32))

/-- The result: the first layer against the transposed second weights, plus the second bias along the rows. -/
def res (a0 : FVec Ideal S16384x29 .f32) (a1 : FVec Ideal S91x16 .f32) (a2 : FVec Ideal S90x16 .f32)
    (a3 : FVec Ideal S128x89 .f32) (a4 : FVec Ideal S128 .f32) (a5 : FVec Ideal S128x128 .f32)
    (a6 : FVec Ideal S128 .f32) : FVec Ideal S16384x128 .f32 :=
  addf
    (Host.dotGeneral dot_S16384x128_S128x128_S16384x128_1_0_0_1_n_n none (layer1 a0 a1 a2 a3 a4)
      (transpose S128x128 [1, 0] a5 transposes_S128x128_S128x128_1_0))
    (broadcastInDim S16384x128 ![0, 1] bcast_S1x128_S16384x128_0_1
      (broadcastInDim S1x128 ![1] bcast_S128_S1x128_1 a6))

end Cert.RefTerm

end
-- ==== Proof.RefOps.lean ====
/-
  The reference program as a straight line: its operations in order, the four table lookups and the maximum with zero
  written out at their call sites over the buffers of each call, cut into six consecutive stretches (the index columns and
  feature bands; one stretch per lookup; the concatenation and the two layers). The program is the sequence of these
  operations, every one of them touches only buffers of the device's own memory, and no buffer or semaphore of the signature
  is scoped — which is all the run of a straight line of operations asks for.
-/
import proofs.«129327_g79053168050384_cont_9to1_m_779_34_alg».proof.ReferenceIdeal
import Idealize.ShloMosaic.Lib.StableHlo.Run

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The index columns and the two plain feature bands: the one-column slices of `content`, each flattened and converted to 32-bit words, and the slices of columns 1–6 and 10–28. -/
abbrev ops1 : List (HloOp τ sig (Elt F)) :=
  [ StableHlo.unary main_arg0 main_v0 ((extractStridedSlice S16384x1 ![0, 0] · slices_S16384x29_S16384x1_0_0) : (⟨S16384x29, .f32⟩ : BufTy).Contents (Elt F) → (⟨S16384x1, .f32⟩ : BufTy).Contents (Elt F)),
    StableHlo.reshape main_v0 main_v1 rfl shapeCasts_S16384x1_S16384,
    StableHlo.unary main_v1 main_v2 (fptosi 32 : (⟨S16384, .f32⟩ : BufTy).Contents (Elt F) → (⟨S16384, .i32⟩ : BufTy).Contents (Elt F)),
    StableHlo.unary main_arg0 main_v3 ((extractStridedSlice S16384x6 ![0, 1] · slices_S16384x29_S16384x6_0_1) : (⟨S16384x29, .f32⟩ : BufTy).Contents (Elt F) → (⟨S16384x6, .f32⟩ : BufTy).Contents (Elt F)),
    StableHlo.unary main_arg0 main_v4 ((extractStridedSlice S16384x1 ![0, 7] · slices_S16384x29_S16384x1_0_7) : (⟨S16384x29, .f32⟩ : BufTy).Contents (Elt F) → (⟨S16384x1, .f32⟩ : BufTy).Contents (Elt F)),
    StableHlo.reshape main_v4 main_v5 rfl shapeCasts_S16384x1_S16384,
    StableHlo.unary main_v5 main_v6 (fptosi 32 : (⟨S16384, .f32⟩ : BufTy).Contents (Elt F) → (⟨S16384, .i32⟩ : BufTy).Contents (Elt F)),
    StableHlo.unary main_arg0 main_v7 ((extractStridedSlice S16384x1 ![0, 8] · slices_S16384x29_S16384x1_0_8) : (⟨S16384x29, .f32⟩ : BufTy).Contents (Elt F) → (⟨S16384x1, .f32⟩ : BufTy).Contents (Elt F)),
    StableHlo.reshape main_v7 main_v8 rfl shapeCasts_S16384x1_S16384,
    StableHlo.unary main_v8 main_v9 (fptosi 32 : (⟨S16384, .f32⟩ : BufTy).Contents (Elt F) → (⟨S16384, .i32⟩ : BufTy).Contents (Elt F)),
    StableHlo.unary main_arg0 main_v10 ((extractStridedSlice S16384x1 ![0, 9] · slices_S16384x29_S16384x1_0_9) : (⟨S16384x29, .f32⟩ : BufTy).Contents (Elt F) → (⟨S16384x1, .f32⟩ : BufTy).Contents (Elt F)),
    StableHlo.reshape main_v10 main_v11 rfl shapeCasts_S16384x1_S16384,
    StableHlo.unary main_v11 main_v12 (fptosi 32 : (⟨S16384, .f32⟩ : BufTy).Contents (Elt F) → (⟨S16384, .i32⟩ : BufTy).Contents (Elt F)),
    StableHlo.unary main_arg0 main_v13 ((extractStridedSlice S16384x19 ![0, 10] · slices_S16384x29_S16384x19_0_10) : (⟨S16384x29, .f32⟩ : BufTy).Contents (Elt F) → (⟨S16384x19, .f32⟩ : BufTy).Contents (Elt F)) ]

/-- The lookup of column 0's words in the 91-row table, operation by operation over its own buffers: the wrap of negative words, the bounds test, the gather, the fill. -/
abbrev ops2 : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_v2 : StableHlo.TRef sig ⟨S16384, .i32⟩) main_call0.v0 main_call0.v1 (cmpi .slt),
    StableHlo.TRef.nullary main_call0.c_0 (constantI S_ 32 91#32),
    StableHlo.TRef.unary main_call0.c_0 main_call0.v2 (broadcastInDim S16384 ![] bcast_S_S16384),
    StableHlo.TRef.binary (.of main_v2 : StableHlo.TRef sig ⟨S16384, .i32⟩) main_call0.v2 main_call0.v3 addi,
    StableHlo.TRef.ternary main_call0.v1 main_call0.v3 (.of main_v2 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 90#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg1 : StableHlo.TRef sig ⟨S91x16, .f32⟩) main_call0.v5 main_call0.v13 (fun x i => Host.gather gather_S91x16_S16384x1_S16384x16_1_0_n_n_0_1_116 x i),
    StableHlo.TRef.unary main_call0.v12 main_call0.v14 (broadcastInDim S16384x16 ![0] bcast_S16384_S16384x16_0),
    StableHlo.TRef.nullary main_call0.cst (constant S_ .f32 0x7FC00000#32),
    StableHlo.TRef.unary main_call0.cst main_call0.v15 (broadcastInDim S16384x16 ![] bcast_S_S16384x16),
    StableHlo.TRef.ternary main_call0.v14 main_call0.v13 main_call0.v15 main_call0.v16 select ]

/-- The lookup of column 7's words in the 90-row table. -/
abbrev ops3 : List (HloOp τ sig (Elt F)) :=
  [ StableHlo.TRef.nullary main_call1.c (constantI S_ 32 0#32),
    StableHlo.TRef.unary main_call1.c main_call1.v0 (broadcastInDim S16384 ![] bcast_S_S16384),
    StableHlo.TRef.binary (.of main_v6 : StableHlo.TRef sig ⟨S16384, .i32⟩) main_call1.v0 main_call1.v1 (cmpi .slt),
    StableHlo.TRef.nullary main_call1.c_0 (constantI S_ 32 90#32),
    StableHlo.TRef.unary main_call1.c_0 main_call1.v2 (broadcastInDim S16384 ![] bcast_S_S16384),
    StableHlo.TRef.binary (.of main_v6 : StableHlo.TRef sig ⟨S16384, .i32⟩) main_call1.v2 main_call1.v3 addi,
    StableHlo.TRef.ternary main_call1.v1 main_call1.v3 (.of main_v6 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 89#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg2 : StableHlo.TRef sig ⟨S90x16, .f32⟩) main_call1.v5 main_call1.v13 (fun x i => Host.gather gather_S90x16_S16384x1_S16384x16_1_0_n_n_0_1_116 x i),
    StableHlo.TRef.unary main_call1.v12 main_call1.v14 (broadcastInDim S16384x16 ![0] bcast_S16384_S16384x16_0),
    StableHlo.TRef.nullary main_call1.cst (constant S_ .f32 0x7FC00000#32),
    StableHlo.TRef.unary main_call1.cst main_call1.v15 (broadcastInDim S16384x16 ![] bcast_S_S16384x16),
    StableHlo.TRef.ternary main_call1.v14 main_call1.v13 main_call1.v15 main_call1.v16 select ]

/-- The lookup of column 8's words in the 90-row table. -/
abbrev ops4 : List (HloOp τ sig (Elt F)) :=
  [ StableHlo.TRef.nullary main_call2.c (constantI S_ 32 0#32),
    StableHlo.TRef.unary main_call2.c main_call2.v0 (broadcastInDim S16384 ![] bcast_S_S16384),
    StableHlo.TRef.binary (.of main_v9 : StableHlo.TRef sig ⟨S16384, .i32⟩) main_call2.v0 main_call2.v1 (cmpi .slt),
    StableHlo.TRef.nullary main_call2.c_0 (constantI S_ 32 90#32),
    StableHlo.TRef.unary main_call2.c_0 main_call2.v2 (broadcastInDim S16384 ![] bcast_S_S16384),
    StableHlo.TRef.binary (.of main_v9 : StableHlo.TRef sig ⟨S16384, .i32⟩) main_call2.v2 main_call2.v3 addi,
    StableHlo.TRef.ternary main_call2.v1 main_call2.v3 (.of main_v9 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 89#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_arg2 : StableHlo.TRef sig ⟨S90x16, .f32⟩) main_call2.v5 main_call2.v13 (fun x i => Host.gather gather_S90x16_S16384x1_S16384x16_1_0_n_n_0_1_116 x i),
    StableHlo.TRef.unary main_call2.v12 main_call2.v14 (broadcastInDim S16384x16 ![0] bcast_S16384_S16384x16_0),
    StableHlo.TRef.nullary main_call2.cst (constant S_ .f32 0x7FC00000#32),
    StableHlo.TRef.unary main_call2.cst main_call2.v15 (broadcastInDim S16384x16 ![] bcast_S_S16384x16),
    StableHlo.TRef.ternary main_call2.v14 main_call2.v13 main_call2.v15 main_call2.v16 select ]

/-- The lookup of column 9's words in the 90-row table. -/
abbrev ops5 : List (HloOp τ sig (Elt F)) :=
  [ StableHlo.TRef.nullary main_call3.c (constantI S_ 32 0#32),
    StableHlo.TRef.unary main_call3.c main_call3.v0 (broadcastInDim S16384 ![] bcast_S_S16384),
    StableHlo.TRef.binary (.of main_v12 : StableHlo.TRef sig ⟨S16384, .i32⟩) main_call3.v0 main_call3.v1 (cmpi .slt),
    StableHlo.TRef.nullary main_call3.c_0 (constantI S_ 32 90#32),
    StableHlo.TRef.unary main_call3.c_0 main_call3.v2 (broadcastInDim S16384 ![] bcast_S_S16384),
    StableHlo.TRef.binary (.of main_v12 : StableHlo.TRef sig ⟨S16384, .i32⟩) main_call3.v2 main_call3.v3 addi,
    StableHlo.TRef.ternary main_call3.v1 main_call3.v3 (.of main_v12 : StableHlo.TRef sig ⟨S16384, .i32⟩) main_call3.call0.v0 select,
    StableHlo.TRef.unary main_call3.call0.v0 main_call3.v5 (broadcastInDim S16384x1 ![0] bcast_S16384_S16384x1_0),
    StableHlo.TRef.nullary main_call3.c_1 (constantI S1 32 89#32),
    StableHlo.TRef.nullary main_call3.c_2 (constantI S_ 32 0#32),
    StableHlo.TRef.unary main_call3.c_2 main_call3.v6 (broadcastInDim S16384x1 ![] bcast_S_S16384x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S16384x1 ![0, 1] bcast_S1x1_S16384x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16384x1_S16384_d1 h_S_),
    StableHlo.TRef.binary (.of main_arg2 : StableHlo.TRef sig ⟨S90x16, .f32⟩) main_call3.v5 main_call3.v13 (fun x i => Host.gather gather_S90x16_S16384x1_S16384x16_1_0_n_n_0_1_116 x i),
    StableHlo.TRef.unary main_call3.v12 main_call3.v14 (broadcastInDim S16384x16 ![0] bcast_S16384_S16384x16_0),
    StableHlo.TRef.nullary main_call3.cst (constant S_ .f32 0x7FC00000#32),
    StableHlo.TRef.unary main_call3.cst main_call3.v15 (broadcastInDim S16384x16 ![] bcast_S_S16384x16),
    StableHlo.TRef.ternary main_call3.v14 main_call3.v13 main_call3.v15 main_call3.v16 select ]

/-- The concatenation to 89 columns and the two layers: transposed weights, product, bias along the rows, the maximum with zero between them. -/
abbrev ops6 : List (HloOp τ sig (Elt F)) :=
  [ StableHlo.nary ![main_v14, main_v3, main_v15, main_v16, main_v17, main_v13] main_v18 (fun u => concatenate S16384x89 1 [⟨S16384x16, u 0⟩, ⟨S16384x6, u 1⟩, ⟨S16384x16, u 2⟩, ⟨S16384x16, u 3⟩, ⟨S16384x16, u 4⟩, ⟨S16384x19, u 5⟩] concatenates_S16384x16_S16384x6_S16384x16_S16384x16_S16384x16_S16384x19_S16384x89_d1),
    StableHlo.unary main_arg3 main_v19 ((transpose S89x128 [1, 0] · transposes_S128x89_S89x128_1_0) : (⟨S128x89, .f32⟩ : BufTy).Contents (Elt F) → (⟨S89x128, .f32⟩ : BufTy).Contents (Elt F)),
    StableHlo.binary main_v18 main_v19 main_v20 ((fun l r => Host.dotGeneral dot_S16384x89_S89x128_S16384x128_1_0_0_1_n_n none l r) : (⟨S16384x89, .f32⟩ : BufTy).Contents (Elt F) → (⟨S89x128, .f32⟩ : BufTy).Contents (Elt F) → (⟨S16384x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S16384x128 ![0, 1] bcast_S1x128_S16384x128_0_1 : (⟨S1x128, .f32⟩ : BufTy).Contents (Elt F) → (⟨S16384x128, .f32⟩ : BufTy).Contents (Elt F)),
    StableHlo.binary main_v20 main_v22 main_v23 (addf : (⟨S16384x128, .f32⟩ : BufTy).Contents (Elt F) → (⟨S16384x128, .f32⟩ : BufTy).Contents (Elt F) → (⟨S16384x128, .f32⟩ : BufTy).Contents (Elt F)),
    StableHlo.TRef.nullary main_call4.cst (constant S_ .f32 0x00000000#32),
    StableHlo.TRef.unary main_call4.cst main_call4.v0 (broadcastInDim S16384x128 ![] bcast_S_S16384x128),
    StableHlo.TRef.binary (.of main_v23 : StableHlo.TRef sig ⟨S16384x128, .f32⟩) main_call4.v0 main_call4.v1 maximumf,
    StableHlo.unary main_arg5 main_v25 ((transpose S128x128 [1, 0] · transposes_S128x128_S128x128_1_0) : (⟨S128x128, .f32⟩ : BufTy).Contents (Elt F) → (⟨S128x128, .f32⟩ : BufTy).Contents (Elt F)),
    StableHlo.binary main_v24 main_v25 main_v26 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg6 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S16384x128 ![0, 1] bcast_S1x128_S16384x128_0_1 : (⟨S1x128, .f32⟩ : BufTy).Contents (Elt F) → (⟨S16384x128, .f32⟩ : BufTy).Contents (Elt F)),
    StableHlo.binary main_v26 main_v28 main_v29 (addf : (⟨S16384x128, .f32⟩ : BufTy).Contents (Elt F) → (⟨S16384x128, .f32⟩ : BufTy).Contents (Elt F) → (⟨S16384x128, .f32⟩ : BufTy).Contents (Elt F)) ]

/-- The whole program's operations, in order. -/
abbrev ops : List (HloOp τ sig (Elt F)) := ops1 ++ (ops2 ++ (ops3 ++ (ops4 ++ (ops5 ++ ops6))))

/-- Running two lines of operations one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The program is that straight line: the lookups' and the maximum's definitions unfolded at their calls, both sides are
    one chain of steps once sequencing is reassociated. -/
theorem main_eq (c : Dev nD) : main (F := F) c = seq ops := by
  simp only [main, fn_take.body, fn_take_0.body, fn_where.body, fn_relu.body, ops, ops1, ops2, ops3, ops4, ops5, ops6,
    seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨unary_bufs_sub .., reshape_bufs_sub .., unary_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub ..⟩

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem ops6_sub : (ops6 : List (HloOp τ sig (Elt F))).Forall fun op => op.bufs ⊆ tcRefs τ sig :=
  ⟨nary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h]

end Cert.RefRun

end
-- ==== Proof.RefRun.lean ====
/-
  The run of the reference program, read off stretch by stretch. `valK V0` is what the device's buffers hold after the
  first K stretches from contents `V0`. A stretch leaves every buffer it does not write as it was; and the buffers later
  stretches read are, after the stretch that writes them: the four index columns as 32-bit words and the two feature bands
  (stretch 1), the looked-up rows of columns 0, 7, 8, 9 (stretches 2–5: each the "fill"-mode lookup of its column's words in
  its table), and the result (stretch 6: the two layers over the concatenation), each as the pure function of the argument
  arrays that `Cert.RefTerm` names. Put together: every weakly fair execution of the program terminates with the result
  buffer at `Cert.RefTerm.res` of the seven argument buffers, the argument buffers unchanged.
-/
import proofs.«129327_g79053168050384_cont_9to1_m_779_34_alg».proof.Proof.RefTerm
import proofs.«129327_g79053168050384_cont_9to1_m_779_34_alg».proof.Proof.RefOps

set_option synthInstance.maxSize 4096

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- Argument 0's array in the contents `V0`. -/
abbrev a0 (V0 : Valuation τ sig (Elt Ideal)) : FVec Ideal S16384x29 .f32 := V0 (Proc.devRef .tc main_arg0)
/-- Argument 1's array in the contents `V0`. -/
abbrev a1 (V0 : Valuation τ sig (Elt Ideal)) : FVec Ideal S91x16 .f32 := V0 (Proc.devRef .tc main_arg1)
/-- Argument 2's array in the contents `V0`. -/
abbrev a2 (V0 : Valuation τ sig (Elt Ideal)) : FVec Ideal S90x16 .f32 := V0 (Proc.devRef .tc main_arg2)
/-- Argument 3's array in the contents `V0`. -/
abbrev a3 (V0 : Valuation τ sig (Elt Ideal)) : FVec Ideal S128x89 .f32 := V0 (Proc.devRef .tc main_arg3)
/-- Argument 4's array in the contents `V0`. -/
abbrev a4 (V0 : Valuation τ sig (Elt Ideal)) : FVec Ideal S128 .f32 := V0 (Proc.devRef .tc main_arg4)
/-- Argument 5's array in the contents `V0`. -/
abbrev a5 (V0 : Valuation τ sig (Elt Ideal)) : FVec Ideal S128x128 .f32 := V0 (Proc.devRef .tc main_arg5)
/-- Argument 6's array in the contents `V0`. -/
abbrev a6 (V0 : Valuation τ sig (Elt Ideal)) : FVec Ideal S128 .f32 := V0 (Proc.devRef .tc main_arg6)

/-- The device's buffer contents before the first stretch. -/
def val0 (V0 : Valuation τ sig (Elt Ideal)) : Valuation τ sig (Elt Ideal) := V0
theorem val0_main_arg0 (V0 : Valuation τ sig (Elt Ideal)) : val0 V0 (no_index (Proc.devRef .tc main_arg0)) = (a0 V0) := rfl
theorem val0_main_arg1 (V0 : Valuation τ sig (Elt Ideal)) : val0 V0 (no_index (Proc.devRef .tc main_arg1)) = (a1 V0) := rfl
theorem val0_main_arg2 (V0 : Valuation τ sig (Elt Ideal)) : val0 V0 (no_index (Proc.devRef .tc main_arg2)) = (a2 V0) := rfl
theorem val0_main_arg3 (V0 : Valuation τ sig (Elt Ideal)) : val0 V0 (no_index (Proc.devRef .tc main_arg3)) = (a3 V0) := rfl
theorem val0_main_arg4 (V0 : Valuation τ sig (Elt Ideal)) : val0 V0 (no_index (Proc.devRef .tc main_arg4)) = (a4 V0) := rfl
theorem val0_main_arg5 (V0 : Valuation τ sig (Elt Ideal)) : val0 V0 (no_index (Proc.devRef .tc main_arg5)) = (a5 V0) := rfl
theorem val0_main_arg6 (V0 : Valuation τ sig (Elt Ideal)) : val0 V0 (no_index (Proc.devRef .tc main_arg6)) = (a6 V0) := rfl

/-! ## Stretch 1 -/

/-- The device's buffer contents after the first stretch. -/
def val1 (V0 : Valuation τ sig (Elt Ideal)) : Valuation τ sig (Elt Ideal) := after (ops1 (F := Ideal)) (val0 V0)
/-- The buffers stretch 1's operations write. -/
abbrev ops1_W : List (Ref sig .tc) := [main_v0, main_v1, main_v2, main_v3, main_v4, main_v5, main_v6, main_v7, main_v8, main_v9, main_v10, main_v11, main_v12, main_v13]
set_option maxRecDepth 8192 in
theorem ops1_writes : (ops1 : List (HloOp τ sig (Elt Ideal))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem val1_keep (V0 : Valuation τ sig (Elt Ideal)) (r : Ref sig .tc) (h : r ∉ ops1_W) :
    val1 V0 (Proc.devRef .tc r) = val0 V0 (Proc.devRef .tc r) :=
  after_of_writes_sub (ops1 (F := Ideal)) _ ops1_writes h
theorem val1_main_arg0 (V0 : Valuation τ sig (Elt Ideal)) : val1 V0 (no_index (Proc.devRef .tc main_arg0)) = (a0 V0) :=
  (val1_keep V0 main_arg0 (by decide)).trans (val0_main_arg0 V0)
theorem val1_main_arg1 (V0 : Valuation τ sig (Elt Ideal)) : val1 V0 (no_index (Proc.devRef .tc main_arg1)) = (a1 V0) :=
  (val1_keep V0 main_arg1 (by decide)).trans (val0_main_arg1 V0)
theorem val1_main_arg2 (V0 : Valuation τ sig (Elt Ideal)) : val1 V0 (no_index (Proc.devRef .tc main_arg2)) = (a2 V0) :=
  (val1_keep V0 main_arg2 (by decide)).trans (val0_main_arg2 V0)
theorem val1_main_arg3 (V0 : Valuation τ sig (Elt Ideal)) : val1 V0 (no_index (Proc.devRef .tc main_arg3)) = (a3 V0) :=
  (val1_keep V0 main_arg3 (by decide)).trans (val0_main_arg3 V0)
theorem val1_main_arg4 (V0 : Valuation τ sig (Elt Ideal)) : val1 V0 (no_index (Proc.devRef .tc main_arg4)) = (a4 V0) :=
  (val1_keep V0 main_arg4 (by decide)).trans (val0_main_arg4 V0)
theorem val1_main_arg5 (V0 : Valuation τ sig (Elt Ideal)) : val1 V0 (no_index (Proc.devRef .tc main_arg5)) = (a5 V0) :=
  (val1_keep V0 main_arg5 (by decide)).trans (val0_main_arg5 V0)
theorem val1_main_arg6 (V0 : Valuation τ sig (Elt Ideal)) : val1 V0 (no_index (Proc.devRef .tc main_arg6)) = (a6 V0) :=
  (val1_keep V0 main_arg6 (by decide)).trans (val0_main_arg6 V0)
set_option maxRecDepth 8192 in
set_option maxHeartbeats 2000000 in
theorem val1_main_v2 (V0 : Valuation τ sig (Elt Ideal)) : val1 V0 (no_index (Proc.devRef .tc main_v2)) = (Cert.RefTerm.idxCol0 (a0 V0)) := by
  unfold val1
  simp only [ops1]
  after_results_simp
  simp only [val0_main_arg0, cast_eq] <;> rfl
set_option maxRecDepth 8192 in
set_option maxHeartbeats 2000000 in
theorem val1_main_v6 (V0 : Valuation τ sig (Elt Ideal)) : val1 V0 (no_index (Proc.devRef .tc main_v6)) = (Cert.RefTerm.idxCol7 (a0 V0)) := by
  unfold val1
  simp only [ops1]
  after_results_simp
  simp only [val0_main_arg0, cast_eq] <;> rfl
set_option maxRecDepth 8192 in
set_option maxHeartbeats 2000000 in
theorem val1_main_v9 (V0 : Valuation τ sig (Elt Ideal)) : val1 V0 (no_index (Proc.devRef .tc main_v9)) = (Cert.RefTerm.idxCol8 (a0 V0)) := by
  unfold val1
  simp only [ops1]
  after_results_simp
  simp only [val0_main_arg0, cast_eq] <;> rfl
set_option maxRecDepth 8192 in
set_option maxHeartbeats 2000000 in
theorem val1_main_v12 (V0 : Valuation τ sig (Elt Ideal)) : val1 V0 (no_index (Proc.devRef .tc main_v12)) = (Cert.RefTerm.idxCol9 (a0 V0)) := by
  unfold val1
  simp only [ops1]
  after_results_simp
  simp only [val0_main_arg0, cast_eq] <;> rfl
set_option maxRecDepth 8192 in
set_option maxHeartbeats 2000000 in
theorem val1_main_v3 (V0 : Valuation τ sig (Elt Ideal)) : val1 V0 (no_index (Proc.devRef .tc main_v3)) = (extractStridedSlice S16384x6 ![0, 1] (a0 V0) slices_S16384x29_S16384x6_0_1) := by
  unfold val1
  simp only [ops1]
  after_results_simp
  simp only [val0_main_arg0, cast_eq] <;> rfl
set_option maxRecDepth 8192 in
set_option maxHeartbeats 2000000 in
theorem val1_main_v13 (V0 : Valuation τ sig (Elt Ideal)) : val1 V0 (no_index (Proc.devRef .tc main_v13)) = (extractStridedSlice S16384x19 ![0, 10] (a0 V0) slices_S16384x29_S16384x19_0_10) := by
  unfold val1
  simp only [ops1]
  after_results_simp
  simp only [val0_main_arg0, cast_eq] <;> rfl

/-! ## Stretch 2 -/

/-- The device's buffer contents after the first 2 stretches. -/
def val2 (V0 : Valuation τ sig (Elt Ideal)) : Valuation τ sig (Elt Ideal) := after (ops2 (F := Ideal)) (val1 V0)
/-- The buffers stretch 2's operations write. -/
abbrev ops2_W : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
set_option maxRecDepth 8192 in
theorem ops2_writes : (ops2 : List (HloOp τ sig (Elt Ideal))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem val2_keep (V0 : Valuation τ sig (Elt Ideal)) (r : Ref sig .tc) (h : r ∉ ops2_W) :
    val2 V0 (Proc.devRef .tc r) = val1 V0 (Proc.devRef .tc r) :=
  after_of_writes_sub (ops2 (F := Ideal)) _ ops2_writes h
theorem val2_main_arg0 (V0 : Valuation τ sig (Elt Ideal)) : val2 V0 (no_index (Proc.devRef .tc main_arg0)) = (a0 V0) :=
  (val2_keep V0 main_arg0 (by decide)).trans (val1_main_arg0 V0)
theorem val2_main_arg1 (V0 : Valuation τ sig (Elt Ideal)) : val2 V0 (no_index (Proc.devRef .tc main_arg1)) = (a1 V0) :=
  (val2_keep V0 main_arg1 (by decide)).trans (val1_main_arg1 V0)
theorem val2_main_arg2 (V0 : Valuation τ sig (Elt Ideal)) : val2 V0 (no_index (Proc.devRef .tc main_arg2)) = (a2 V0) :=
  (val2_keep V0 main_arg2 (by decide)).trans (val1_main_arg2 V0)
theorem val2_main_arg3 (V0 : Valuation τ sig (Elt Ideal)) : val2 V0 (no_index (Proc.devRef .tc main_arg3)) = (a3 V0) :=
  (val2_keep V0 main_arg3 (by decide)).trans (val1_main_arg3 V0)
theorem val2_main_arg4 (V0 : Valuation τ sig (Elt Ideal)) : val2 V0 (no_index (Proc.devRef .tc main_arg4)) = (a4 V0) :=
  (val2_keep V0 main_arg4 (by decide)).trans (val1_main_arg4 V0)
theorem val2_main_arg5 (V0 : Valuation τ sig (Elt Ideal)) : val2 V0 (no_index (Proc.devRef .tc main_arg5)) = (a5 V0) :=
  (val2_keep V0 main_arg5 (by decide)).trans (val1_main_arg5 V0)
theorem val2_main_arg6 (V0 : Valuation τ sig (Elt Ideal)) : val2 V0 (no_index (Proc.devRef .tc main_arg6)) = (a6 V0) :=
  (val2_keep V0 main_arg6 (by decide)).trans (val1_main_arg6 V0)
theorem val2_main_v6 (V0 : Valuation τ sig (Elt Ideal)) : val2 V0 (no_index (Proc.devRef .tc main_v6)) = (Cert.RefTerm.idxCol7 (a0 V0)) :=
  (val2_keep V0 main_v6 (by decide)).trans (val1_main_v6 V0)
theorem val2_main_v9 (V0 : Valuation τ sig (Elt Ideal)) : val2 V0 (no_index (Proc.devRef .tc main_v9)) = (Cert.RefTerm.idxCol8 (a0 V0)) :=
  (val2_keep V0 main_v9 (by decide)).trans (val1_main_v9 V0)
theorem val2_main_v12 (V0 : Valuation τ sig (Elt Ideal)) : val2 V0 (no_index (Proc.devRef .tc main_v12)) = (Cert.RefTerm.idxCol9 (a0 V0)) :=
  (val2_keep V0 main_v12 (by decide)).trans (val1_main_v12 V0)
theorem val2_main_v3 (V0 : Valuation τ sig (Elt Ideal)) : val2 V0 (no_index (Proc.devRef .tc main_v3)) = (extractStridedSlice S16384x6 ![0, 1] (a0 V0) slices_S16384x29_S16384x6_0_1) :=
  (val2_keep V0 main_v3 (by decide)).trans (val1_main_v3 V0)
theorem val2_main_v13 (V0 : Valuation τ sig (Elt Ideal)) : val2 V0 (no_index (Proc.devRef .tc main_v13)) = (extractStridedSlice S16384x19 ![0, 10] (a0 V0) slices_S16384x29_S16384x19_0_10) :=
  (val2_keep V0 main_v13 (by decide)).trans (val1_main_v13 V0)
set_option maxRecDepth 8192 in
set_option maxHeartbeats 2000000 in
theorem val2_main_v14 (V0 : Valuation τ sig (Elt Ideal)) : val2 V0 (no_index (Proc.devRef .tc main_v14)) = (Cert.RefTerm.take91 (a1 V0) (Cert.RefTerm.idxCol0 (a0 V0))) := by
  unfold val2
  simp only [ops2]
  after_results_simp
  simp only [val1_main_arg1, val1_main_v2, cast_eq] <;> rfl

/-! ## Stretch 3 -/

/-- The device's buffer contents after the first 3 stretches. -/
def val3 (V0 : Valuation τ sig (Elt Ideal)) : Valuation τ sig (Elt Ideal) := after (ops3 (F := Ideal)) (val2 V0)
/-- The buffers stretch 3's operations write. -/
abbrev ops3_W : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]
set_option maxRecDepth 8192 in
theorem ops3_writes : (ops3 : List (HloOp τ sig (Elt Ideal))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem val3_keep (V0 : Valuation τ sig (Elt Ideal)) (r : Ref sig .tc) (h : r ∉ ops3_W) :
    val3 V0 (Proc.devRef .tc r) = val2 V0 (Proc.devRef .tc r) :=
  after_of_writes_sub (ops3 (F := Ideal)) _ ops3_writes h
theorem val3_main_arg0 (V0 : Valuation τ sig (Elt Ideal)) : val3 V0 (no_index (Proc.devRef .tc main_arg0)) = (a0 V0) :=
  (val3_keep V0 main_arg0 (by decide)).trans (val2_main_arg0 V0)
theorem val3_main_arg1 (V0 : Valuation τ sig (Elt Ideal)) : val3 V0 (no_index (Proc.devRef .tc main_arg1)) = (a1 V0) :=
  (val3_keep V0 main_arg1 (by decide)).trans (val2_main_arg1 V0)
theorem val3_main_arg2 (V0 : Valuation τ sig (Elt Ideal)) : val3 V0 (no_index (Proc.devRef .tc main_arg2)) = (a2 V0) :=
  (val3_keep V0 main_arg2 (by decide)).trans (val2_main_arg2 V0)
theorem val3_main_arg3 (V0 : Valuation τ sig (Elt Ideal)) : val3 V0 (no_index (Proc.devRef .tc main_arg3)) = (a3 V0) :=
  (val3_keep V0 main_arg3 (by decide)).trans (val2_main_arg3 V0)
theorem val3_main_arg4 (V0 : Valuation τ sig (Elt Ideal)) : val3 V0 (no_index (Proc.devRef .tc main_arg4)) = (a4 V0) :=
  (val3_keep V0 main_arg4 (by decide)).trans (val2_main_arg4 V0)
theorem val3_main_arg5 (V0 : Valuation τ sig (Elt Ideal)) : val3 V0 (no_index (Proc.devRef .tc main_arg5)) = (a5 V0) :=
  (val3_keep V0 main_arg5 (by decide)).trans (val2_main_arg5 V0)
theorem val3_main_arg6 (V0 : Valuation τ sig (Elt Ideal)) : val3 V0 (no_index (Proc.devRef .tc main_arg6)) = (a6 V0) :=
  (val3_keep V0 main_arg6 (by decide)).trans (val2_main_arg6 V0)
theorem val3_main_v9 (V0 : Valuation τ sig (Elt Ideal)) : val3 V0 (no_index (Proc.devRef .tc main_v9)) = (Cert.RefTerm.idxCol8 (a0 V0)) :=
  (val3_keep V0 main_v9 (by decide)).trans (val2_main_v9 V0)
theorem val3_main_v12 (V0 : Valuation τ sig (Elt Ideal)) : val3 V0 (no_index (Proc.devRef .tc main_v12)) = (Cert.RefTerm.idxCol9 (a0 V0)) :=
  (val3_keep V0 main_v12 (by decide)).trans (val2_main_v12 V0)
theorem val3_main_v3 (V0 : Valuation τ sig (Elt Ideal)) : val3 V0 (no_index (Proc.devRef .tc main_v3)) = (extractStridedSlice S16384x6 ![0, 1] (a0 V0) slices_S16384x29_S16384x6_0_1) :=
  (val3_keep V0 main_v3 (by decide)).trans (val2_main_v3 V0)
theorem val3_main_v13 (V0 : Valuation τ sig (Elt Ideal)) : val3 V0 (no_index (Proc.devRef .tc main_v13)) = (extractStridedSlice S16384x19 ![0, 10] (a0 V0) slices_S16384x29_S16384x19_0_10) :=
  (val3_keep V0 main_v13 (by decide)).trans (val2_main_v13 V0)
theorem val3_main_v14 (V0 : Valuation τ sig (Elt Ideal)) : val3 V0 (no_index (Proc.devRef .tc main_v14)) = (Cert.RefTerm.take91 (a1 V0) (Cert.RefTerm.idxCol0 (a0 V0))) :=
  (val3_keep V0 main_v14 (by decide)).trans (val2_main_v14 V0)
set_option maxRecDepth 8192 in
set_option maxHeartbeats 2000000 in
theorem val3_main_v15 (V0 : Valuation τ sig (Elt Ideal)) : val3 V0 (no_index (Proc.devRef .tc main_v15)) = (Cert.RefTerm.take90 (a2 V0) (Cert.RefTerm.idxCol7 (a0 V0))) := by
  unfold val3
  simp only [ops3]
  after_results_simp
  simp only [val2_main_arg2, val2_main_v6, cast_eq] <;> rfl

/-! ## Stretch 4 -/

/-- The device's buffer contents after the first 4 stretches. -/
def val4 (V0 : Valuation τ sig (Elt Ideal)) : Valuation τ sig (Elt Ideal) := after (ops4 (F := Ideal)) (val3 V0)
/-- The buffers stretch 4's operations write. -/
abbrev ops4_W : List (Ref sig .tc) := [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref]
set_option maxRecDepth 8192 in
theorem ops4_writes : (ops4 : List (HloOp τ sig (Elt Ideal))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem val4_keep (V0 : Valuation τ sig (Elt Ideal)) (r : Ref sig .tc) (h : r ∉ ops4_W) :
    val4 V0 (Proc.devRef .tc r) = val3 V0 (Proc.devRef .tc r) :=
  after_of_writes_sub (ops4 (F := Ideal)) _ ops4_writes h
theorem val4_main_arg0 (V0 : Valuation τ sig (Elt Ideal)) : val4 V0 (no_index (Proc.devRef .tc main_arg0)) = (a0 V0) :=
  (val4_keep V0 main_arg0 (by decide)).trans (val3_main_arg0 V0)
theorem val4_main_arg1 (V0 : Valuation τ sig (Elt Ideal)) : val4 V0 (no_index (Proc.devRef .tc main_arg1)) = (a1 V0) :=
  (val4_keep V0 main_arg1 (by decide)).trans (val3_main_arg1 V0)
theorem val4_main_arg2 (V0 : Valuation τ sig (Elt Ideal)) : val4 V0 (no_index (Proc.devRef .tc main_arg2)) = (a2 V0) :=
  (val4_keep V0 main_arg2 (by decide)).trans (val3_main_arg2 V0)
theorem val4_main_arg3 (V0 : Valuation τ sig (Elt Ideal)) : val4 V0 (no_index (Proc.devRef .tc main_arg3)) = (a3 V0) :=
  (val4_keep V0 main_arg3 (by decide)).trans (val3_main_arg3 V0)
theorem val4_main_arg4 (V0 : Valuation τ sig (Elt Ideal)) : val4 V0 (no_index (Proc.devRef .tc main_arg4)) = (a4 V0) :=
  (val4_keep V0 main_arg4 (by decide)).trans (val3_main_arg4 V0)
theorem val4_main_arg5 (V0 : Valuation τ sig (Elt Ideal)) : val4 V0 (no_index (Proc.devRef .tc main_arg5)) = (a5 V0) :=
  (val4_keep V0 main_arg5 (by decide)).trans (val3_main_arg5 V0)
theorem val4_main_arg6 (V0 : Valuation τ sig (Elt Ideal)) : val4 V0 (no_index (Proc.devRef .tc main_arg6)) = (a6 V0) :=
  (val4_keep V0 main_arg6 (by decide)).trans (val3_main_arg6 V0)
theorem val4_main_v12 (V0 : Valuation τ sig (Elt Ideal)) : val4 V0 (no_index (Proc.devRef .tc main_v12)) = (Cert.RefTerm.idxCol9 (a0 V0)) :=
  (val4_keep V0 main_v12 (by decide)).trans (val3_main_v12 V0)
theorem val4_main_v3 (V0 : Valuation τ sig (Elt Ideal)) : val4 V0 (no_index (Proc.devRef .tc main_v3)) = (extractStridedSlice S16384x6 ![0, 1] (a0 V0) slices_S16384x29_S16384x6_0_1) :=
  (val4_keep V0 main_v3 (by decide)).trans (val3_main_v3 V0)
theorem val4_main_v13 (V0 : Valuation τ sig (Elt Ideal)) : val4 V0 (no_index (Proc.devRef .tc main_v13)) = (extractStridedSlice S16384x19 ![0, 10] (a0 V0) slices_S16384x29_S16384x19_0_10) :=
  (val4_keep V0 main_v13 (by decide)).trans (val3_main_v13 V0)
theorem val4_main_v14 (V0 : Valuation τ sig (Elt Ideal)) : val4 V0 (no_index (Proc.devRef .tc main_v14)) = (Cert.RefTerm.take91 (a1 V0) (Cert.RefTerm.idxCol0 (a0 V0))) :=
  (val4_keep V0 main_v14 (by decide)).trans (val3_main_v14 V0)
theorem val4_main_v15 (V0 : Valuation τ sig (Elt Ideal)) : val4 V0 (no_index (Proc.devRef .tc main_v15)) = (Cert.RefTerm.take90 (a2 V0) (Cert.RefTerm.idxCol7 (a0 V0))) :=
  (val4_keep V0 main_v15 (by decide)).trans (val3_main_v15 V0)
set_option maxRecDepth 8192 in
set_option maxHeartbeats 2000000 in
theorem val4_main_v16 (V0 : Valuation τ sig (Elt Ideal)) : val4 V0 (no_index (Proc.devRef .tc main_v16)) = (Cert.RefTerm.take90 (a2 V0) (Cert.RefTerm.idxCol8 (a0 V0))) := by
  unfold val4
  simp only [ops4]
  after_results_simp
  simp only [val3_main_arg2, val3_main_v9, cast_eq] <;> rfl

/-! ## Stretch 5 -/

/-- The device's buffer contents after the first 5 stretches. -/
def val5 (V0 : Valuation τ sig (Elt Ideal)) : Valuation τ sig (Elt Ideal) := after (ops5 (F := Ideal)) (val4 V0)
/-- The buffers stretch 5's operations write. -/
abbrev ops5_W : List (Ref sig .tc) := [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref]
set_option maxRecDepth 8192 in
theorem ops5_writes : (ops5 : List (HloOp τ sig (Elt Ideal))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem val5_keep (V0 : Valuation τ sig (Elt Ideal)) (r : Ref sig .tc) (h : r ∉ ops5_W) :
    val5 V0 (Proc.devRef .tc r) = val4 V0 (Proc.devRef .tc r) :=
  after_of_writes_sub (ops5 (F := Ideal)) _ ops5_writes h
theorem val5_main_arg0 (V0 : Valuation τ sig (Elt Ideal)) : val5 V0 (no_index (Proc.devRef .tc main_arg0)) = (a0 V0) :=
  (val5_keep V0 main_arg0 (by decide)).trans (val4_main_arg0 V0)
theorem val5_main_arg1 (V0 : Valuation τ sig (Elt Ideal)) : val5 V0 (no_index (Proc.devRef .tc main_arg1)) = (a1 V0) :=
  (val5_keep V0 main_arg1 (by decide)).trans (val4_main_arg1 V0)
theorem val5_main_arg2 (V0 : Valuation τ sig (Elt Ideal)) : val5 V0 (no_index (Proc.devRef .tc main_arg2)) = (a2 V0) :=
  (val5_keep V0 main_arg2 (by decide)).trans (val4_main_arg2 V0)
theorem val5_main_arg3 (V0 : Valuation τ sig (Elt Ideal)) : val5 V0 (no_index (Proc.devRef .tc main_arg3)) = (a3 V0) :=
  (val5_keep V0 main_arg3 (by decide)).trans (val4_main_arg3 V0)
theorem val5_main_arg4 (V0 : Valuation τ sig (Elt Ideal)) : val5 V0 (no_index (Proc.devRef .tc main_arg4)) = (a4 V0) :=
  (val5_keep V0 main_arg4 (by decide)).trans (val4_main_arg4 V0)
theorem val5_main_arg5 (V0 : Valuation τ sig (Elt Ideal)) : val5 V0 (no_index (Proc.devRef .tc main_arg5)) = (a5 V0) :=
  (val5_keep V0 main_arg5 (by decide)).trans (val4_main_arg5 V0)
theorem val5_main_arg6 (V0 : Valuation τ sig (Elt Ideal)) : val5 V0 (no_index (Proc.devRef .tc main_arg6)) = (a6 V0) :=
  (val5_keep V0 main_arg6 (by decide)).trans (val4_main_arg6 V0)
theorem val5_main_v3 (V0 : Valuation τ sig (Elt Ideal)) : val5 V0 (no_index (Proc.devRef .tc main_v3)) = (extractStridedSlice S16384x6 ![0, 1] (a0 V0) slices_S16384x29_S16384x6_0_1) :=
  (val5_keep V0 main_v3 (by decide)).trans (val4_main_v3 V0)
theorem val5_main_v13 (V0 : Valuation τ sig (Elt Ideal)) : val5 V0 (no_index (Proc.devRef .tc main_v13)) = (extractStridedSlice S16384x19 ![0, 10] (a0 V0) slices_S16384x29_S16384x19_0_10) :=
  (val5_keep V0 main_v13 (by decide)).trans (val4_main_v13 V0)
theorem val5_main_v14 (V0 : Valuation τ sig (Elt Ideal)) : val5 V0 (no_index (Proc.devRef .tc main_v14)) = (Cert.RefTerm.take91 (a1 V0) (Cert.RefTerm.idxCol0 (a0 V0))) :=
  (val5_keep V0 main_v14 (by decide)).trans (val4_main_v14 V0)
theorem val5_main_v15 (V0 : Valuation τ sig (Elt Ideal)) : val5 V0 (no_index (Proc.devRef .tc main_v15)) = (Cert.RefTerm.take90 (a2 V0) (Cert.RefTerm.idxCol7 (a0 V0))) :=
  (val5_keep V0 main_v15 (by decide)).trans (val4_main_v15 V0)
theorem val5_main_v16 (V0 : Valuation τ sig (Elt Ideal)) : val5 V0 (no_index (Proc.devRef .tc main_v16)) = (Cert.RefTerm.take90 (a2 V0) (Cert.RefTerm.idxCol8 (a0 V0))) :=
  (val5_keep V0 main_v16 (by decide)).trans (val4_main_v16 V0)
set_option maxRecDepth 8192 in
set_option maxHeartbeats 2000000 in
theorem val5_main_v17 (V0 : Valuation τ sig (Elt Ideal)) : val5 V0 (no_index (Proc.devRef .tc main_v17)) = (Cert.RefTerm.take90 (a2 V0) (Cert.RefTerm.idxCol9 (a0 V0))) := by
  unfold val5
  simp only [ops5]
  after_results_simp
  simp only [val4_main_arg2, val4_main_v12, cast_eq] <;> rfl

/-! ## Stretch 6 -/

/-- The device's buffer contents after the first 6 stretches. -/
def val6 (V0 : Valuation τ sig (Elt Ideal)) : Valuation τ sig (Elt Ideal) := after (ops6 (F := Ideal)) (val5 V0)
/-- The buffers stretch 6's operations write. -/
abbrev ops6_W : List (Ref sig .tc) := [main_v18, main_v19, main_v20, main_v21, main_v22, main_v23, main_call4.cst.ref, main_call4.v0.ref, main_call4.v1.ref, main_v25, main_v26, main_v27, main_v28, main_v29]
set_option maxRecDepth 8192 in
theorem ops6_writes : (ops6 : List (HloOp τ sig (Elt Ideal))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem val6_keep (V0 : Valuation τ sig (Elt Ideal)) (r : Ref sig .tc) (h : r ∉ ops6_W) :
    val6 V0 (Proc.devRef .tc r) = val5 V0 (Proc.devRef .tc r) :=
  after_of_writes_sub (ops6 (F := Ideal)) _ ops6_writes h
theorem val6_main_arg0 (V0 : Valuation τ sig (Elt Ideal)) : val6 V0 (no_index (Proc.devRef .tc main_arg0)) = (a0 V0) :=
  (val6_keep V0 main_arg0 (by decide)).trans (val5_main_arg0 V0)
theorem val6_main_arg1 (V0 : Valuation τ sig (Elt Ideal)) : val6 V0 (no_index (Proc.devRef .tc main_arg1)) = (a1 V0) :=
  (val6_keep V0 main_arg1 (by decide)).trans (val5_main_arg1 V0)
theorem val6_main_arg2 (V0 : Valuation τ sig (Elt Ideal)) : val6 V0 (no_index (Proc.devRef .tc main_arg2)) = (a2 V0) :=
  (val6_keep V0 main_arg2 (by decide)).trans (val5_main_arg2 V0)
theorem val6_main_arg3 (V0 : Valuation τ sig (Elt Ideal)) : val6 V0 (no_index (Proc.devRef .tc main_arg3)) = (a3 V0) :=
  (val6_keep V0 main_arg3 (by decide)).trans (val5_main_arg3 V0)
theorem val6_main_arg4 (V0 : Valuation τ sig (Elt Ideal)) : val6 V0 (no_index (Proc.devRef .tc main_arg4)) = (a4 V0) :=
  (val6_keep V0 main_arg4 (by decide)).trans (val5_main_arg4 V0)
theorem val6_main_arg5 (V0 : Valuation τ sig (Elt Ideal)) : val6 V0 (no_index (Proc.devRef .tc main_arg5)) = (a5 V0) :=
  (val6_keep V0 main_arg5 (by decide)).trans (val5_main_arg5 V0)
theorem val6_main_arg6 (V0 : Valuation τ sig (Elt Ideal)) : val6 V0 (no_index (Proc.devRef .tc main_arg6)) = (a6 V0) :=
  (val6_keep V0 main_arg6 (by decide)).trans (val5_main_arg6 V0)
set_option maxRecDepth 8192 in
set_option maxHeartbeats 2000000 in
theorem val6_main_v29 (V0 : Valuation τ sig (Elt Ideal)) : val6 V0 (no_index (Proc.devRef .tc main_v29)) = (Cert.RefTerm.res (a0 V0) (a1 V0) (a2 V0) (a3 V0) (a4 V0) (a5 V0) (a6 V0)) := by
  unfold val6
  simp only [ops6]
  after_results_simp
  try dsimp only [Matrix.cons_val]
  simp only [val5_main_arg3, val5_main_arg4, val5_main_arg5, val5_main_arg6, cast_eq]
  rw [val5_main_v14 V0, val5_main_v3 V0, val5_main_v15 V0, val5_main_v16 V0, val5_main_v17 V0, val5_main_v13 V0]
  rfl

/-! ## The whole run -/

theorem after_ops (V0 : Valuation τ sig (Elt Ideal)) : after (ops (F := Ideal)) V0 = val6 V0 := by
  simp only [ops, after_app]
  rfl

/-- On every device, from any memory with zero counters: every weakly fair execution of the program terminates with the
    result buffer at `Cert.RefTerm.res` of the argument buffers' launch contents and the argument buffers unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29)
          = Cert.RefTerm.res (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run defs _ _).mono (fun _ h c => ⟨(h c main_v29).trans (by simp only [after_ops]; exact val6_main_v29 (launchContents m c)),
      (h c main_arg0).trans (by simp only [after_ops]; exact val6_main_arg0 (launchContents m c)),
      (h c main_arg1).trans (by simp only [after_ops]; exact val6_main_arg1 (launchContents m c)),
      (h c main_arg2).trans (by simp only [after_ops]; exact val6_main_arg2 (launchContents m c)),
      (h c main_arg3).trans (by simp only [after_ops]; exact val6_main_arg3 (launchContents m c)),
      (h c main_arg4).trans (by simp only [after_ops]; exact val6_main_arg4 (launchContents m c)),
      (h c main_arg5).trans (by simp only [after_ops]; exact val6_main_arg5 (launchContents m c)),
      (h c main_arg6).trans (by simp only [after_ops]; exact val6_main_arg6 (launchContents m c))⟩)
    (run_seq scopedRefs_eq scopedSems_eq defs main (fun _ => ops) main_eq (fun _ => ops_sub) m ρ)

end Cert.RefRun

end
-- ==== Proof.RefStageIdx.lean ====
/-
  The reference's index words, read at a row.

  The reference takes column `c` of `content` as a one-column slice, drops the unit axis and converts to 32-bit integers.
  At row `r` the resulting word is the conversion of the single entry `content[r, c]`: the slice shifts the column by `c`,
  the reshape keeps the row-major position (row `r` of a one-column array sits at position `r`), and the conversion is
  elementwise.
-/
import proofs.«129327_g79053168050384_cont_9to1_m_779_34_alg».proof.ReferenceIdeal
import proofs.«129327_g79053168050384_cont_9to1_m_779_34_alg».proof.Proof.Spec
import Idealize.ShloMosaic.Lib.ValueIdx
import Idealize.ShloMosaic.Lib.Pipeline.Value

noncomputable section

namespace Cert.RefStage

open Idealize.ShloMosaic Idealize.ShloMosaic.ValueIdx Cert.ReferenceIdeal

/-- Column `c` of `content`, sliced, reshaped to a vector and converted: at row `r` the word of `content[r, c]`. -/
theorem idxWord_apply (c : Fin 29) (a0 : FVec Ideal S16384x29 .f32) (hs : S16384x29.Slices ![0, c.val] S16384x1)
    (hc : S16384x1.ShapeCasts S16384) (r : Fin 16384) :
    (fptosi 32 (shapeCast S16384 (extractStridedSlice S16384x1 ![0, c.val] a0 hs) hc) : IVec S16384 32) (ix1 r)
      = Ideal.fptosi 32 (a0 (ix2 r c)) := by
  show Ideal.fptosi 32 (shapeCast S16384 (extractStridedSlice S16384x1 ![0, c.val] a0 hs) hc (ix1 r)) = _
  refine congrArg (Ideal.fptosi 32) ?_
  refine (shapeCast_apply _ hc (ix1 r) (ix2 r (0 : Fin 1)) ?_).trans ?_
  · rw [Shape.rowMajor_val_two, Shape.rowMajor_val_one]
    show r.val * 1 + 0 = r.val
    omega
  · refine extractStridedSlice_apply _ a0 hs (ix2 r (0 : Fin 1)) (ix2 r c) fun a => ?_
    match a with
    | ⟨0, _⟩ => show r.val = 0 + r.val; omega
    | ⟨1, _⟩ => show c.val = c.val + 0; omega

end Cert.RefStage

end
-- ==== Proof.RefStageTake.lean ====
/-
  A table lookup in "fill" mode, read at one entry.

  The reference looks a 32-bit word `w` up in a table of `N` rows of sixteen: a negative word has `N` added, the word is
  tested against `0 ≤ · ≤ N - 1`, row `clamp(w)` is gathered, and a row whose word failed the test is replaced by the
  not-a-number constant. When the word is `n` for a row number `n < N`, none of this bites: the word is not negative, so
  it is kept; both bounds hold, so the conjunction over the single column (from the constant true) is true; the clamp
  of `n` into `[0, N - 1]` is `n`; and the final choice takes the gathered entry. So entry `q` of the result's row `r`
  is `T[n, q]`.

  The gather itself: with offset axis 1, collapsed operand axis 0, start index map `[0]`, the index vector on axis 1
  and slices of one row, the operand index of result entry `(r, q)` is (the start index read at `(r, 0)`, signed and
  clamped; `q`).
-/
import proofs.«129327_g79053168050384_cont_9to1_m_779_34_alg».proof.Proof.RefTerm
import Idealize.ShloMosaic.Lib.ValueIdx
import Idealize.ShloMosaic.Lib.Pipeline.Value
import Idealize.ShloMosaic.Lib.ReduceAll
import Idealize.ShloMosaic.Lib.WordArith

noncomputable section

namespace Cert.RefStage

open Idealize.ShloMosaic Idealize.ShloMosaic.ValueIdx Cert.ReferenceIdeal Cert.RefTerm
open Cert.ReferenceIdeal.Facts₀ Cert.ReferenceIdeal.Facts

/-! ## A conjunction of true bits -/

/-- A left fold by `and` from the true bit over bits that are all true is true. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have e : IntOp.andi (1#1 : BitVec 1) 1#1 = 1#1 := by decide
    rw [e]
    exact foldl_andi_one f l fun n hn => h n (List.mem_cons_of_mem _ hn)

/-! ## The gather of whole rows -/

section Gather
variable {α : Type}

/-- The dimension numbers of a gather of whole rows of an `N × C` table at a column of `R` start indices. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, q)`: the table at row (the start index at `(r, 0)`, read signed and clamped into
    `[0, N - 1]`), column `q`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowDims N R C wf) x idx (ix2 r q)
      = x (ix2 ⟨min (idx (ix2 r (0 : Fin 1))).toInt.toNat (N - 1), by omega⟩ q) := by
  unfold Host.gather
  congr 1
  funext a
  refine Fin.ext ?_
  show (rowDims N R C wf).start (ix2 r q) idx a + (rowDims N R C wf).batchCoord (ix2 r q) a
      + (rowDims N R C wf).offCoord (ix2 r q) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (rowDims N R C wf).startIndexMap from List.mem_singleton.mpr rfl)]
    have hsi : (rowDims N R C wf).siIdx (ix2 r q) ⟨List.idxOf (⟨0, h0⟩ : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, h1⟩ =>
    have hst : (rowDims N R C wf).start (ix2 r q) idx ⟨1, h1⟩ = 0 := by
      unfold GatherDims.start
      rw [dif_neg (fun h => absurd (congrArg Fin.val (List.mem_singleton.mp h)) (show ¬((1 : ℕ) = 0) from Nat.one_ne_zero))]
    have hmem : (⟨1, h1⟩ : Fin 2) ∈ (rowDims N R C wf).sKept :=
      (GatherDims.mem_sKept _ _).mpr
        ⟨fun h => absurd (congrArg Fin.val (List.mem_singleton.mp h)) (show ¬((1 : ℕ) = 0) from Nat.one_ne_zero), List.not_mem_nil⟩
    have hoff : (rowDims N R C wf).offCoord (ix2 r q) ⟨1, h1⟩ = q.val := by
      unfold GatherDims.offCoord
      rw [dif_pos hmem]
      rfl
    rw [hst, hoff, Nat.zero_add]

end Gather

/-! ## The lookup's stages at a row whose word is a row number -/

section
variable [Cert.ReferenceIdeal.Facts]

/-- The 91-row lookup's dimension numbers are those of a gather of whole rows. -/
theorem gather91_eq : gather_S91x16_S16384x1_S16384x16_1_0_n_n_0_1_116
    = rowDims 91 16384 16 gather_S91x16_S16384x1_S16384x16_1_0_n_n_0_1_116_wf := rfl

/-- The 90-row lookup's likewise. -/
theorem gather90_eq : gather_S90x16_S16384x1_S16384x16_1_0_n_n_0_1_116
    = rowDims 90 16384 16 gather_S90x16_S16384x1_S16384x16_1_0_n_n_0_1_116_wf := rfl

/-- A word that is a natural number below `2³¹` is not negative, so the wrap keeps it: the wrapped column at `(r, 0)`
    is the word at `r`. -/
theorem wrapCol_apply (N : BitVec 32) (i : IVec S16384 32) (r : Fin 16384) (n : ℕ) (hn : n < 2 ^ 31)
    (hw : i (ix1 r) = BitVec.ofNat 32 n) : wrapCol N i (ix2 r (0 : Fin 1)) = BitVec.ofNat 32 n := by
  unfold wrapCol
  refine (broadcastInDim_apply _ bcast_S16384_S16384x1_0 _ (ix2 r (0 : Fin 1)) (ix1 r) fun a => ?_).trans ?_
  · match a with
    | ⟨0, _⟩ => rfl
  · show Scalar.select (IntOp.cmpi .slt (i (ix1 r)) 0#32) (IntOp.addi (i (ix1 r)) N) (i (ix1 r)) = _
    rw [hw]
    have hlt : IntOp.cmpi .slt (BitVec.ofNat 32 n) 0#32 = 0#1 := by
      refine eq_zero_of_ne_one fun h => ?_
      rw [IntOp.cmpi_slt, WordArith.toInt_ofNat_small n hn] at h
      have h0 : (0#32 : BitVec 32).toInt = 0 := by decide
      rw [h0] at h
      omega
    rw [hlt, select_zero]

/-- The bounds test at a row whose wrapped word is a row number at most the last row `M`: true. -/
theorem inBounds_apply (M : ℕ) (hM : M < 2 ^ 31) (v5 : IVec S16384x1 32) (r : Fin 16384) (n : ℕ) (hn : n ≤ M)
    (hw : v5 (ix2 r (0 : Fin 1)) = BitVec.ofNat 32 n) : inBounds (BitVec.ofNat 32 M) v5 (ix1 r) = 1#1 := by
  unfold inBounds
  rw [Host.reduce_eq_foldl]
  refine foldl_andi_one _ _ fun j hj => ?_
  have hd : reducesTo_S16384x1_S16384_d1.drop j = ix1 r := by
    have := (List.mem_filter.mp hj).2
    simpa using this
  have h0 : (j 0).val = r.val := by
    have e := Shape.ReducesTo.drop_apply_val_of_eq reducesTo_S16384x1_S16384_d1 j 0 0
    rw [hd] at e
    exact e.symm
  have h1 : (j 1).val = 0 := by have := idx2_lt1 j; omega
  have hj' : j = ix2 r (0 : Fin 1) := by
    rw [eq_ix2 j]
    exact congrArg₂ ix2 (Fin.ext h0) (Fin.ext h1)
  rw [hj']
  show IntOp.andi (IntOp.cmpi .sge (v5 (ix2 r (0 : Fin 1))) 0#32)
      (IntOp.cmpi .sle (v5 (ix2 r (0 : Fin 1))) (BitVec.ofNat 32 M)) = 1#1
  rw [hw]
  refine IntOp.andi_eq_one.mpr ⟨IntOp.cmpi_sge.mpr ?_, IntOp.cmpi_sle.mpr ?_⟩
  · rw [WordArith.toInt_ofNat_small n (by omega)]
    have h0 : (0#32 : BitVec 32).toInt = 0 := by decide
    rw [h0]; omega
  · rw [WordArith.toInt_ofNat_small n (by omega), WordArith.toInt_ofNat_small M hM]
    exact_mod_cast hn

/-- THE 91-ROW LOOKUP AT `(r, q)` when the word at `r` is the row number `n < 91`: `T[n, q]`. -/
theorem take91_apply (T : FVec Ideal S91x16 .f32) (i : IVec S16384 32) (r : Fin 16384) (q : Fin 16) (n : ℕ)
    (hn : n < 91) (hw : i (ix1 r) = BitVec.ofNat 32 n) : take91 T i (ix2 r q) = T (ix2 ⟨n, hn⟩ q) := by
  unfold take91
  show Scalar.select
      (broadcastInDim S16384x16 ![0] bcast_S16384_S16384x16_0 (inBounds 90#32 (wrapCol 91#32 i)) (ix2 r q))
      (Host.gather gather_S91x16_S16384x1_S16384x16_1_0_n_n_0_1_116 T (wrapCol 91#32 i) (ix2 r q))
      (fillNaN (ix2 r q)) = _
  have hcol := wrapCol_apply 91#32 i r n (by omega) hw
  have hm : broadcastInDim S16384x16 ![0] bcast_S16384_S16384x16_0 (inBounds 90#32 (wrapCol 91#32 i)) (ix2 r q)
      = 1#1 := by
    refine (broadcastInDim_apply _ bcast_S16384_S16384x16_0 _ (ix2 r q) (ix1 r) fun a => ?_).trans ?_
    · match a with
      | ⟨0, _⟩ => rfl
    · exact inBounds_apply 90 (by norm_num) _ r n (by omega) hcol
  rw [hm, select_one, gather91_eq]
  refine (gather_rows_apply (by norm_num) _ T _ r q).trans ?_
  refine congrArg T (congrArg (fun a => ix2 a q) (Fin.ext ?_))
  show min (wrapCol 91#32 i (ix2 r (0 : Fin 1))).toInt.toNat (91 - 1) = n
  rw [hcol, WordArith.toInt_ofNat_small n (by omega)]
  simp only [Int.toNat_natCast]
  omega

/-- THE 90-ROW LOOKUP AT `(r, q)` when the word at `r` is the row number `n < 90`: `T[n, q]`. -/
theorem take90_apply (T : FVec Ideal S90x16 .f32) (i : IVec S16384 32) (r : Fin 16384) (q : Fin 16) (n : ℕ)
    (hn : n < 90) (hw : i (ix1 r) = BitVec.ofNat 32 n) : take90 T i (ix2 r q) = T (ix2 ⟨n, hn⟩ q) := by
  unfold take90
  show Scalar.select
      (broadcastInDim S16384x16 ![0] bcast_S16384_S16384x16_0 (inBounds 89#32 (wrapCol 90#32 i)) (ix2 r q))
      (Host.gather gather_S90x16_S16384x1_S16384x16_1_0_n_n_0_1_116 T (wrapCol 90#32 i) (ix2 r q))
      (fillNaN (ix2 r q)) = _
  have hcol := wrapCol_apply 90#32 i r n (by omega) hw
  have hm : broadcastInDim S16384x16 ![0] bcast_S16384_S16384x16_0 (inBounds 89#32 (wrapCol 90#32 i)) (ix2 r q)
      = 1#1 := by
    refine (broadcastInDim_apply _ bcast_S16384_S16384x16_0 _ (ix2 r q) (ix1 r) fun a => ?_).trans ?_
    · match a with
      | ⟨0, _⟩ => rfl
    · exact inBounds_apply 89 (by norm_num) _ r n (by omega) hcol
  rw [hm, select_one, gather90_eq]
  refine (gather_rows_apply (by norm_num) _ T _ r q).trans ?_
  refine congrArg T (congrArg (fun a => ix2 a q) (Fin.ext ?_))
  show min (wrapCol 90#32 i (ix2 r (0 : Fin 1))).toInt.toNat (90 - 1) = n
  rw [hcol, WordArith.toInt_ofNat_small n (by omega)]
  simp only [Int.toNat_natCast]
  omega

end

end Cert.RefStage

end
-- ==== Proof.RefStageCat.lean ====
/-
  The reference's 89-column concatenation, read at an entry.

  The six pieces lie end to end along the columns: 16, 6, 16, 16, 16 and 19 wide, starting at columns 0, 16, 22, 38,
  54 and 70. Entry `(r, o + q)` of the whole, for `o` a piece's first column and `q` a column of that piece, is the
  piece's entry `(r, q)`.
-/
import proofs.«129327_g79053168050384_cont_9to1_m_779_34_alg».proof.ReferenceIdeal
import Idealize.ShloMosaic.Lib.ValueIdx
import Idealize.ShloMosaic.Lib.Pipeline.Value

noncomputable section

namespace Cert.RefStage

open Idealize.ShloMosaic Idealize.ShloMosaic.ValueIdx Cert.ReferenceIdeal

variable {α : Type}

/-- Columns 0–15: the first piece. -/
theorem cat_apply_0 (x0 : S16384x16.Idx → α) (x1 : S16384x6.Idx → α) (x2 x3 x4 : S16384x16.Idx → α)
    (x5 : S16384x19.Idx → α)
    (h : Shape.Concatenates [S16384x16, S16384x6, S16384x16, S16384x16, S16384x16, S16384x19] S16384x89 1)
    (r : Fin 16384) (q : Fin 16) :
    concatenate S16384x89 1 [⟨S16384x16, x0⟩, ⟨S16384x6, x1⟩, ⟨S16384x16, x2⟩, ⟨S16384x16, x3⟩, ⟨S16384x16, x4⟩,
        ⟨S16384x19, x5⟩] h (ix2 r (⟨0 + q.val, by have := q.isLt; omega⟩ : Fin 89)) = x0 (ix2 r q) := by
  refine concatenate_apply_piece (1 : Fin S16384x89.rank)
    [⟨S16384x16, x0⟩, ⟨S16384x6, x1⟩, ⟨S16384x16, x2⟩, ⟨S16384x16, x3⟩, ⟨S16384x16, x4⟩, ⟨S16384x19, x5⟩]
    h _ 0 (show 0 < 6 by omega) S16384x16 x0 rfl rfl 0 rfl (ix2 r q)
    (fun b hb => ?_) rfl
  match b with
  | ⟨0, _⟩ => rfl
  | ⟨1, _⟩ => exact absurd rfl hb

/-- Columns 16–21: the second piece. -/
theorem cat_apply_1 (x0 : S16384x16.Idx → α) (x1 : S16384x6.Idx → α) (x2 x3 x4 : S16384x16.Idx → α)
    (x5 : S16384x19.Idx → α)
    (h : Shape.Concatenates [S16384x16, S16384x6, S16384x16, S16384x16, S16384x16, S16384x19] S16384x89 1)
    (r : Fin 16384) (q : Fin 6) :
    concatenate S16384x89 1 [⟨S16384x16, x0⟩, ⟨S16384x6, x1⟩, ⟨S16384x16, x2⟩, ⟨S16384x16, x3⟩, ⟨S16384x16, x4⟩,
        ⟨S16384x19, x5⟩] h (ix2 r (⟨16 + q.val, by have := q.isLt; omega⟩ : Fin 89)) = x1 (ix2 r q) := by
  refine concatenate_apply_piece (1 : Fin S16384x89.rank)
    [⟨S16384x16, x0⟩, ⟨S16384x6, x1⟩, ⟨S16384x16, x2⟩, ⟨S16384x16, x3⟩, ⟨S16384x16, x4⟩, ⟨S16384x19, x5⟩]
    h _ 1 (show 1 < 6 by omega) S16384x6 x1 rfl rfl 16 rfl (ix2 r q)
    (fun b hb => ?_) rfl
  match b with
  | ⟨0, _⟩ => rfl
  | ⟨1, _⟩ => exact absurd rfl hb

/-- Columns 22–37: the third piece. -/
theorem cat_apply_2 (x0 : S16384x16.Idx → α) (x1 : S16384x6.Idx → α) (x2 x3 x4 : S16384x16.Idx → α)
    (x5 : S16384x19.Idx → α)
    (h : Shape.Concatenates [S16384x16, S16384x6, S16384x16, S16384x16, S16384x16, S16384x19] S16384x89 1)
    (r : Fin 16384) (q : Fin 16) :
    concatenate S16384x89 1 [⟨S16384x16, x0⟩, ⟨S16384x6, x1⟩, ⟨S16384x16, x2⟩, ⟨S16384x16, x3⟩, ⟨S16384x16, x4⟩,
        ⟨S16384x19, x5⟩] h (ix2 r (⟨22 + q.val, by have := q.isLt; omega⟩ : Fin 89)) = x2 (ix2 r q) := by
  refine concatenate_apply_piece (1 : Fin S16384x89.rank)
    [⟨S16384x16, x0⟩, ⟨S16384x6, x1⟩, ⟨S16384x16, x2⟩, ⟨S16384x16, x3⟩, ⟨S16384x16, x4⟩, ⟨S16384x19, x5⟩]
    h _ 2 (show 2 < 6 by omega) S16384x16 x2 rfl rfl 22 rfl (ix2 r q)
    (fun b hb => ?_) rfl
  match b with
  | ⟨0, _⟩ => rfl
  | ⟨1, _⟩ => exact absurd rfl hb

/-- Columns 38–53: the fourth piece. -/
theorem cat_apply_3 (x0 : S16384x16.Idx → α) (x1 : S16384x6.Idx → α) (x2 x3 x4 : S16384x16.Idx → α)
    (x5 : S16384x19.Idx → α)
    (h : Shape.Concatenates [S16384x16, S16384x6, S16384x16, S16384x16, S16384x16, S16384x19] S16384x89 1)
    (r : Fin 16384) (q : Fin 16) :
    concatenate S16384x89 1 [⟨S16384x16, x0⟩, ⟨S16384x6, x1⟩, ⟨S16384x16, x2⟩, ⟨S16384x16, x3⟩, ⟨S16384x16, x4⟩,
        ⟨S16384x19, x5⟩] h (ix2 r (⟨38 + q.val, by have := q.isLt; omega⟩ : Fin 89)) = x3 (ix2 r q) := by
  refine concatenate_apply_piece (1 : Fin S16384x89.rank)
    [⟨S16384x16, x0⟩, ⟨S16384x6, x1⟩, ⟨S16384x16, x2⟩, ⟨S16384x16, x3⟩, ⟨S16384x16, x4⟩, ⟨S16384x19, x5⟩]
    h _ 3 (show 3 < 6 by omega) S16384x16 x3 rfl rfl 38 rfl (ix2 r q)
    (fun b hb => ?_) rfl
  match b with
  | ⟨0, _⟩ => rfl
  | ⟨1, _⟩ => exact absurd rfl hb

/-- Columns 54–69: the fifth piece. -/
theorem cat_apply_4 (x0 : S16384x16.Idx → α) (x1 : S16384x6.Idx → α) (x2 x3 x4 : S16384x16.Idx → α)
    (x5 : S16384x19.Idx → α)
    (h : Shape.Concatenates [S16384x16, S16384x6, S16384x16, S16384x16, S16384x16, S16384x19] S16384x89 1)
    (r : Fin 16384) (q : Fin 16) :
    concatenate S16384x89 1 [⟨S16384x16, x0⟩, ⟨S16384x6, x1⟩, ⟨S16384x16, x2⟩, ⟨S16384x16, x3⟩, ⟨S16384x16, x4⟩,
        ⟨S16384x19, x5⟩] h (ix2 r (⟨54 + q.val, by have := q.isLt; omega⟩ : Fin 89)) = x4 (ix2 r q) := by
  refine concatenate_apply_piece (1 : Fin S16384x89.rank)
    [⟨S16384x16, x0⟩, ⟨S16384x6, x1⟩, ⟨S16384x16, x2⟩, ⟨S16384x16, x3⟩, ⟨S16384x16, x4⟩, ⟨S16384x19, x5⟩]
    h _ 4 (show 4 < 6 by omega) S16384x16 x4 rfl rfl 54 rfl (ix2 r q)
    (fun b hb => ?_) rfl
  match b with
  | ⟨0, _⟩ => rfl
  | ⟨1, _⟩ => exact absurd rfl hb

/-- Columns 70–88: the sixth piece. -/
theorem cat_apply_5 (x0 : S16384x16.Idx → α) (x1 : S16384x6.Idx → α) (x2 x3 x4 : S16384x16.Idx → α)
    (x5 : S16384x19.Idx → α)
    (h : Shape.Concatenates [S16384x16, S16384x6, S16384x16, S16384x16, S16384x16, S16384x19] S16384x89 1)
    (r : Fin 16384) (q : Fin 19) :
    concatenate S16384x89 1 [⟨S16384x16, x0⟩, ⟨S16384x6, x1⟩, ⟨S16384x16, x2⟩, ⟨S16384x16, x3⟩, ⟨S16384x16, x4⟩,
        ⟨S16384x19, x5⟩] h (ix2 r (⟨70 + q.val, by have := q.isLt; omega⟩ : Fin 89)) = x5 (ix2 r q) := by
  refine concatenate_apply_piece (1 : Fin S16384x89.rank)
    [⟨S16384x16, x0⟩, ⟨S16384x6, x1⟩, ⟨S16384x16, x2⟩, ⟨S16384x16, x3⟩, ⟨S16384x16, x4⟩, ⟨S16384x19, x5⟩]
    h _ 5 (show 5 < 6 by omega) S16384x19 x5 rfl rfl 70 rfl (ix2 r q)
    (fun b hb => ?_) rfl
  match b with
  | ⟨0, _⟩ => rfl
  | ⟨1, _⟩ => exact absurd rfl hb

/-- The band of features 1–6 of `content`: the slice from column 1, at `(r, i)`, is `content[r, 1 + i]`. -/
theorem band6_apply (a0 : S16384x29.Idx → α) (h : S16384x29.Slices ![0, 1] S16384x6) (r : Fin 16384) (i : Fin 6) :
    extractStridedSlice S16384x6 ![0, 1] a0 h (ix2 r i)
      = a0 (ix2 r (⟨1 + i.val, by have := i.isLt; omega⟩ : Fin 29)) := by
  refine extractStridedSlice_apply _ a0 h (ix2 r i) _ fun a => ?_
  match a with
  | ⟨0, _⟩ => show r.val = 0 + r.val; omega
  | ⟨1, _⟩ => rfl

/-- The band of features 10–28 of `content`: the slice from column 10, at `(r, i)`, is `content[r, 10 + i]`. -/
theorem band19_apply (a0 : S16384x29.Idx → α) (h : S16384x29.Slices ![0, 10] S16384x19) (r : Fin 16384) (i : Fin 19) :
    extractStridedSlice S16384x19 ![0, 10] a0 h (ix2 r i)
      = a0 (ix2 r (⟨10 + i.val, by have := i.isLt; omega⟩ : Fin 29)) := by
  refine extractStridedSlice_apply _ a0 h (ix2 r i) _ fun a => ?_
  match a with
  | ⟨0, _⟩ => show r.val = 0 + r.val; omega
  | ⟨1, _⟩ => rfl

end Cert.RefStage

end
-- ==== Proof.RefStageDot.lean ====
/-
  The reference's two matrix products, its weight transposes and its bias broadcasts, read at an index.

  `combined @ W_fc.T` is printed as a transpose of `W_fc` followed by a product contracting the left operand's columns
  with the right operand's rows; at `(r, k)` it is the sum over the 89 columns `q` of `combined[r, q] * W_fc[k, q]`.
  The bias is broadcast first to one row and then down the rows, so at `(r, k)` it is `b[k]`. The second layer is the
  same with 128 columns.
-/
import proofs.«129327_g79053168050384_cont_9to1_m_779_34_alg».proof.ReferenceIdeal
import Idealize.ShloMosaic.Lib.ValueIdx
import Idealize.ShloMosaic.Lib.ValueLayout
import Idealize.ShloMosaic.Lib.StackMember

noncomputable section

open scoped BigOperators

namespace Cert.RefStage

open Idealize.ShloMosaic Idealize.ShloMosaic.ValueIdx Cert.ReferenceIdeal

section
variable [Facts₀]

/-- The first product's dimension numbers are those of a plain rows-by-columns product. -/
theorem dot1_eq : dot_S16384x89_S89x128_S16384x128_1_0_0_1_n_n = DotDims.plain 16384 89 128 := rfl

/-- The second product's likewise. -/
theorem dot2_eq : dot_S16384x128_S128x128_S16384x128_1_0_0_1_n_n = DotDims.plain 16384 128 128 := rfl

/-- The first product at `(r, k)`: the sum over the 89 contracted columns. -/
theorem dot1_apply (l : FVec Ideal S16384x89 .f32) (w : FVec Ideal S89x128 .f32) (r : Fin 16384) (k : Fin 128) :
    Host.dotGeneral (F := Ideal) dot_S16384x89_S89x128_S16384x128_1_0_0_1_n_n none l w (ix2 r k)
      = ∑ q : Fin 89, l (ix2 r q) * w (ix2 q k) := by
  rw [dot1_eq]
  exact StackMember.dotGeneral_plain_apply none l w r k

/-- The second product at `(r, j)`: the sum over the 128 contracted columns. -/
theorem dot2_apply (l : FVec Ideal S16384x128 .f32) (w : FVec Ideal S128x128 .f32) (r : Fin 16384) (j : Fin 128) :
    Host.dotGeneral (F := Ideal) dot_S16384x128_S128x128_S16384x128_1_0_0_1_n_n none l w (ix2 r j)
      = ∑ k : Fin 128, l (ix2 r k) * w (ix2 k j) := by
  rw [dot2_eq]
  exact StackMember.dotGeneral_plain_apply none l w r j

end

/-- `W_fc` transposed, at `(q, k)`, is `W_fc[k, q]`. -/
theorem wfcT_apply (W : FVec Ideal S128x89 .f32) (h : S128x89.Transposes [1, 0] S89x128) (q : Fin 89) (k : Fin 128) :
    transpose S89x128 [1, 0] W h (ix2 q k) = W (ix2 k q) :=
  transpose_ix2_apply W h q k

/-- `W_res` transposed, at `(k, j)`, is `W_res[j, k]`. -/
theorem wresT_apply (W : FVec Ideal S128x128 .f32) (h : S128x128.Transposes [1, 0] S128x128) (k : Fin 128) (j : Fin 128) :
    transpose S128x128 [1, 0] W h (ix2 k j) = W (ix2 j k) :=
  transpose_ix2_apply W h k j

/-- A bias vector broadcast to one row and then down the 16384 rows reads `b[k]` at `(r, k)`. -/
theorem rowBias_apply (b : FVec Ideal S128 .f32) (h1 : S128.BroadcastsInDim S1x128 (![1] : Fin 1 → Fin S1x128.rank))
    (h2 : S1x128.BroadcastsInDim S16384x128 (![0, 1] : Fin 2 → Fin S16384x128.rank)) (r : Fin 16384) (k : Fin 128) :
    broadcastInDim S16384x128 ![0, 1] h2 (broadcastInDim S1x128 ![1] h1 b) (ix2 r k) = b (ix1 k) := by
  refine (broadcastInDim_apply _ h2 _ (ix2 r k) (ix2 (0 : Fin 1) k) fun a => ?_).trans ?_
  · match a with
    | ⟨0, _⟩ => rfl
    | ⟨1, _⟩ => rfl
  · refine broadcastInDim_apply _ h1 b (ix2 (0 : Fin 1) k) (ix1 k) fun a => ?_
    match a with
    | ⟨0, _⟩ => rfl

end Cert.RefStage

end
-- ==== Proof.RefStageAlg.lean ====
/-
  The algebra that joins the reference's one sum over the 89 concatenated columns to the grouped form.

  A sum over `Fin 89` is the sum of its six contiguous spans of lengths 16, 6, 16, 16, 16, 19 (starting at columns
  0, 16, 22, 38, 54, 70). Adding the bias and moving the two feature bands to the end is a regrouping of a sum in a
  commutative monoid; no distributivity and no finiteness is involved.
-/
import Mathlib.Algebra.BigOperators.Fin
import Mathlib.Data.EReal.Basic
import Mathlib.Tactic.Abel

open scoped BigOperators

namespace Cert.RefStage

/-- A sum over the 89 columns, split into the six contiguous spans. -/
theorem sum_fin89_split {M : Type*} [AddCommMonoid M] (f : Fin 89 → M) :
    ∑ q : Fin 89, f q
      = (((((∑ q : Fin 16, f ⟨0 + q.val, by have := q.isLt; omega⟩)
          + ∑ q : Fin 6, f ⟨16 + q.val, by have := q.isLt; omega⟩)
          + ∑ q : Fin 16, f ⟨22 + q.val, by have := q.isLt; omega⟩)
          + ∑ q : Fin 16, f ⟨38 + q.val, by have := q.isLt; omega⟩)
          + ∑ q : Fin 16, f ⟨54 + q.val, by have := q.isLt; omega⟩)
          + ∑ q : Fin 19, f ⟨70 + q.val, by have := q.isLt; omega⟩ := by
  show ∑ q : Fin (((((16 + 6) + 16) + 16) + 16) + 19), f q = _
  rw [Fin.sum_univ_add, Fin.sum_univ_add, Fin.sum_univ_add, Fin.sum_univ_add, Fin.sum_univ_add]
  refine congrArg₂ (· + ·) (congrArg₂ (· + ·) (congrArg₂ (· + ·) (congrArg₂ (· + ·) (congrArg₂ (· + ·) ?_ ?_) ?_) ?_) ?_) ?_ <;>
    exact Finset.sum_congr rfl fun q _ => congrArg f (Fin.ext (by simp))

/-- The six spans plus the bias, with the two feature bands moved to the end. -/
theorem regroup {M : Type*} [AddCommMonoid M] (A B1 R7 R8 R9 B2 bf : M) :
    (((((A + B1) + R7) + R8) + R9) + B2) + bf = ((((A + bf) + R7) + R8) + R9) + (B1 + B2) := by
  abel

end Cert.RefStage
-- ==== Proof.RefValue.lean ====
/-
  The reference's result term, read at an index, is the common function `Spec.G`.

  Under the index facts every index entry of `content` holds a valid row number `n` and its 32-bit word is `n`'s. So each
  lookup returns row `n` of its table, the 89 concatenated columns at row `r` are "avg row, features 1–6, first row,
  second row, third row, features 10–28", the first product is the sum over those 89 columns against row `k` of `W_fc`,
  and splitting that sum into its six spans and moving the bias next to the first span is the grouped form
  `Spec.hidden`. The relu is the maximum with zero and the second layer is the sum over the 128 hidden units against
  row `j` of `W_res`, plus `b_res j`: `Spec.outAt`.
-/
import proofs.«129327_g79053168050384_cont_9to1_m_779_34_alg».proof.Proof.RefTerm
import proofs.«129327_g79053168050384_cont_9to1_m_779_34_alg».proof.Proof.Spec
import proofs.«129327_g79053168050384_cont_9to1_m_779_34_alg».proof.Proof.RefStageIdx
import proofs.«129327_g79053168050384_cont_9to1_m_779_34_alg».proof.Proof.RefStageTake
import proofs.«129327_g79053168050384_cont_9to1_m_779_34_alg».proof.Proof.RefStageCat
import proofs.«129327_g79053168050384_cont_9to1_m_779_34_alg».proof.Proof.RefStageDot
import proofs.«129327_g79053168050384_cont_9to1_m_779_34_alg».proof.Proof.RefStageAlg

noncomputable section

open scoped BigOperators

namespace Cert.RefValue

open Idealize.ShloMosaic Idealize.ShloMosaic.ValueIdx Cert.ReferenceIdeal Cert.RefTerm Cert.RefStage Cert.Spec
open Cert.ReferenceIdeal.Facts₀ Cert.ReferenceIdeal.Facts

variable [Cert.ReferenceIdeal.Facts]

/-! ## The index words -/

/-- The word of column 0 at row `r`. -/
theorem idxCol0_apply (a0 : FVec Ideal S16384x29 .f32) (r : Fin 16384) :
    idxCol0 a0 (ix1 r) = Ideal.fptosi 32 (a0 (ix2 r (0 : Fin 29))) :=
  idxWord_apply 0 a0 slices_S16384x29_S16384x1_0_0 shapeCasts_S16384x1_S16384 r

/-- The word of column 7 at row `r`. -/
theorem idxCol7_apply (a0 : FVec Ideal S16384x29 .f32) (r : Fin 16384) :
    idxCol7 a0 (ix1 r) = Ideal.fptosi 32 (a0 (ix2 r (7 : Fin 29))) :=
  idxWord_apply 7 a0 slices_S16384x29_S16384x1_0_7 shapeCasts_S16384x1_S16384 r

/-- The word of column 8 at row `r`. -/
theorem idxCol8_apply (a0 : FVec Ideal S16384x29 .f32) (r : Fin 16384) :
    idxCol8 a0 (ix1 r) = Ideal.fptosi 32 (a0 (ix2 r (8 : Fin 29))) :=
  idxWord_apply 8 a0 slices_S16384x29_S16384x1_0_8 shapeCasts_S16384x1_S16384 r

/-- The word of column 9 at row `r`. -/
theorem idxCol9_apply (a0 : FVec Ideal S16384x29 .f32) (r : Fin 16384) :
    idxCol9 a0 (ix1 r) = Ideal.fptosi 32 (a0 (ix2 r (9 : Fin 29))) :=
  idxWord_apply 9 a0 slices_S16384x29_S16384x1_0_9 shapeCasts_S16384x1_S16384 r

/-! ## The 89 concatenated columns, span by span -/

/-- Columns 0–15: the looked-up row named by column 0 of `content`. -/
theorem combined_0 (a0 : FVec Ideal S16384x29 .f32) (a1 : FVec Ideal S91x16 .f32) (a2 : FVec Ideal S90x16 .f32)
    (h : IndexCols a0) (r : Fin 16384) (q : Fin 16) :
    combined a0 a1 a2 (ix2 r (⟨0 + q.val, by have := q.isLt; omega⟩ : Fin 89)) = rowAt (n := 91) a1 (rowOf (a0 (ix2 r (0 : Fin 29)))) q := by
  have hc : IsRow 91 (a0 (ix2 r (0 : Fin 29))) := (h r).1
  unfold combined
  refine (cat_apply_0 _ _ _ _ _ _ _ r q).trans ?_
  rw [take91_apply a1 (idxCol0 a0) r q _ hc.lt ((idxCol0_apply a0 r).trans hc.word)]
  unfold rowAt
  rw [dif_pos hc.lt]

/-- Columns 16–21: features 1–6 of `content`. -/
theorem combined_1 (a0 : FVec Ideal S16384x29 .f32) (a1 : FVec Ideal S91x16 .f32) (a2 : FVec Ideal S90x16 .f32)
    (r : Fin 16384) (q : Fin 6) :
    combined a0 a1 a2 (ix2 r (⟨16 + q.val, by have := q.isLt; omega⟩ : Fin 89)) = a0 (ix2 r (⟨1 + q.val, by have := q.isLt; omega⟩ : Fin 29)) := by
  unfold combined
  exact (cat_apply_1 _ _ _ _ _ _ _ r q).trans (band6_apply a0 _ r q)

/-- Columns 22–37: the looked-up row named by column 7 of `content`. -/
theorem combined_2 (a0 : FVec Ideal S16384x29 .f32) (a1 : FVec Ideal S91x16 .f32) (a2 : FVec Ideal S90x16 .f32)
    (h : IndexCols a0) (r : Fin 16384) (q : Fin 16) :
    combined a0 a1 a2 (ix2 r (⟨22 + q.val, by have := q.isLt; omega⟩ : Fin 89)) = rowAt (n := 90) a2 (rowOf (a0 (ix2 r (7 : Fin 29)))) q := by
  have hc : IsRow 90 (a0 (ix2 r (7 : Fin 29))) := (h r).2.1
  unfold combined
  refine (cat_apply_2 _ _ _ _ _ _ _ r q).trans ?_
  rw [take90_apply a2 (idxCol7 a0) r q _ hc.lt ((idxCol7_apply a0 r).trans hc.word)]
  unfold rowAt
  rw [dif_pos hc.lt]

/-- Columns 38–53: the looked-up row named by column 8 of `content`. -/
theorem combined_3 (a0 : FVec Ideal S16384x29 .f32) (a1 : FVec Ideal S91x16 .f32) (a2 : FVec Ideal S90x16 .f32)
    (h : IndexCols a0) (r : Fin 16384) (q : Fin 16) :
    combined a0 a1 a2 (ix2 r (⟨38 + q.val, by have := q.isLt; omega⟩ : Fin 89)) = rowAt (n := 90) a2 (rowOf (a0 (ix2 r (8 : Fin 29)))) q := by
  have hc : IsRow 90 (a0 (ix2 r (8 : Fin 29))) := (h r).2.2.1
  unfold combined
  refine (cat_apply_3 _ _ _ _ _ _ _ r q).trans ?_
  rw [take90_apply a2 (idxCol8 a0) r q _ hc.lt ((idxCol8_apply a0 r).trans hc.word)]
  unfold rowAt
  rw [dif_pos hc.lt]

/-- Columns 54–69: the looked-up row named by column 9 of `content`. -/
theorem combined_4 (a0 : FVec Ideal S16384x29 .f32) (a1 : FVec Ideal S91x16 .f32) (a2 : FVec Ideal S90x16 .f32)
    (h : IndexCols a0) (r : Fin 16384) (q : Fin 16) :
    combined a0 a1 a2 (ix2 r (⟨54 + q.val, by have := q.isLt; omega⟩ : Fin 89)) = rowAt (n := 90) a2 (rowOf (a0 (ix2 r (9 : Fin 29)))) q := by
  have hc : IsRow 90 (a0 (ix2 r (9 : Fin 29))) := (h r).2.2.2
  unfold combined
  refine (cat_apply_4 _ _ _ _ _ _ _ r q).trans ?_
  rw [take90_apply a2 (idxCol9 a0) r q _ hc.lt ((idxCol9_apply a0 r).trans hc.word)]
  unfold rowAt
  rw [dif_pos hc.lt]

/-- Columns 70–88: features 10–28 of `content`. -/
theorem combined_5 (a0 : FVec Ideal S16384x29 .f32) (a1 : FVec Ideal S91x16 .f32) (a2 : FVec Ideal S90x16 .f32)
    (r : Fin 16384) (q : Fin 19) :
    combined a0 a1 a2 (ix2 r (⟨70 + q.val, by have := q.isLt; omega⟩ : Fin 89)) = a0 (ix2 r (⟨10 + q.val, by have := q.isLt; omega⟩ : Fin 29)) := by
  unfold combined
  exact (cat_apply_5 _ _ _ _ _ _ _ r q).trans (band19_apply a0 _ r q)

/-! ## The first layer -/

/-- The one sum over the 89 columns, plus the bias, is the grouped form. -/
theorem hidden_eq (a0 : FVec Ideal S16384x29 .f32) (a1 : FVec Ideal S91x16 .f32) (a2 : FVec Ideal S90x16 .f32)
    (a3 : FVec Ideal S128x89 .f32) (a4 : FVec Ideal S128 .f32) (h : IndexCols a0) (r : Fin 16384) (k : Fin 128) :
    (∑ q : Fin 89, combined a0 a1 a2 (ix2 r q) * a3 (ix2 k q)) + a4 (ix1 k) = hidden a0 a1 a2 a3 a4 r k := by
  have e0 : ∑ q : Fin 16, combined a0 a1 a2 (ix2 r (⟨0 + q.val, by have := q.isLt; omega⟩ : Fin 89))
        * a3 (ix2 k (⟨0 + q.val, by have := q.isLt; omega⟩ : Fin 89))
      = rowDot a1 a3 (rowOf (a0 (ix2 r (0 : Fin 29)))) 0 (by omega) k := by
    unfold rowDot
    exact Finset.sum_congr rfl fun q _ => by rw [combined_0 a0 a1 a2 h r q]
  have e1 : ∑ q : Fin 6, combined a0 a1 a2 (ix2 r (⟨16 + q.val, by have := q.isLt; omega⟩ : Fin 89))
        * a3 (ix2 k (⟨16 + q.val, by have := q.isLt; omega⟩ : Fin 89))
      = bandDot a0 a3 6 1 16 (by omega) (by omega) r k := by
    unfold bandDot
    exact Finset.sum_congr rfl fun q _ => by rw [combined_1 a0 a1 a2 r q]
  have e2 : ∑ q : Fin 16, combined a0 a1 a2 (ix2 r (⟨22 + q.val, by have := q.isLt; omega⟩ : Fin 89))
        * a3 (ix2 k (⟨22 + q.val, by have := q.isLt; omega⟩ : Fin 89))
      = rowDot a2 a3 (rowOf (a0 (ix2 r (7 : Fin 29)))) 22 (by omega) k := by
    unfold rowDot
    exact Finset.sum_congr rfl fun q _ => by rw [combined_2 a0 a1 a2 h r q]
  have e3 : ∑ q : Fin 16, combined a0 a1 a2 (ix2 r (⟨38 + q.val, by have := q.isLt; omega⟩ : Fin 89))
        * a3 (ix2 k (⟨38 + q.val, by have := q.isLt; omega⟩ : Fin 89))
      = rowDot a2 a3 (rowOf (a0 (ix2 r (8 : Fin 29)))) 38 (by omega) k := by
    unfold rowDot
    exact Finset.sum_congr rfl fun q _ => by rw [combined_3 a0 a1 a2 h r q]
  have e4 : ∑ q : Fin 16, combined a0 a1 a2 (ix2 r (⟨54 + q.val, by have := q.isLt; omega⟩ : Fin 89))
        * a3 (ix2 k (⟨54 + q.val, by have := q.isLt; omega⟩ : Fin 89))
      = rowDot a2 a3 (rowOf (a0 (ix2 r (9 : Fin 29)))) 54 (by omega) k := by
    unfold rowDot
    exact Finset.sum_congr rfl fun q _ => by rw [combined_4 a0 a1 a2 h r q]
  have e5 : ∑ q : Fin 19, combined a0 a1 a2 (ix2 r (⟨70 + q.val, by have := q.isLt; omega⟩ : Fin 89))
        * a3 (ix2 k (⟨70 + q.val, by have := q.isLt; omega⟩ : Fin 89))
      = bandDot a0 a3 19 10 70 (by omega) (by omega) r k := by
    unfold bandDot
    exact Finset.sum_congr rfl fun q _ => by rw [combined_5 a0 a1 a2 r q]
  refine (congrArg (· + a4 (ix1 k))
    (sum_fin89_split fun q : Fin 89 => combined a0 a1 a2 (ix2 r q) * a3 (ix2 k q))).trans ?_
  refine (congrArg (· + a4 (ix1 k)) (congrArg₂ (· + ·) (congrArg₂ (· + ·) (congrArg₂ (· + ·)
    (congrArg₂ (· + ·) (congrArg₂ (· + ·) e0 e1) e2) e3) e4) e5)).trans ?_
  exact regroup _ _ _ _ _ _ _

/-- The first layer at `(r, k)`: the maximum of the grouped pre-activation with zero. -/
theorem layer1_apply (a0 : FVec Ideal S16384x29 .f32) (a1 : FVec Ideal S91x16 .f32) (a2 : FVec Ideal S90x16 .f32)
    (a3 : FVec Ideal S128x89 .f32) (a4 : FVec Ideal S128 .f32) (h : IndexCols a0) (r : Fin 16384) (k : Fin 128) :
    layer1 a0 a1 a2 a3 a4 (ix2 r k) = max (hidden a0 a1 a2 a3 a4 r k) 0 := by
  unfold layer1
  refine (maximumf_apply _ _ (ix2 r k)).trans (congrArg₂ max ?_ ?_)
  · refine (addf_apply _ _ (ix2 r k)).trans ?_
    rw [dot1_apply, rowBias_apply]
    refine Eq.trans (congrArg (· + a4 (ix1 k)) (Finset.sum_congr rfl fun q _ => ?_)) (hidden_eq a0 a1 a2 a3 a4 h r k)
    rw [wfcT_apply]
  · show Ideal.ofBits .f32 0x00000000#32 = 0
    exact Ideal.ofBits_zero_f32

/-! ## The result -/

/-- THE REFERENCE'S RESULT TERM IS THE COMMON FUNCTION, under the index facts. -/
theorem res_eq (a0 : FVec Ideal S16384x29 .f32) (a1 : FVec Ideal S91x16 .f32) (a2 : FVec Ideal S90x16 .f32)
    (a3 : FVec Ideal S128x89 .f32) (a4 : FVec Ideal S128 .f32) (a5 : FVec Ideal S128x128 .f32)
    (a6 : FVec Ideal S128 .f32) (h : Cert.Spec.IndexCols a0) :
    Cert.RefTerm.res a0 a1 a2 a3 a4 a5 a6 = Cert.Spec.G a0 a1 a2 a3 a4 a5 a6 := by
  funext i
  obtain ⟨r, j, rfl⟩ : ∃ (r : Fin 16384) (j : Fin 128), i = ix2 r j := ⟨i 0, i 1, eq_ix2 i⟩
  rw [G_ix2]
  unfold res outAt
  refine (addf_apply _ _ (ix2 r j)).trans ?_
  rw [dot2_apply, rowBias_apply]
  refine congrArg (· + a6 (ix1 j)) (Finset.sum_congr rfl fun k _ => ?_)
  rw [layer1_apply a0 a1 a2 a3 a4 h r k, wresT_apply]

end Cert.RefValue

end
-- ==== Proof.lean ====
/-
  Kernel against reference for the user-features MLP: the certificate's five claims.

  Both programs compute, for each of the 16384 rows of `content`, `relu(x · W_fcᵀ + b_fc) · W_resᵀ + b_res`, where `x` (89 numbers)
  is four embedding rows looked up by the row's index columns 0, 7, 8, 9 together with its 25 plain feature columns. The
  reference gathers the rows and concatenates; the kernel never forms `x`: it precomputes, once, each padded embedding table
  times its 16 weight columns (the bias folded into the first), picks a table row by a one-hot row times the table, and adds
  the feature columns times a weight block padded with zero rows at the index columns. Under the precondition — every
  index entry is, read as the reference reads it, a row number below its table's length, and holds exactly that integer — a
  one-hot row is 1 at that row number and 0 elsewhere, so its product with a table is the table's row (`0 · x = 0` and
  `1 · x = x` for every extended real); what remains is a regrouping of finite sums, which needs only that addition of
  extended reals is commutative and associative. Finiteness of the inputs is never used by the value argument.

  The three frames: the two kernel programs' are the generated frame certificates; the reference has no kernel, and its
  frame is its run with the result dropped. The kernel's idealization rewrote nothing, so `preserves` is `True`.
  `algebraic`: the kernel's result array ends at `Spec.G` of the arguments (the four row blocks written back cover it, each
  block the specified rows), the reference's at its composed term, which read at an index is `Spec.G` of arguments that agree.
-/
import proofs.«129327_g79053168050384_cont_9to1_m_779_34_alg».proof.Defs
import proofs.«129327_g79053168050384_cont_9to1_m_779_34_alg».proof.Proof.Gen.Kernel
import proofs.«129327_g79053168050384_cont_9to1_m_779_34_alg».proof.Proof.Gen.Kernel.Frame
import proofs.«129327_g79053168050384_cont_9to1_m_779_34_alg».proof.Proof.Gen.KernelIdeal
import proofs.«129327_g79053168050384_cont_9to1_m_779_34_alg».proof.Proof.Gen.KernelIdeal.Frame
import proofs.«129327_g79053168050384_cont_9to1_m_779_34_alg».proof.Proof.Gen.KernelIdeal.Value
import proofs.«129327_g79053168050384_cont_9to1_m_779_34_alg».proof.Proof.Gen.ReferenceIdeal
import proofs.«129327_g79053168050384_cont_9to1_m_779_34_alg».proof.Proof.Gen.Pre_finite_inputs
import proofs.«129327_g79053168050384_cont_9to1_m_779_34_alg».proof.Proof.Spec
import proofs.«129327_g79053168050384_cont_9to1_m_779_34_alg».proof.Proof.PreIndex
import proofs.«129327_g79053168050384_cont_9to1_m_779_34_alg».proof.Proof.KFinal
import proofs.«129327_g79053168050384_cont_9to1_m_779_34_alg».proof.Proof.RefRun
import proofs.«129327_g79053168050384_cont_9to1_m_779_34_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.RefRun.run m ρ)

theorem preserves : Cert.preserves_Kernel_KernelIdeal := trivial

/-- Both result arrays end at `Spec.G` of the argument arrays: the kernel's by its four row blocks, the reference's by its
    composed term read index by index, the arguments agreeing. -/
theorem algebraic : Cert.algebraic_KernelIdeal_ReferenceIdeal := by
  intro m ρ m' ρ' hpre hagree
  have hidx : ∀ c : Dev Cert.KernelIdeal.nD, Cert.Spec.IndexCols
      (m ((c.tc : Thread Cert.KernelIdeal.nD Cert.KernelIdeal.τ).loc Cert.KernelIdeal.main_arg0)) :=
    fun c => Cert.PreIndex.indexCols_of_pre _ _ _ _ _ _ _ (hpre c)
  refine ⟨fun c => Cert.KernelIdeal.Final.spec m c, Cert.KernelIdeal.Final.run m ρ hidx, ?_⟩
  refine (θ_run Cert.ReferenceIdeal.defs _ _).mono (fun _ h c => ⟨(h c).1.trans ?_, (h c).2⟩)
    (Cert.RefRun.run m' ρ')
  obtain ⟨e0, e1, e2, e3, e4, e5, e6⟩ := hagree c
  rw [e0, e1, e2, e3, e4, e5, e6]
  exact Cert.RefValue.res_eq _ _ _ _ _ _ _ (hidx c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
